-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x128 : Shape := ⟨2, ![4096, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S4096 : Shape := ⟨1, ![4096]⟩
abbrev S128x128 : Shape := ⟨2, ![128, 128]⟩
abbrev S128x1 : Shape := ⟨2, ![128, 1]⟩
abbrev S128x8192 : Shape := ⟨2, ![128, 8192]⟩
abbrev S1x8192 : Shape := ⟨2, ![1, 8192]⟩
abbrev S128 : Shape := ⟨1, ![128]⟩

abbrev nBuf : Space → Nat
  | .hbm => 30
  | .vmem => 5
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S8192, .f32⟩
  | .hbm, ⟨22, _⟩ => ⟨S8192x128, .bf16⟩
  | .hbm, ⟨23, _⟩ => ⟨S8192x1, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S128x128, .bf16⟩
  | .local _ .vmem, ⟨1, _⟩ => ⟨S128x128, .bf16⟩
  | .local _ .vmem, ⟨2, _⟩ => ⟨S8192x128, .bf16⟩
  | .local _ .vmem, ⟨3, _⟩ => ⟨S128x1, .f32⟩
  | .local _ .vmem, ⟨4, _⟩ => ⟨S128x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S4096x128_S4096x128_S8192x128_d0 : Shape.Concatenates [S4096x128, S4096x128] S8192x128 0
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  slices_S8192x128_S4096x128_0_0 : S8192x128.Slices ![0, 0] S4096x128
  slices_S8192x128_S4096x128_4096_0 : S8192x128.Slices ![4096, 0] S4096x128
  reducesTo_S4096x128_S4096_d1 : S4096x128.ReducesTo [1] S4096
  bcast_S_S4096 : S_.BroadcastsInDim S4096 (![] : Fin 0 → Fin S4096.rank)
  concatenates_S4096_S4096_S8192_d0 : Shape.Concatenates [S4096, S4096] S8192 0
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  iota_S128x1_d0_w32 : S128x1.Iotas .tc 32 [0]
  iota_S1x8192_d1_w32 : S1x8192.Iotas .tc 32 [1]
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S8192x1_S8192 : S8192x1.ShapeCasts S8192
  reducesTo_S8192_S_d0 : S8192.ReducesTo [0] S_
  dot_S128x128_S8192x128_S128x8192_1_1_0_0_n_n_wf : DotDims.WF S128x128 S8192x128 S128x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S8192x128.size a
  hwx0_0 : ∀ i : grid0.Coords, EltTy.bits .bf16 = 32 ∨ (Rect.block (s := S8192x128) S128x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)

variable [Facts₀]

def dot_S128x128_S8192x128_S128x8192_1_1_0_0_n_n : DotDims S128x128 S8192x128 S128x8192 where
  lhsContracting := [1]
  rhsContracting := [1]
  lhsNonContracting := [0]
  rhsNonContracting := [0]
  lhsBatch := []
  rhsBatch := []
  wf := dot_S128x128_S8192x128_S128x8192_1_1_0_0_n_n_wf

abbrev win0_0 : Pipeline.Window sig grid0 :=
  Pipeline.Window.ofSpec (Memref.whole main_v13) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x128 : Shape := ⟨2, ![4096, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩
abbrev S4096 : Shape := ⟨1, ![4096]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 78
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S128x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S8192, .i32⟩
  | .hbm, ⟨35, _⟩ => ⟨S_, .f32⟩
  | .hbm, ⟨36, _⟩ => ⟨S8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192x1, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1, .f32⟩
  | .hbm, ⟨48, _⟩ => ⟨S8192x8192, .f32⟩
  | .hbm, ⟨49, _⟩ => ⟨S8192x8192, .f32⟩
  | .hbm, ⟨50, _⟩ => ⟨S8192x1, .i32⟩
  | .hbm, ⟨51, _⟩ => ⟨S_, .i32⟩
  | .hbm, ⟨52, _⟩ => ⟨S8192x1, .i32⟩
  | .hbm, ⟨53, _⟩ => ⟨S8192x1, .i1⟩
  | .hbm, ⟨54, _⟩ => ⟨S_, .i32⟩
  | .hbm, ⟨55, _⟩ => ⟨S8192x1, .i32⟩
  | .hbm, ⟨56, _⟩ => ⟨S8192x1, .i32⟩
  | .hbm, ⟨57, _⟩ => ⟨S8192x1, .i32⟩
  | .hbm, ⟨58, _⟩ => ⟨S8192x1x1, .i32⟩
  | .hbm, ⟨59, _⟩ => ⟨S1, .i32⟩
  | .hbm, ⟨60, _⟩ => ⟨S_, .i32⟩
  | .hbm, ⟨61, _⟩ => ⟨S8192x1x1, .i32⟩
  | .hbm, ⟨62, _⟩ => ⟨S8192x1x1, .i1⟩
  | .hbm, ⟨63, _⟩ => ⟨S1x1x1, .i32⟩
  | .hbm, ⟨64, _⟩ => ⟨S8192x1x1, .i32⟩
  | .hbm, ⟨65, _⟩ => ⟨S8192x1x1, .i1⟩
  | .hbm, ⟨66, _⟩ => ⟨S8192x1x1, .i1⟩
  | .hbm, ⟨67, _⟩ => ⟨S_, .i1⟩
  | .hbm, ⟨68, _⟩ => ⟨S8192x1, .i1⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call1_cst : Ref sig .tc := ⟨.hbm, 35, rfl⟩
abbrev main_call1_v0 : Ref sig .tc := ⟨.hbm, 36, rfl⟩
abbrev main_call1_cst_0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_cst_1 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_v24 : Ref sig .tc := ⟨.hbm, 49, rfl⟩
abbrev main_v25 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_cst : Ref sig .tc := ⟨.hbm, 70, rfl⟩
abbrev main_call2_v14 : Ref sig .tc := ⟨.hbm, 71, rfl⟩
abbrev main_v26 : Ref sig .tc := ⟨.hbm, 72, rfl⟩
abbrev main_cst_3 : Ref sig .tc := ⟨.hbm, 73, rfl⟩
abbrev main_v27 : Ref sig .tc := ⟨.hbm, 74, rfl⟩
abbrev main_v28 : Ref sig .tc := ⟨.hbm, 75, rfl⟩
abbrev main_cst_4 : Ref sig .tc := ⟨.hbm, 76, rfl⟩
abbrev main_v29 : Ref sig .tc := ⟨.hbm, 77, rfl⟩

abbrev nD : Nat := 1
abbrev τ : Topo := Topo.v7x

variable {F : FTy → Type} [FloatOps F]

class Facts₀ : Prop where
  concatenates_S4096x128_S4096x128_S8192x128_d0 : Shape.Concatenates [S4096x128, S4096x128] S8192x128 0
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  bcast_S_S4096 : S_.BroadcastsInDim S4096 (![] : Fin 0 → Fin S4096.rank)
  concatenates_S4096_S4096_S8192_d0 : Shape.Concatenates [S4096, S4096] S8192 0
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  reducesTo_S8192x1_S_d0_1 : S8192x1.ReducesTo [0, 1] S_
  dot_S8192x128_S128x8192_S8192x8192_1_0_0_1_n_n_wf : DotDims.WF S8192x128 S128x8192 S8192x8192 [1] [0] [0] [1] [] []
  gather_S8192x8192_S8192x1x1_S8192x1_n_1_0_0_1_2_11_wf : GatherDims.WF S8192x8192 S8192x1x1 S8192x1 [] [1] [0] [1] [0] 2 ![1, 1]

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf

class Facts : Prop extends Facts₀ where

variable [Facts]
-- ==== Proof.FrameKernel.lean ====
/-
  The program's run: the kernel body at one grid point, the pipeline's proof data, and @main as five items.

  @main stacks the two inputs, takes the rows' norms, normalizes, forms the partners' similarities (three stretches of
  host operations), launches the kernel once over 64 grid points, and reduces the kernel's column to one number (a
  fourth stretch). Between two items the core holds every unscoped buffer whole at the contents computed so far.

  At point `t` the body finds in its first buffer block `t` of the normalized matrix (128 rows), in its second the
  whole matrix, and leaves in its third one column of 128 numbers computed from those two; it reads nothing else and
  keeps nothing between points. The first two windows are blocks of ONE array, which the pipeline therefore holds at
  two half shares; the third is the result array, written back block by block.
-/
import proofs.«107459_j7189775253513_1_alg».proof.Proof.Gen.Kernel.Launch
import proofs.«107459_j7189775253513_1_alg».proof.Proof.Gen.Kernel.Skeleton
import proofs.«107459_j7189775253513_1_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents up to the region -/

/-- Core `c`'s buffers at launch, -/
abbrev V0 (c : Dev nD) : Valuation τ sig (Elt F) := fun b => m (c, b)
/-- after the two inputs are stacked, -/
abbrev V1 (c : Dev nD) : Valuation τ sig (Elt F) := StableHlo.after hostOps0 (V0 m c)
/-- after the rows' norms are taken, -/
abbrev V2 (c : Dev nD) : Valuation τ sig (Elt F) := StableHlo.after hostOps0_1 (V1 m c)
/-- and when the region is entered. -/
abbrev V3 (c : Dev nD) : Valuation τ sig (Elt F) := StableHlo.after hostOps0_2 (V2 m c)

/-- The same, by reference. -/
abbrev V (c : Dev nD) (b : Ref sig .tc) : Buf (Elt F) ((c : Thread nD τ).loc b) := V3 m c b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the result's buffer -/

abbrev rA : Rect S128x128 := Rect.unit (s := S128x128) ![0, 0] S128x128.size inb_S128x128_S128x128_0_0
abbrev rB : Rect S8192x128 := Rect.unit (s := S8192x128) ![0, 0] S8192x128.size inb_S8192x128_S8192x128_0_0
abbrev rC : Rect S128x1 := Rect.unit (s := S128x1) ![0, 0] S128x1.size inb_S128x1_S128x1_0_0

/-- The result's buffer after the body at grid coordinates `i`: its one store, of the column computed from the two
    inputs' buffers. -/
def out2 (i : grid0.Coords) (x0 : Vec F S128x128 .bf16) (x1 : Vec F S8192x128 .bf16) : Vec F S128x1 .f32 :=
  View.canon [⟨rC, k0_pay1 i (View.ld x0 rA) (View.ld x1 rB)⟩]

/-- The store covers the buffer. -/
theorem cover2 (p0 : Vec F S128x1 .f32) (y : S128x1.Idx) :
    ∃ pc ∈ ([⟨rC, p0⟩] : List (View.Piece (Elt F) S128x1 .f32)), y ∈ pc.1.set :=
  View.cover_of_tiled [⟨rC, p0⟩] S128x1.size (by rfl) y

/-! ## The body's triple -/

set_option maxHeartbeats 1000000 in
/-- On whole buffers, the inputs' at contents `x0`, `x1` and the result's at anything, the body runs to its return
    holding the inputs' as they were and the result's at `out2 i x0 x1`. -/
theorem sound_kernel (c : Dev nD) (E : Set ℕ) (i : grid0.Coords) (arg1 : Memref sig .tc .vmem S128x128 .bf16) (harg1 : arg1.IsWhole) (arg2 : Memref sig .tc .vmem S8192x128 .bf16) (harg2 : arg2.IsWhole) (arg3 : Memref sig .tc .vmem S128x1 .f32) (harg3 : arg3.IsWhole)
    (x0 : Vec F S128x128 .bf16) (x1 : Vec F S8192x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 i x0 x1)) -∗ K ⟨⟩))
      ⊢ wp frame (wpE (defs₀ (F := F)) Variants.none c none) E (cc0__lse_kernel i arg1 harg1 arg2 harg2 arg3 harg3) K := by
  simp only [cc0__lse_kernel_eq_skeleton]; unfold cc0__lse_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The proof data on core `c`: the arrays as the region finds them; after the body at point `t` each input's buffer
    at its block and the result's at `out2` of the two blocks; the invariant the scoped buffers no window stages;
    nothing owed; the one array the two input windows read held at two half shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (grid0.coords t) (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = out2 (grid0.coords t) (iblk m c 0 t) (iblk m c 1 t) := by dsimp only [dats]

/-- Each input's current buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the triple applies; the invariant and the core's
    dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## @main as segments -/

open Idealize.ShloMosaic.Pipeline (Seg HostSeg RegionSeg)

/-- What the core owes nobody: its dues, at zero. -/
abbrev E (c : Dev nD) : sProp 𝕄 := iprop(∃ W, owes (c : Thread nD τ) (0 : CellTallies nD τ sig Unit) W)

/-- The result array as the region leaves it, -/
abbrev finalOut (c : Dev nD) : Buf (Elt F) ((c : Thread nD τ).loc main_v14) := (dats m 0 c).arrAt 2 cfg0.N
/-- the buffers then, -/
abbrev V4 (c : Dev nD) : Valuation τ sig (Elt F) := Function.update (V3 m c) main_v14 (finalOut m c)
/-- and at the end. -/
abbrev V5 (c : Dev nD) : Valuation τ sig (Elt F) := StableHlo.after hostOps1 (V4 m c)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

abbrev L : GSem nD τ sig → Finset Unit := fun _ => ∅
abbrev lv : GSem nD τ sig → Unit → ℕ := fun _ _ => 0
abbrev adm : (p : Fin 1) → (pcfgs (F := F) p).Adm := fun p => (cfgs p).toPCfg_adm

def seg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) E
def seg1 : HostSeg (Ix := Unit) (Name := ℕ) (U := UR sig nD τ) (Lvl := ℕ) (pcfgs (F := F)) defs₀ Variants.none L lv :=
  HostSeg.ofOps _ _ _ _ _ (Pipeline.ucRefs τ sig) hostOps0_1
    (fun op h => Pipeline.sub_ucRefs op ((List.forall_iff_forall_mem.mp hostOps0_1_sub) op h))
    (fun op h => (List.forall_iff_forall_mem.mp hostOps0_1_fresh) op h) (V1 m) E
def seg2 : HostSeg (Ix := Unit) (Name := ℕ) (U := UR sig nD τ) (Lvl := ℕ) (pcfgs (F := F)) defs₀ Variants.none L lv :=
  HostSeg.ofOps _ _ _ _ _ (Pipeline.ucRefs τ sig) hostOps0_2
    (fun op h => Pipeline.sub_ucRefs op ((List.forall_iff_forall_mem.mp hostOps0_2_sub) op h))
    (fun op h => (List.forall_iff_forall_mem.mp hostOps0_2_fresh) op h) (V2 m) E
def seg4 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V4 m) E

/-! ## The region's two ends -/

theorem V4_out (c : Dev nD) : V4 m c main_v14 = finalOut m c := by
  simp only [V4, Function.update_self]
theorem V4_of (c : Dev nD) (r : Ref sig .tc) (h : r ≠ main_v14) : V4 m c r = V3 m c r := by
  simp only [V4, Function.update_of_ne (StableHlo.devRef_ne_of_ne h : (Proc.devRef .tc r : DevRef τ sig) ≠ Proc.devRef .tc main_v14)]

/-- The two distinct arrays behind the three windows, named. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v13) ↦{fullShare} W main_v13) ∗ (((c : Thread nD τ).loc main_v14) ↦{fullShare} W main_v14)) := by
  unfold Pipeline.arrBufs
  exact bigSep_eq_bigSepL_of_eq [main_v13, main_v14] (by decide) (by decide) _

/-- The pipeline's arrays, window by window: the normalized matrix at two half shares, the result at the full share. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_v13) ↦{fullShare.left} G 0) ∗ (((c : Thread nD τ).loc main_v13) ↦{fullShare.right} G 1)
          ∗ (((c : Thread nD τ).loc main_v14) ↦{fullShare} G 2)) := by
  unfold Dat.arrays
  rw [bigSep_W0, (arr_whole0 0).set_eq_univ, (arr_whole0 2).set_eq_univ]
  rfl

/-- Off the result array the buffers are as the region found them. -/
theorem rest_congr (c : Dev nD) :
    (Pipeline.unscopedRest (Ix := Unit) (Name := ℕ) (U := UR sig nD τ) (Lvl := ℕ) spec0 c (fun b => V4 m c b) : sProp 𝕄)
      = Pipeline.unscopedRest spec0 c (V m c) := by
  unfold Pipeline.unscopedRest
  refine bigSep_congr fun b hb => ?_
  have hne : b ≠ main_v14 := fun e => (Finset.mem_sdiff.mp hb).2 (e ▸ Finset.mem_image.mpr ⟨2, Finset.mem_univ _, rfl⟩)
  dsimp only
  rw [V4_of m c b hne]

set_option backward.isDefEq.respectTransparency.types false in
def reg0 : RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V3 m c) ∗ E c)
  post c := iprop(StableHlo.held (c : Thread nD τ) (Pipeline.ucRefs τ sig) (V4 m c) ∗ E c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (V3 m c) = unscopedBufs c (V m c) from (Pipeline.unscopedBufs_held c _).symm,
      Pipeline.unscopedBufs_split₀ cfgs 0 winFacts₀0.arr_unscoped c (V m c), arrBufs_eq, arrays_eq]
    iintro ⟨⟨⟨⟨H13, H14⟩, Hrest⟩, HO⟩, -, -⟩
    ihave H13 := (pointsTo_share (PosShare.mem_left_op_right fullShare)).1 $$ H13
    icases H13 with ⟨H13l, H13r⟩
    imodintro
    isplitl [H13l H13r H14]
    · isplitl [H13l]; · iexact H13l
      isplitl [H13r]; · iexact H13r
      iexact H14
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest spec0 c from rfl]
    iintro ⟨-, -, Hr⟩
    iexact Hr
  hout c := by
    rw [Pipeline.ownSems0_none, show (dats m 0 c).Φ (Fin.last cfg0.N) = Pipeline.scopedRest spec0 c from rfl]
    iintro Hr
    isplitr; · iempintro
    isplitr; · iempintro
    iexact Hr
  hexit c := by
    rw [show StableHlo.held (c : Thread nD τ) (Pipeline.ucRefs τ sig) (V4 m c) = unscopedBufs c (fun b => V4 m c b) from (Pipeline.unscopedBufs_held c _).symm,
      Pipeline.unscopedBufs_split₀ cfgs 0 winFacts₀0.arr_unscoped c (fun b => V4 m c b), arrBufs_eq, arrays_eq, rest_congr,
      V4_out, V4_of m c main_v13 (by decide)]
    iintro ⟨⟨H13l, H13r, H14⟩, HO, -, Hrest⟩
    rw [show (dats m 0 c).arrAt 0 cfg0.N = V m c main_v13 from ((dats m 0 c).arrAt_in 0 rfl _).trans (A_eq m c 0),
      show (dats m 0 c).arrAt 1 cfg0.N = V m c main_v13 from ((dats m 0 c).arrAt_in 1 rfl _).trans (A_eq m c 1)]
    ihave H13 := (pointsTo_share (PosShare.mem_left_op_right fullShare)).2 $$ [H13l H13r]
    · isplitl [H13l]; · iexact H13l
      iexact H13r
    imodintro
    isplitr [HO]
    · isplitl [H13 H14]
      · isplitl [H13]; · iexact H13
        iexact H14
      iexact Hrest
    · unfold Pipeline.Dat.owesAt Pipeline.owesWithin
      icases HO with ⟨%W, -, HO⟩; iexists W; iexact HO

/-! ## What the host stretches write -/

abbrev hostOps0_W : List (Ref sig .tc) := [main_v0]
abbrev hostOps0_1_W : List (Ref sig .tc) := [main_call0_v0, main_call0_cst, main_call0_v1, main_call0_v2, main_v1]
abbrev hostOps0_2_W : List (Ref sig .tc) :=
  [main_cst, main_v2, main_v3, main_v4, main_v5, main_v6, main_v7, main_v8, main_cst_0, main_v9, main_cst_1, main_v10, main_v11, main_v12, main_v13]
abbrev hostOps1_W : List (Ref sig .tc) := [main_v15, main_v16, main_cst_2, main_v17, main_cst_3, main_v18]

theorem hostOps0_writes : (hostOps0 : List (HloOp τ sig (Elt F))).Forall fun op => op.writes ⊆ (hostOps0_W.map (Proc.devRef (τ := τ) .tc)).toFinset := by
  simp only [List.Forall]
  exact Finset.singleton_subset_iff.mpr (List.mem_toFinset.mpr (List.mem_map_of_mem (by decide)))
theorem hostOps0_1_writes : (hostOps0_1 : List (HloOp τ sig (Elt F))).Forall fun op => op.writes ⊆ (hostOps0_1_W.map (Proc.devRef (τ := τ) .tc)).toFinset := by
  simp only [List.Forall]
  refine ⟨?_, ?_, ?_, ?_, ?_⟩ <;> exact Finset.singleton_subset_iff.mpr (List.mem_toFinset.mpr (List.mem_map_of_mem (by decide)))
theorem hostOps0_2_writes : (hostOps0_2 : List (HloOp τ sig (Elt F))).Forall fun op => op.writes ⊆ (hostOps0_2_W.map (Proc.devRef (τ := τ) .tc)).toFinset := by
  simp only [List.Forall]
  refine ⟨?_, ?_, ?_, ?_, ?_, ?_, ?_, ?_, ?_, ?_, ?_, ?_, ?_, ?_, ?_⟩ <;> exact Finset.singleton_subset_iff.mpr (List.mem_toFinset.mpr (List.mem_map_of_mem (by decide)))
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_⟩ <;> exact Finset.singleton_subset_iff.mpr (List.mem_toFinset.mpr (List.mem_map_of_mem (by decide)))

/-- A buffer no stretch writes, other than the result array, holds its launch contents at the end. -/
theorem V5_keep (c : Dev nD) (r : Ref sig .tc) (h0 : r ∉ hostOps0_W) (h1 : r ∉ hostOps0_1_W) (h2 : r ∉ hostOps0_2_W)
    (h3 : r ≠ main_v14) (h4 : r ∉ hostOps1_W) : V5 m c r = m ((c : Thread nD τ).loc r) :=
  (StableHlo.after_of_writes_sub hostOps1 _ hostOps1_writes h4).trans <| (V4_of m c r h3).trans <|
    (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans rfl

theorem V5_arg0 (c : Dev nD) : V5 m c main_arg0 = m ((c : Thread nD τ).loc main_arg0) :=
  V5_keep m c main_arg0 (by decide) (by decide) (by decide) (by decide) (by decide)
theorem V5_arg1 (c : Dev nD) : V5 m c main_arg1 = m ((c : Thread nD τ).loc main_arg1) :=
  V5_keep m c main_arg1 (by decide) (by decide) (by decide) (by decide) (by decide)

/-! ## The launch -/

/-- @main as the list of its five items. -/
abbrev segs : List (Seg (pcfgs (F := F)) adm (dats m) () defs₀ Variants.none L lv) :=
  [.host (seg0 m), .host (seg1 m), .host (seg2 m), .region (reg0 m), .host (seg4 m)]

/-- The launch element: the pipeline library's, at the staging cells. -/
def u₀ : UR sig nD τ := initOf (Pipeline.cells cfgs cellOf_inj) (Pipeline.launchToks cfgs cellOf_inj)

set_option backward.isDefEq.respectTransparency.types false in
/-- From any memory with zero counters every weakly fair execution of @main terminates, nothing faulting, and every
    final state has every unscoped buffer at the contents the five items compute in turn. -/
theorem run_main (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V5 m c b) := by
  refine Pipeline.θ_run_regions_kit (pcfgs (F := F)) adm (dats m) () cellOf_inj emb₁ defs₀ Variants.none L lv m ρ main (segs m)
    (fun c Q => by
      rewrite [main_chain c, Seg.run_eq_chain,
        show (segs m).map Seg.prog = [
          StableHlo.seq hostOps0,
          StableHlo.seq hostOps0_1,
          StableHlo.seq hostOps0_2,
          Prog.lift (.customCall (Pipeline.entry 0) ()),
          StableHlo.seq hostOps1 ] from rfl]
      exact .rfl)
    (by simp only [segs, Seg.pipes_host, Seg.pipes_region, Seg.pipes_nil]; decide) (O₀ := 0) (hL := fun _ _ => rfl)
    (G := fun _ => iprop(emp)) (u₀ := u₀)
    (hu₀ := by
      rw [ownU_emb₁]
      unfold u₀
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E c))
    (Tₙ := fun c => StableHlo.held (c : Thread nD τ) (Pipeline.ucRefs τ sig) (V5 m c))
    (hch := ⟨fun _ => .rfl, fun _ => .rfl, fun _ => .rfl, fun _ => .rfl, fun _ => .rfl, fun _ => .rfl⟩)
    (hinit := ?_)
    (QY := fun c s => ∀ b ∈ Pipeline.ucRefs τ sig, s.mem ((c : Thread nD τ).1, b) = V5 m c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V5 m c) s') $$ [Hh HSI]
    · isplitl [Hh] <;> iassumption
    icases Hr with ⟨%h, HSI⟩
    imodintro
    isplitr
    · ipureintro; exact h
    · iexact HSI

/-- THE FRAME: the two arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c (Proc.devRef .tc main_arg0) (Finset.mem_filter.mpr ⟨StableHlo.devRef_mem_tcRefs main_arg0, by decide⟩)).trans (V5_arg0 m c),
     (h c (Proc.devRef .tc main_arg1) (Finset.mem_filter.mpr ⟨StableHlo.devRef_mem_tcRefs main_arg1, by decide⟩)).trans (V5_arg1 m c)⟩)
    (run_main m ρ)

/-- The same run with the result named: the last buffer at what the tail computes from the region's result array. -/
theorem run_value (ρ : Dev nD → PrngReg) : θ_run defs (onTc (τ := τ) (main (F := F))) ⟨m, fun _ => 0, ρ⟩ (fun r => ∀ c : Dev nD,
      r.2.mem ((c.tc : Thread nD τ).loc main_v18) = V5 m c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c (Proc.devRef .tc main_v18) (Finset.mem_filter.mpr ⟨StableHlo.devRef_mem_tcRefs main_v18, by decide⟩),
     (h c (Proc.devRef .tc main_arg0) (Finset.mem_filter.mpr ⟨StableHlo.devRef_mem_tcRefs main_arg0, by decide⟩)).trans (V5_arg0 m c),
     (h c (Proc.devRef .tc main_arg1) (Finset.mem_filter.mpr ⟨StableHlo.devRef_mem_tcRefs main_arg1, by decide⟩)).trans (V5_arg1 m c)⟩)
    (run_main m ρ)

end Cert.Kernel.Hand

end
-- ==== Proof.FrameKernelIdeal.lean ====
/-
  The program's run: the kernel body at one grid point, the pipeline's proof data, and @main as five items.

  @main stacks the two inputs, takes the rows' norms, normalizes, forms the partners' similarities (three stretches of
  host operations), launches the kernel once over 64 grid points, and reduces the kernel's column to one number (a
  fourth stretch). Between two items the core holds every unscoped buffer whole at the contents computed so far.

  At point `t` the body finds in its first buffer block `t` of the normalized matrix (128 rows), in its second the
  whole matrix, and leaves in its third one column of 128 numbers computed from those two; it reads nothing else and
  keeps nothing between points. The first two windows are blocks of ONE array, which the pipeline therefore holds at
  two half shares; the third is the result array, written back block by block.
-/
import proofs.«107459_j7189775253513_1_alg».proof.Proof.Gen.KernelIdeal.Launch
import proofs.«107459_j7189775253513_1_alg».proof.Proof.Gen.KernelIdeal.Skeleton
import proofs.«107459_j7189775253513_1_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents up to the region -/

/-- Core `c`'s buffers at launch, -/
abbrev V0 (c : Dev nD) : Valuation τ sig (Elt F) := fun b => m (c, b)
/-- after the two inputs are stacked, -/
abbrev V1 (c : Dev nD) : Valuation τ sig (Elt F) := StableHlo.after hostOps0 (V0 m c)
/-- after the rows' norms are taken, -/
abbrev V2 (c : Dev nD) : Valuation τ sig (Elt F) := StableHlo.after hostOps0_1 (V1 m c)
/-- and when the region is entered. -/
abbrev V3 (c : Dev nD) : Valuation τ sig (Elt F) := StableHlo.after hostOps0_2 (V2 m c)

/-- The same, by reference. -/
abbrev V (c : Dev nD) (b : Ref sig .tc) : Buf (Elt F) ((c : Thread nD τ).loc b) := V3 m c b

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the result's buffer -/

abbrev rA : Rect S128x128 := Rect.unit (s := S128x128) ![0, 0] S128x128.size inb_S128x128_S128x128_0_0
abbrev rB : Rect S8192x128 := Rect.unit (s := S8192x128) ![0, 0] S8192x128.size inb_S8192x128_S8192x128_0_0
abbrev rC : Rect S128x1 := Rect.unit (s := S128x1) ![0, 0] S128x1.size inb_S128x1_S128x1_0_0

/-- The result's buffer after the body at grid coordinates `i`: its one store, of the column computed from the two
    inputs' buffers. -/
def out2 (i : grid0.Coords) (x0 : Vec F S128x128 .bf16) (x1 : Vec F S8192x128 .bf16) : Vec F S128x1 .f32 :=
  View.canon [⟨rC, k0_pay1 i (View.ld x0 rA) (View.ld x1 rB)⟩]

/-- The store covers the buffer. -/
theorem cover2 (p0 : Vec F S128x1 .f32) (y : S128x1.Idx) :
    ∃ pc ∈ ([⟨rC, p0⟩] : List (View.Piece (Elt F) S128x1 .f32)), y ∈ pc.1.set :=
  View.cover_of_tiled [⟨rC, p0⟩] S128x1.size (by rfl) y

/-! ## The body's triple -/

set_option maxHeartbeats 1000000 in
/-- On whole buffers, the inputs' at contents `x0`, `x1` and the result's at anything, the body runs to its return
    holding the inputs' as they were and the result's at `out2 i x0 x1`. -/
theorem sound_kernel (c : Dev nD) (E : Set ℕ) (i : grid0.Coords) (arg1 : Memref sig .tc .vmem S128x128 .bf16) (harg1 : arg1.IsWhole) (arg2 : Memref sig .tc .vmem S8192x128 .bf16) (harg2 : arg2.IsWhole) (arg3 : Memref sig .tc .vmem S128x1 .f32) (harg3 : arg3.IsWhole)
    (x0 : Vec F S128x128 .bf16) (x1 : Vec F S8192x128 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 i x0 x1)) -∗ K ⟨⟩))
      ⊢ wp frame (wpE (defs₀ (F := F)) Variants.none c none) E (cc0__lse_kernel i arg1 harg1 arg2 harg2 arg3 harg3) K := by
  simp only [cc0__lse_kernel_eq_skeleton]; unfold cc0__lse_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The proof data on core `c`: the arrays as the region finds them; after the body at point `t` each input's buffer
    at its block and the result's at `out2` of the two blocks; the invariant the scoped buffers no window stages;
    nothing owed; the one array the two input windows read held at two half shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (grid0.coords t) (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) :
    (dats m 0 c).after 2 t = out2 (grid0.coords t) (iblk m c 0 t) (iblk m c 1 t) := by dsimp only [dats]

/-- Each input's current buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the triple applies; the invariant and the core's
    dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## @main as segments -/

open Idealize.ShloMosaic.Pipeline (Seg HostSeg RegionSeg)

/-- What the core owes nobody: its dues, at zero. -/
abbrev E (c : Dev nD) : sProp 𝕄 := iprop(∃ W, owes (c : Thread nD τ) (0 : CellTallies nD τ sig Unit) W)

/-- The result array as the region leaves it, -/
abbrev finalOut (c : Dev nD) : Buf (Elt F) ((c : Thread nD τ).loc main_v14) := (dats m 0 c).arrAt 2 cfg0.N
/-- the buffers then, -/
abbrev V4 (c : Dev nD) : Valuation τ sig (Elt F) := Function.update (V3 m c) main_v14 (finalOut m c)
/-- and at the end. -/
abbrev V5 (c : Dev nD) : Valuation τ sig (Elt F) := StableHlo.after hostOps1 (V4 m c)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

abbrev L : GSem nD τ sig → Finset Unit := fun _ => ∅
abbrev lv : GSem nD τ sig → Unit → ℕ := fun _ _ => 0
abbrev adm : (p : Fin 1) → (pcfgs (F := F) p).Adm := fun p => (cfgs p).toPCfg_adm

def seg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) E
def seg1 : HostSeg (Ix := Unit) (Name := ℕ) (U := UR sig nD τ) (Lvl := ℕ) (pcfgs (F := F)) defs₀ Variants.none L lv :=
  HostSeg.ofOps _ _ _ _ _ (Pipeline.ucRefs τ sig) hostOps0_1
    (fun op h => Pipeline.sub_ucRefs op ((List.forall_iff_forall_mem.mp hostOps0_1_sub) op h))
    (fun op h => (List.forall_iff_forall_mem.mp hostOps0_1_fresh) op h) (V1 m) E
def seg2 : HostSeg (Ix := Unit) (Name := ℕ) (U := UR sig nD τ) (Lvl := ℕ) (pcfgs (F := F)) defs₀ Variants.none L lv :=
  HostSeg.ofOps _ _ _ _ _ (Pipeline.ucRefs τ sig) hostOps0_2
    (fun op h => Pipeline.sub_ucRefs op ((List.forall_iff_forall_mem.mp hostOps0_2_sub) op h))
    (fun op h => (List.forall_iff_forall_mem.mp hostOps0_2_fresh) op h) (V2 m) E
def seg4 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V4 m) E

/-! ## The region's two ends -/

theorem V4_out (c : Dev nD) : V4 m c main_v14 = finalOut m c := by
  simp only [V4, Function.update_self]
theorem V4_of (c : Dev nD) (r : Ref sig .tc) (h : r ≠ main_v14) : V4 m c r = V3 m c r := by
  simp only [V4, Function.update_of_ne (StableHlo.devRef_ne_of_ne h : (Proc.devRef .tc r : DevRef τ sig) ≠ Proc.devRef .tc main_v14)]

/-- The two distinct arrays behind the three windows, named. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v13) ↦{fullShare} W main_v13) ∗ (((c : Thread nD τ).loc main_v14) ↦{fullShare} W main_v14)) := by
  unfold Pipeline.arrBufs
  exact bigSep_eq_bigSepL_of_eq [main_v13, main_v14] (by decide) (by decide) _

/-- The pipeline's arrays, window by window: the normalized matrix at two half shares, the result at the full share. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_v13) ↦{fullShare.left} G 0) ∗ (((c : Thread nD τ).loc main_v13) ↦{fullShare.right} G 1)
          ∗ (((c : Thread nD τ).loc main_v14) ↦{fullShare} G 2)) := by
  unfold Dat.arrays
  rw [bigSep_W0, (arr_whole0 0).set_eq_univ, (arr_whole0 2).set_eq_univ]
  rfl

/-- Off the result array the buffers are as the region found them. -/
theorem rest_congr (c : Dev nD) :
    (Pipeline.unscopedRest (Ix := Unit) (Name := ℕ) (U := UR sig nD τ) (Lvl := ℕ) spec0 c (fun b => V4 m c b) : sProp 𝕄)
      = Pipeline.unscopedRest spec0 c (V m c) := by
  unfold Pipeline.unscopedRest
  refine bigSep_congr fun b hb => ?_
  have hne : b ≠ main_v14 := fun e => (Finset.mem_sdiff.mp hb).2 (e ▸ Finset.mem_image.mpr ⟨2, Finset.mem_univ _, rfl⟩)
  dsimp only
  rw [V4_of m c b hne]

set_option backward.isDefEq.respectTransparency.types false in
def reg0 : RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V3 m c) ∗ E c)
  post c := iprop(StableHlo.held (c : Thread nD τ) (Pipeline.ucRefs τ sig) (V4 m c) ∗ E c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (V3 m c) = unscopedBufs c (V m c) from (Pipeline.unscopedBufs_held c _).symm,
      Pipeline.unscopedBufs_split₀ cfgs 0 winFacts₀0.arr_unscoped c (V m c), arrBufs_eq, arrays_eq]
    iintro ⟨⟨⟨⟨H13, H14⟩, Hrest⟩, HO⟩, -, -⟩
    ihave H13 := (pointsTo_share (PosShare.mem_left_op_right fullShare)).1 $$ H13
    icases H13 with ⟨H13l, H13r⟩
    imodintro
    isplitl [H13l H13r H14]
    · isplitl [H13l]; · iexact H13l
      isplitl [H13r]; · iexact H13r
      iexact H14
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest spec0 c from rfl]
    iintro ⟨-, -, Hr⟩
    iexact Hr
  hout c := by
    rw [Pipeline.ownSems0_none, show (dats m 0 c).Φ (Fin.last cfg0.N) = Pipeline.scopedRest spec0 c from rfl]
    iintro Hr
    isplitr; · iempintro
    isplitr; · iempintro
    iexact Hr
  hexit c := by
    rw [show StableHlo.held (c : Thread nD τ) (Pipeline.ucRefs τ sig) (V4 m c) = unscopedBufs c (fun b => V4 m c b) from (Pipeline.unscopedBufs_held c _).symm,
      Pipeline.unscopedBufs_split₀ cfgs 0 winFacts₀0.arr_unscoped c (fun b => V4 m c b), arrBufs_eq, arrays_eq, rest_congr,
      V4_out, V4_of m c main_v13 (by decide)]
    iintro ⟨⟨H13l, H13r, H14⟩, HO, -, Hrest⟩
    rw [show (dats m 0 c).arrAt 0 cfg0.N = V m c main_v13 from ((dats m 0 c).arrAt_in 0 rfl _).trans (A_eq m c 0),
      show (dats m 0 c).arrAt 1 cfg0.N = V m c main_v13 from ((dats m 0 c).arrAt_in 1 rfl _).trans (A_eq m c 1)]
    ihave H13 := (pointsTo_share (PosShare.mem_left_op_right fullShare)).2 $$ [H13l H13r]
    · isplitl [H13l]; · iexact H13l
      iexact H13r
    imodintro
    isplitr [HO]
    · isplitl [H13 H14]
      · isplitl [H13]; · iexact H13
        iexact H14
      iexact Hrest
    · unfold Pipeline.Dat.owesAt Pipeline.owesWithin
      icases HO with ⟨%W, -, HO⟩; iexists W; iexact HO

/-! ## What the host stretches write -/

abbrev hostOps0_W : List (Ref sig .tc) := [main_v0]
abbrev hostOps0_1_W : List (Ref sig .tc) := [main_call0_v0, main_call0_cst, main_call0_v1, main_call0_v2, main_v1]
abbrev hostOps0_2_W : List (Ref sig .tc) :=
  [main_cst, main_v2, main_v3, main_v4, main_v5, main_v6, main_v7, main_v8, main_cst_0, main_v9, main_cst_1, main_v10, main_v11, main_v12, main_v13]
abbrev hostOps1_W : List (Ref sig .tc) := [main_v15, main_v16, main_cst_2, main_v17, main_cst_3, main_v18]

theorem hostOps0_writes : (hostOps0 : List (HloOp τ sig (Elt F))).Forall fun op => op.writes ⊆ (hostOps0_W.map (Proc.devRef (τ := τ) .tc)).toFinset := by
  simp only [List.Forall]
  exact Finset.singleton_subset_iff.mpr (List.mem_toFinset.mpr (List.mem_map_of_mem (by decide)))
theorem hostOps0_1_writes : (hostOps0_1 : List (HloOp τ sig (Elt F))).Forall fun op => op.writes ⊆ (hostOps0_1_W.map (Proc.devRef (τ := τ) .tc)).toFinset := by
  simp only [List.Forall]
  refine ⟨?_, ?_, ?_, ?_, ?_⟩ <;> exact Finset.singleton_subset_iff.mpr (List.mem_toFinset.mpr (List.mem_map_of_mem (by decide)))
theorem hostOps0_2_writes : (hostOps0_2 : List (HloOp τ sig (Elt F))).Forall fun op => op.writes ⊆ (hostOps0_2_W.map (Proc.devRef (τ := τ) .tc)).toFinset := by
  simp only [List.Forall]
  refine ⟨?_, ?_, ?_, ?_, ?_, ?_, ?_, ?_, ?_, ?_, ?_, ?_, ?_, ?_, ?_⟩ <;> exact Finset.singleton_subset_iff.mpr (List.mem_toFinset.mpr (List.mem_map_of_mem (by decide)))
theorem hostOps1_writes : (hostOps1 : List (HloOp τ sig (Elt F))).Forall fun op => op.writes ⊆ (hostOps1_W.map (Proc.devRef (τ := τ) .tc)).toFinset := by
  simp only [List.Forall]
  refine ⟨?_, ?_, ?_, ?_, ?_, ?_⟩ <;> exact Finset.singleton_subset_iff.mpr (List.mem_toFinset.mpr (List.mem_map_of_mem (by decide)))

/-- A buffer no stretch writes, other than the result array, holds its launch contents at the end. -/
theorem V5_keep (c : Dev nD) (r : Ref sig .tc) (h0 : r ∉ hostOps0_W) (h1 : r ∉ hostOps0_1_W) (h2 : r ∉ hostOps0_2_W)
    (h3 : r ≠ main_v14) (h4 : r ∉ hostOps1_W) : V5 m c r = m ((c : Thread nD τ).loc r) :=
  (StableHlo.after_of_writes_sub hostOps1 _ hostOps1_writes h4).trans <| (V4_of m c r h3).trans <|
    (StableHlo.after_of_writes_sub hostOps0_2 _ hostOps0_2_writes h2).trans <|
    (StableHlo.after_of_writes_sub hostOps0_1 _ hostOps0_1_writes h1).trans <|
    (StableHlo.after_of_writes_sub hostOps0 _ hostOps0_writes h0).trans rfl

theorem V5_arg0 (c : Dev nD) : V5 m c main_arg0 = m ((c : Thread nD τ).loc main_arg0) :=
  V5_keep m c main_arg0 (by decide) (by decide) (by decide) (by decide) (by decide)
theorem V5_arg1 (c : Dev nD) : V5 m c main_arg1 = m ((c : Thread nD τ).loc main_arg1) :=
  V5_keep m c main_arg1 (by decide) (by decide) (by decide) (by decide) (by decide)

/-! ## The launch -/

/-- @main as the list of its five items. -/
abbrev segs : List (Seg (pcfgs (F := F)) adm (dats m) () defs₀ Variants.none L lv) :=
  [.host (seg0 m), .host (seg1 m), .host (seg2 m), .region (reg0 m), .host (seg4 m)]

/-- The launch element: the pipeline library's, at the staging cells. -/
def u₀ : UR sig nD τ := initOf (Pipeline.cells cfgs cellOf_inj) (Pipeline.launchToks cfgs cellOf_inj)

set_option backward.isDefEq.respectTransparency.types false in
/-- From any memory with zero counters every weakly fair execution of @main terminates, nothing faulting, and every
    final state has every unscoped buffer at the contents the five items compute in turn. -/
theorem run_main (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = V5 m c b) := by
  refine Pipeline.θ_run_regions_kit (pcfgs (F := F)) adm (dats m) () cellOf_inj emb₁ defs₀ Variants.none L lv m ρ main (segs m)
    (fun c Q => by
      rewrite [main_chain c, Seg.run_eq_chain,
        show (segs m).map Seg.prog = [
          StableHlo.seq hostOps0,
          StableHlo.seq hostOps0_1,
          StableHlo.seq hostOps0_2,
          Prog.lift (.customCall (Pipeline.entry 0) ()),
          StableHlo.seq hostOps1 ] from rfl]
      exact .rfl)
    (by simp only [segs, Seg.pipes_host, Seg.pipes_region, Seg.pipes_nil]; decide) (O₀ := 0) (hL := fun _ _ => rfl)
    (G := fun _ => iprop(emp)) (u₀ := u₀)
    (hu₀ := by
      rw [ownU_emb₁]
      unfold u₀
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E c))
    (Tₙ := fun c => StableHlo.held (c : Thread nD τ) (Pipeline.ucRefs τ sig) (V5 m c))
    (hch := ⟨fun _ => .rfl, fun _ => .rfl, fun _ => .rfl, fun _ => .rfl, fun _ => .rfl, fun _ => .rfl⟩)
    (hinit := ?_)
    (QY := fun c s => ∀ b ∈ Pipeline.ucRefs τ sig, s.mem ((c : Thread nD τ).1, b) = V5 m c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V5 m c) s') $$ [Hh HSI]
    · isplitl [Hh] <;> iassumption
    icases Hr with ⟨%h, HSI⟩
    imodintro
    isplitr
    · ipureintro; exact h
    · iexact HSI

/-- THE FRAME: the two arguments end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c (Proc.devRef .tc main_arg0) (Finset.mem_filter.mpr ⟨StableHlo.devRef_mem_tcRefs main_arg0, by decide⟩)).trans (V5_arg0 m c),
     (h c (Proc.devRef .tc main_arg1) (Finset.mem_filter.mpr ⟨StableHlo.devRef_mem_tcRefs main_arg1, by decide⟩)).trans (V5_arg1 m c)⟩)
    (run_main m ρ)

/-- The same run with the result named: the last buffer at what the tail computes from the region's result array. -/
theorem run_value (ρ : Dev nD → PrngReg) : θ_run defs (onTc (τ := τ) (main (F := F))) ⟨m, fun _ => 0, ρ⟩ (fun r => ∀ c : Dev nD,
      r.2.mem ((c.tc : Thread nD τ).loc main_v18) = V5 m c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c (Proc.devRef .tc main_v18) (Finset.mem_filter.mpr ⟨StableHlo.devRef_mem_tcRefs main_v18, by decide⟩),
     (h c (Proc.devRef .tc main_arg0) (Finset.mem_filter.mpr ⟨StableHlo.devRef_mem_tcRefs main_arg0, by decide⟩)).trans (V5_arg0 m c),
     (h c (Proc.devRef .tc main_arg1) (Finset.mem_filter.mpr ⟨StableHlo.devRef_mem_tcRefs main_arg1, by decide⟩)).trans (V5_arg1 m c)⟩)
    (run_main m ρ)

end Cert.KernelIdeal.Hand

end
-- ==== Proof.Spec.lean ====
/-
  The loss both programs compute, over the real numbers.

  The two argument matrices are stacked into one 8192 × 128 matrix; each row is divided by its Euclidean norm
  (bounded below by a positive constant), giving unit rows `u`. The similarity of rows `r` and `c` is twice
  their inner product, with a large constant subtracted on the diagonal. Row `r`'s log-sum-exp is taken stably:
  the row's maximum plus the logarithm of the sum of the exponentials of the differences from it. The partner
  of row `r` is the row 4096 places away. The loss is the mean over rows of the log-sum-exp minus the similarity
  with the partner.

  One program adds up `lse r - s r`; the other adds up the log-probabilities `(s r - max) - log (sum)` and negates
  the total. Over the reals these are the same number (`kerLoss_eq_refLoss`): the partner is never the row itself,
  so its similarity carries no diagonal term, and the inner product is symmetric.
-/
import Idealize.ShloMosaic.PureOps.Ideal

noncomputable section

namespace Cert.Spec

open Finset

/-- The two argument matrices, one above the other. -/
def stack (x0 x1 : Fin 4096 → Fin 128 → ℝ) (r : Fin 8192) (d : Fin 128) : ℝ :=
  if h : r.val < 4096 then x0 ⟨r.val, h⟩ d else x1 ⟨r.val - 4096, by omega⟩ d

/-- A row's Euclidean norm, bounded below by `ε`. -/
def rowNorm (ε : ℝ) (z : Fin 8192 → Fin 128 → ℝ) (r : Fin 8192) : ℝ :=
  max (Real.sqrt (∑ d, z r d * z r d)) ε

/-- The rows scaled to (at most) unit length. -/
def unitRows (ε : ℝ) (z : Fin 8192 → Fin 128 → ℝ) (r : Fin 8192) (d : Fin 128) : ℝ :=
  z r d / rowNorm ε z r

/-- The inner product of rows `r` and `c`. -/
def dot (u : Fin 8192 → Fin 128 → ℝ) (r c : Fin 8192) : ℝ := ∑ d, u r d * u c d

theorem dot_comm (u : Fin 8192 → Fin 128 → ℝ) (r c : Fin 8192) : dot u r c = dot u c r := by
  unfold dot; exact Finset.sum_congr rfl fun d _ => mul_comm _ _

/-- The similarity, the diagonal masked by selection: twice the inner product, less `big` where `r = c`. -/
def simSel (big : ℝ) (u : Fin 8192 → Fin 128 → ℝ) (r c : Fin 8192) : ℝ :=
  if r = c then dot u r c * 2 - big else dot u r c * 2

/-- The similarity, the diagonal masked by arithmetic: the inner product over one half, less `big` times the
    identity matrix. -/
def simEye (big : ℝ) (u : Fin 8192 → Fin 128 → ℝ) (r c : Fin 8192) : ℝ :=
  dot u r c / (1 / 2) - big * (if r = c then 1 else 0)

theorem simEye_eq_simSel (big : ℝ) (u : Fin 8192 → Fin 128 → ℝ) : simEye big u = simSel big u := by
  funext r c
  unfold simEye simSel
  split_ifs <;> ring

/-- The largest entry of row `r`. -/
def rowMax (s : Fin 8192 → Fin 8192 → ℝ) (r : Fin 8192) : ℝ :=
  Finset.univ.sup' ⟨(0 : Fin 8192), Finset.mem_univ _⟩ (s r)

/-- The sum over row `r` of the exponentials of the differences from the row's maximum. -/
def rowSum (s : Fin 8192 → Fin 8192 → ℝ) (r : Fin 8192) : ℝ := ∑ c, Real.exp (s r c - rowMax s r)

/-- Row `r`'s log-sum-exp. -/
def lse (s : Fin 8192 → Fin 8192 → ℝ) (r : Fin 8192) : ℝ := rowMax s r + Real.log (rowSum s r)

/-- The log-probability of column `c` in row `r`. -/
def logp (s : Fin 8192 → Fin 8192 → ℝ) (r c : Fin 8192) : ℝ := (s r c - rowMax s r) - Real.log (rowSum s r)

/-- The row 4096 places away. -/
def partner (r : Fin 8192) : Fin 8192 :=
  if h : r.val < 4096 then ⟨r.val + 4096, by omega⟩ else ⟨r.val - 4096, by omega⟩

theorem partner_ne (r : Fin 8192) : r ≠ partner r := by
  intro h
  have := congrArg Fin.val h
  unfold partner at this
  split_ifs at this <;> simp at this <;> omega

/-- Twice the inner product of row `b` of the upper half with row `b` of the lower half. -/
def pos (u : Fin 8192 → Fin 128 → ℝ) (b : Fin 4096) : ℝ :=
  (∑ d, u ⟨b.val, by omega⟩ d * u ⟨b.val + 4096, by omega⟩ d) * 2

/-- That vector twice, end to end. -/
def posTwice (u : Fin 8192 → Fin 128 → ℝ) (r : Fin 8192) : ℝ :=
  if h : r.val < 4096 then pos u ⟨r.val, h⟩ else pos u ⟨r.val - 4096, by omega⟩

theorem posTwice_eq (big : ℝ) (u : Fin 8192 → Fin 128 → ℝ) (r : Fin 8192) :
    posTwice u r = simSel big u r (partner r) := by
  unfold simSel
  rw [if_neg (partner_ne r)]
  unfold posTwice pos dot
  by_cases h : r.val < 4096
  · have hp : partner r = ⟨r.val + 4096, by omega⟩ := by unfold partner; rw [dif_pos h]
    rw [dif_pos h, hp]
  · have hp : partner r = ⟨r.val - 4096, by omega⟩ := by unfold partner; rw [dif_neg h]
    rw [dif_neg h, hp]
    refine congrArg (· * 2) (Finset.sum_congr rfl fun d _ => ?_)
    rw [mul_comm]
    have e : (⟨r.val - 4096 + 4096, by omega⟩ : Fin 8192) = r := Fin.ext (by show r.val - 4096 + 4096 = r.val; omega)
    exact congrArg (fun a => u a d * u ⟨r.val - 4096, by omega⟩ d) e

/-- The mean over rows of the log-sum-exp less the similarity with the partner. -/
def kerLoss (big : ℝ) (u : Fin 8192 → Fin 128 → ℝ) : ℝ :=
  (∑ r, (lse (simSel big u) r - posTwice u r)) / 8192

/-- Minus the total log-probability of the partners, over the number of rows. -/
def refLoss (big : ℝ) (u : Fin 8192 → Fin 128 → ℝ) : ℝ :=
  -(∑ r, logp (simEye big u) r (partner r)) / 8192

theorem kerLoss_eq_refLoss (big : ℝ) (u : Fin 8192 → Fin 128 → ℝ) : kerLoss big u = refLoss big u := by
  unfold kerLoss refLoss
  rw [simEye_eq_simSel, ← Finset.sum_neg_distrib]
  congr 1
  refine Finset.sum_congr rfl fun r _ => ?_
  unfold logp lse
  rw [posTwice_eq big u r]
  ring

end Cert.Spec

end
-- ==== Proof.Consts.lean ====
/-
  The float constants the two programs spell, as the extended reals their words denote: zero, one half, two,
  8192, the masking constant 10^9, the lower bound 11258999 / 2^50 on a row's norm (the single-precision number
  nearest to 10^-8), and minus infinity.
-/
import Idealize.ShloMosaic.PureOps.Ideal

noncomputable section

namespace Cert.Consts

open Idealize.ShloMosaic

/-- The lower bound on a row's norm. -/
def eps : ℝ := 11258999 / 2 ^ 50

/-- The constant subtracted on the diagonal. -/
def big : ℝ := 1000000000

theorem eps_pos : 0 < eps := by unfold eps; positivity

theorem ofBits_zero : Ideal.ofBits .f32 0x00000000#32 = 0 := by
  simp [Ideal.ofBits, Ideal.ieee]

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_8192 : Ideal.ofBits .f32 0x46000000#32 = ((8192 : ℝ) : EReal) := by
  simp [Ideal.ofBits, Ideal.ieee, -EReal.coe_mul]; norm_num

theorem ofBits_big : Ideal.ofBits .f32 0x4E6E6B28#32 = ((big : ℝ) : EReal) := by
  unfold big
  simp [Ideal.ofBits, Ideal.ieee, -EReal.coe_mul]; norm_num

theorem ofBits_eps : Ideal.ofBits .f32 0x322BCC77#32 = ((eps : ℝ) : EReal) := by
  unfold eps
  simp [Ideal.ofBits, Ideal.ieee, -EReal.coe_mul]; norm_num

theorem ofBits_neg_inf : Ideal.ofBits .f32 0xFF800000#32 = (⊥ : EReal) := by
  simp [Ideal.ofBits, Ideal.ieee]

end Cert.Consts

end
-- ==== Proof.LibCat2.lean ====
/-
  Two equal pieces joined along one axis, read at an index, for any element type and any extents.
  Two matrices [n, w] laid side by side make a matrix [n, W] with W = 2·w: its column g·w + q (g the piece, q the
  column inside the piece) at row k is piece g at (k, q).  Two matrices [n, w] stacked make a matrix [N, w] with
  N = 2·n: its row g·n + q at column c is piece g at (q, c).  Two vectors [w] laid end to end make a vector [W]:
  its element g·w + q is piece g at q.  Each is the library's reading of a concatenation at an index, with the
  extents of the pieces before piece g summed to g·w (or g·n).
-/
import Idealize.ShloMosaic.Lib.Pipeline.Value
import Idealize.ShloMosaic.Lib.ValueIdx

open Idealize.ShloMosaic Idealize.ShloMosaic.ValueIdx

namespace Cat2

variable {α : Type}

/-- Two [n, w] matrices side by side: column `g·w + q` of row `k` is piece `g` at `(k, q)`. -/
theorem cat2_cols_apply {n w W : ℕ} (x0 x1 : (⟨2, ![n, w]⟩ : Shape).Idx → α)
    (h : Shape.Concatenates [(⟨2, ![n, w]⟩ : Shape), ⟨2, ![n, w]⟩] ⟨2, ![n, W]⟩ (1 : Fin 2))
    (g : Fin 2) (k : Fin n) (q : Fin w) (c : Fin W) (hc : c.val = g.val * w + q.val) :
    concatenate (⟨2, ![n, W]⟩ : Shape) (1 : Fin 2)
        [⟨(⟨2, ![n, w]⟩ : Shape), x0⟩, ⟨(⟨2, ![n, w]⟩ : Shape), x1⟩] h (ix2 k c)
      = (![x0, x1] g) (ix2 k q) := by
  refine concatenate_apply_piece (t := (⟨2, ![n, W]⟩ : Shape)) (1 : Fin 2)
    [⟨(⟨2, ![n, w]⟩ : Shape), x0⟩, ⟨(⟨2, ![n, w]⟩ : Shape), x1⟩] h (ix2 k c) g.val g.isLt (⟨2, ![n, w]⟩ : Shape) (![x0, x1] g) ?_ rfl
    (g.val * w) ?_ (ix2 k q) ?_ ?_
  · fin_cases g <;> rfl
  · fin_cases g <;> simp
  · intro b hb
    match b with
    | ⟨0, _⟩ => rfl
    | ⟨1, _⟩ => exact absurd rfl hb
  · show g.val * w + q.val = c.val
    omega

/-- Two [n, w] matrices stacked: row `g·n + q` at column `c` is piece `g` at `(q, c)`. -/
theorem cat2_rows_apply {n w N : ℕ} (x0 x1 : (⟨2, ![n, w]⟩ : Shape).Idx → α)
    (h : Shape.Concatenates [(⟨2, ![n, w]⟩ : Shape), ⟨2, ![n, w]⟩] ⟨2, ![N, w]⟩ (0 : Fin 2))
    (g : Fin 2) (q : Fin n) (c : Fin w) (r : Fin N) (hr : r.val = g.val * n + q.val) :
    concatenate (⟨2, ![N, w]⟩ : Shape) (0 : Fin 2)
        [⟨(⟨2, ![n, w]⟩ : Shape), x0⟩, ⟨(⟨2, ![n, w]⟩ : Shape), x1⟩] h (ix2 r c)
      = (![x0, x1] g) (ix2 q c) := by
  refine concatenate_apply_piece (t := (⟨2, ![N, w]⟩ : Shape)) (0 : Fin 2)
    [⟨(⟨2, ![n, w]⟩ : Shape), x0⟩, ⟨(⟨2, ![n, w]⟩ : Shape), x1⟩] h (ix2 r c) g.val g.isLt (⟨2, ![n, w]⟩ : Shape) (![x0, x1] g) ?_ rfl
    (g.val * n) ?_ (ix2 q c) ?_ ?_
  · fin_cases g <;> rfl
  · fin_cases g <;> simp
  · intro b hb
    match b with
    | ⟨0, _⟩ => exact absurd rfl hb
    | ⟨1, _⟩ => rfl
  · show g.val * n + q.val = r.val
    omega

/-- Two [w] vectors end to end: element `g·w + q` is piece `g` at `q`. -/
theorem cat2_vec_apply {w W : ℕ} (x0 x1 : (⟨1, ![w]⟩ : Shape).Idx → α)
    (h : Shape.Concatenates [(⟨1, ![w]⟩ : Shape), ⟨1, ![w]⟩] ⟨1, ![W]⟩ (0 : Fin 1))
    (g : Fin 2) (q : Fin w) (c : Fin W) (hc : c.val = g.val * w + q.val) :
    concatenate (⟨1, ![W]⟩ : Shape) (0 : Fin 1)
        [⟨(⟨1, ![w]⟩ : Shape), x0⟩, ⟨(⟨1, ![w]⟩ : Shape), x1⟩] h (ix1 c)
      = (![x0, x1] g) (ix1 q) := by
  refine concatenate_apply_piece (t := (⟨1, ![W]⟩ : Shape)) (0 : Fin 1)
    [⟨(⟨1, ![w]⟩ : Shape), x0⟩, ⟨(⟨1, ![w]⟩ : Shape), x1⟩] h (ix1 c) g.val g.isLt (⟨1, ![w]⟩ : Shape) (![x0, x1] g) ?_ rfl
    (g.val * w) ?_ (ix1 q) ?_ ?_
  · fin_cases g <;> rfl
  · fin_cases g <;> simp
  · intro b hb
    match b with
    | ⟨0, _⟩ => exact absurd rfl hb
  · show g.val * w + q.val = c.val
    omega

end Cat2
-- ==== Proof.LibHostLayout.lean ====
/-
  Host layout steps read at an index written by coordinates, for any extents.

  A vector of `b` entries broadcast first to the single row `[1, b]` and then down `a` rows reads, at `(i, j)`, the
  vector at `j`.  A column `[a, 1]` broadcast along `b` columns reads, at `(i, j)`, the column at row `i`.  A vector of
  `a` entries broadcast to the column `[a, 1]` reads, at `(i, u)`, the vector at `i`.  The host's sum of a matrix along
  its rows, at the ideal values, is the initial value plus the sum of that row's entries.  General; no program is
  imported.
-/
import Idealize.ShloMosaic.Lib.Pipeline.Value
import Idealize.ShloMosaic.Lib.ValueIdx
import Idealize.ShloMosaic.Lib.IdealHost
import Idealize.ShloMosaic.PureOps.Ideal.Laws
import Idealize.ShloMosaic.PureOps.Reduce

noncomputable section

open scoped BigOperators

namespace Idealize.ShloMosaic.ValueIdx

open Idealize.ShloMosaic

variable {α : Type}

/-- A vector `[b]` made the row `[1, b]` and copied down `a` rows reads, at `(i, j)`, the vector at `j`. -/
theorem broadcastInDim_vec_rows_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (i : Fin a) (j : Fin b) :
    broadcastInDim ⟨2, ![a, b]⟩ ![0, 1] h2 (broadcastInDim ⟨2, ![1, b]⟩ ![1] h1 x) (ix2 i j) = x (ix1 j) := by
  refine (broadcastInDim_apply ![0, 1] h2 _ (ix2 i j) (ix2 (0 : Fin 1) j) fun ax => ?_).trans
    (broadcastInDim_apply ![1] h1 x (ix2 (0 : Fin 1) j) (ix1 j) fun ax => ?_)
  · match ax with
    | ⟨0, _⟩ => exact (if_pos rfl).symm
    | ⟨1, _⟩ =>
      show j.val = if b = 1 then 0 else j.val
      split
      · have := j.isLt; omega
      · rfl
  · match ax with
    | ⟨0, _⟩ =>
      show j.val = if b = 1 then 0 else j.val
      split
      · have := j.isLt; omega
      · rfl

/-- A column `[a, 1]` copied along `b` columns reads, at `(i, j)`, the column at row `i`. -/
theorem broadcastInDim_col_apply {a b : ℕ} (v : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h v (ix2 i j) = v (ix2 i (0 : Fin 1)) := by
  refine broadcastInDim_apply ![0, 1] h v (ix2 i j) (ix2 i (0 : Fin 1)) fun ax => ?_
  match ax with
  | ⟨0, _⟩ =>
    show i.val = if a = 1 then 0 else i.val
    split
    · have := i.isLt; omega
    · rfl
  | ⟨1, _⟩ => exact (if_pos rfl).symm

/-- A vector `[a]` made the column `[a, 1]` reads, at `(i, u)`, the vector at `i`. -/
theorem broadcastInDim_vec_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's sum of a matrix along its rows, at the ideal values, read at row `i`: the initial value plus the
    sum of the row's entries. -/
theorem hostRowSum_apply {a b : ℕ} {u : Shape} (z : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd z init h' hu (ix1 i) = init (Shape.Idx.first hu) + ∑ k : Fin b, z (ix2 i k) := by
  refine (hostReduceAdd_apply z init h' hu (ix1 i)).trans ((Ideal.hostReduceAdd_single h' h z _ (ix1 i)).trans ?_)
  refine congrArg (fun s => init (Shape.Idx.first hu) + s) ?_
  show ∑ k : Fin b, z (h.lift (ix1 i) k) = _
  refine Finset.sum_congr rfl fun k _ => congrArg z ?_
  funext ax; apply Fin.ext
  fin_cases ax <;> rfl

end Idealize.ShloMosaic.ValueIdx

end
-- ==== Proof.LibColumnCast.lean ====
/-
  A column laid back out as a vector: an [a, 1] array cast to [a] reads, at i, the column's entry
  in row i.  For any element type and any extent; the companion of the cast [a] → [a, 1].
-/
import Idealize.ShloMosaic.Lib.Pipeline.Value
import Idealize.ShloMosaic.Lib.ValueIdx

namespace Idealize.ShloMosaic.ValueIdx

open Idealize.ShloMosaic

variable {α : Type}

/-- An `[a, 1]` array cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.HostSide.lean ====
/-
  The host arithmetic around the kernel, at the extended reals, is real arithmetic.

  Every operand is the coercion of a real number, and each operation on coerced reals is the coercion of the real
  operation: a product, a difference, a finite sum from zero, a square root of a nonnegative real, the larger of two
  reals, a quotient by a nonzero real. So the stacked matrix with its rows scaled to unit length, twice the inner
  product of each row with the row 4096 places away, and the mean over rows of the log-sum-exp less that similarity,
  are the coercions of the corresponding real functions.
-/
import proofs.«107459_j7189775253513_1_alg».proof.KernelIdeal
import proofs.«107459_j7189775253513_1_alg».proof.Proof.Gen.KernelIdeal
import proofs.«107459_j7189775253513_1_alg».proof.Proof.Spec
import proofs.«107459_j7189775253513_1_alg».proof.Proof.Consts
import proofs.«107459_j7189775253513_1_alg».proof.Proof.LibCat2
import proofs.«107459_j7189775253513_1_alg».proof.Proof.LibHostLayout
import proofs.«107459_j7189775253513_1_alg».proof.Proof.LibColumnCast
import Idealize.ShloMosaic.Lib.Pipeline.Value
import Idealize.ShloMosaic.Lib.ValueIdx
import Idealize.ShloMosaic.PureOps.Ideal.Laws
import Idealize.ShloMosaic.Lib.IdealHost

noncomputable section

namespace Cert.HostSide

/-- The coercion of the reals into the extended reals goes through a finite sum. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion of the reals into the extended reals is monotone, so it goes through a maximum. -/
theorem coe_max (x y : ℝ) : ((max x y : ℝ) : EReal) = max (x : EReal) (y : EReal) :=
  EReal.coe_strictMono.monotone.map_max

/-! ## The kernel program's second host stretch: twice the inner product of each row with its partner -/

section KernelHost

open Idealize.ShloMosaic Idealize.ShloMosaic.ValueIdx
open Cert.KernelIdeal Cert.KernelIdeal.Gen

/-- The row sums, from zero, of the products of the upper half's rows with the lower half's, times two. -/
def pterm (zn : FVec Ideal S8192x128 .f32) : FVec Ideal S4096 .f32 :=
  mulf
    (Host.reduceAdd
      (mulf (extractStridedSlice S4096x128 ![0, 0] zn slices_S8192x128_S4096x128_0_0)
        (extractStridedSlice S4096x128 ![4096, 0] zn slices_S8192x128_S4096x128_4096_0))
      (constant (F := Ideal) S_ .f32 0x00000000#32) reducesTo_S4096x128_S4096_d1 h_S_)
    (broadcastInDim S4096 ![] bcast_S_S4096 (constant (F := Ideal) S_ .f32 0x40000000#32))

/-- That vector twice, end to end. -/
def sfull (zn : FVec Ideal S8192x128 .f32) : FVec Ideal S8192 .f32 :=
  concatenate S8192 0 [⟨S4096, pterm zn⟩, ⟨S4096, pterm zn⟩] concatenates_S4096_S4096_S8192_d0

/-- Row `b` of the upper half is row `b` of the whole matrix. -/
theorem upper_apply (zn : FVec Ideal S8192x128 .f32) (b : Fin 4096) (k : Fin 128) :
    extractStridedSlice S4096x128 ![0, 0] zn slices_S8192x128_S4096x128_0_0 (ix2 b k)
      = zn (ix2 (⟨b.val, by omega⟩ : Fin 8192) k) :=
  extractStridedSlice_apply ![0, 0] zn slices_S8192x128_S4096x128_0_0 (ix2 b k) (ix2 (⟨b.val, by omega⟩ : Fin 8192) k)
    (fun a => match a with
      | ⟨0, _⟩ => (Nat.zero_add b.val).symm
      | ⟨1, _⟩ => (Nat.zero_add k.val).symm)

/-- Row `b` of the lower half is row `b + 4096` of the whole matrix. -/
theorem lower_apply (zn : FVec Ideal S8192x128 .f32) (b : Fin 4096) (k : Fin 128) :
    extractStridedSlice S4096x128 ![4096, 0] zn slices_S8192x128_S4096x128_4096_0 (ix2 b k)
      = zn (ix2 (⟨b.val + 4096, by omega⟩ : Fin 8192) k) :=
  extractStridedSlice_apply ![4096, 0] zn slices_S8192x128_S4096x128_4096_0 (ix2 b k)
    (ix2 (⟨b.val + 4096, by omega⟩ : Fin 8192) k)
    (fun a => match a with
      | ⟨0, _⟩ => Nat.add_comm b.val 4096
      | ⟨1, _⟩ => (Nat.zero_add k.val).symm)

theorem pterm_real (zn : FVec Ideal S8192x128 .f32) (u : Fin 8192 → Fin 128 → ℝ)
    (hzn : ∀ (r : Fin 8192) (d : Fin 128), zn (ValueIdx.ix2 r d) = ((u r d : ℝ) : EReal)) (b : Fin 4096) :
    pterm zn (ValueIdx.ix1 b) = ((Cert.Spec.pos u b : ℝ) : EReal) := by
  unfold pterm Cert.Spec.pos
  rw [mulf_apply, hostRowSum_apply _ _ reducesTo_S4096x128_S4096_d1 (by decide) h_S_ b, broadcastInDim_scalar_apply,
    constant_apply, constant_apply, Cert.Consts.ofBits_two, Cert.Consts.ofBits_zero, zero_add, EReal.coe_mul, coe_sum]
  refine congrArg (· * ((2 : ℝ) : EReal)) (Finset.sum_congr rfl fun k _ => ?_)
  rw [mulf_apply, upper_apply, lower_apply, hzn, hzn, EReal.coe_mul]

theorem sfull_real (zn : FVec Ideal S8192x128 .f32) (u : Fin 8192 → Fin 128 → ℝ)
    (hzn : ∀ (r : Fin 8192) (d : Fin 128), zn (ValueIdx.ix2 r d) = ((u r d : ℝ) : EReal)) (r : Fin 8192) :
    sfull zn (ValueIdx.ix1 r) = ((Cert.Spec.posTwice u r : ℝ) : EReal) := by
  unfold sfull Cert.Spec.posTwice
  by_cases h : r.val < 4096
  · rw [dif_pos h]
    refine (Cat2.cat2_vec_apply (pterm zn) (pterm zn) _ (0 : Fin 2) ⟨r.val, h⟩ r
      (by show r.val = 0 * 4096 + r.val; omega)).trans ?_
    exact pterm_real zn u hzn _
  · rw [dif_neg h]
    refine (Cat2.cat2_vec_apply (pterm zn) (pterm zn) _ (1 : Fin 2) ⟨r.val - 4096, by omega⟩ r
      (by show r.val = 1 * 4096 + (r.val - 4096); omega)).trans ?_
    exact pterm_real zn u hzn _

/-! ## The kernel program's host tail: the mean of the differences -/

/-- A vector's indices are its one coordinate. -/
def idx1Equiv (n : ℕ) : (⟨1, ![n]⟩ : Shape).Idx ≃ Fin n where
  toFun j := j 0
  invFun := ix1
  left_inv j := (eq_ix1 j).symm
  right_inv _ := rfl

/-- A sum over a vector's indices is the sum over its coordinate. -/
theorem sum_idx1 {n : ℕ} (f : (⟨1, ![n]⟩ : Shape).Idx → EReal) : ∑ j, f j = ∑ r : Fin n, f (ix1 r) :=
  (Equiv.sum_comp (idx1Equiv n).symm f).symm

/-- The kernel's column laid out as a vector, less the partner similarities, summed from zero, over 8192. -/
def loss (out : FVec Ideal S8192x1 .f32) (s : FVec Ideal S8192 .f32) : FVec Ideal S_ .f32 :=
  Host.divf
    (Host.reduceAdd (subf (shapeCast S8192 out shapeCasts_S8192x1_S8192) s)
      (constant (F := Ideal) S_ .f32 0x00000000#32) reducesTo_S8192_S_d0 h_S_)
    (constant (F := Ideal) S_ .f32 0x46000000#32)

theorem loss_real (out : FVec Ideal S8192x1 .f32) (s : FVec Ideal S8192 .f32) (u : Fin 8192 → Fin 128 → ℝ)
    (hout : ∀ r : Fin 8192, out (ValueIdx.ix2 r (0 : Fin 1))
      = ((Cert.Spec.lse (Cert.Spec.simSel Cert.Consts.big u) r : ℝ) : EReal))
    (hs : ∀ r : Fin 8192, s (ValueIdx.ix1 r) = ((Cert.Spec.posTwice u r : ℝ) : EReal)) :
    loss out s = fun _ => ((Cert.Spec.kerLoss Cert.Consts.big u : ℝ) : EReal) := by
  funext i
  unfold loss Cert.Spec.kerLoss
  show Ideal.div (Host.reduceAdd (subf (shapeCast S8192 out shapeCasts_S8192x1_S8192) s)
      (constant (F := Ideal) S_ .f32 0x00000000#32) reducesTo_S8192_S_d0 h_S_ i) (Ideal.ofBits .f32 0x46000000#32) = _
  rw [hostReduceAdd_apply, Ideal.hostReduceAdd_total reducesTo_S8192_S_d0 (fun b => b.elim0), constant_apply,
    Cert.Consts.ofBits_zero, zero_add, Cert.Consts.ofBits_8192, Ideal.div_coe (by norm_num : (8192 : ℝ) ≠ 0), sum_idx1]
  have hterm : ∀ r : Fin 8192, subf (shapeCast S8192 out shapeCasts_S8192x1_S8192) s (ix1 r)
      = ((Cert.Spec.lse (Cert.Spec.simSel Cert.Consts.big u) r - Cert.Spec.posTwice u r : ℝ) : EReal) := fun r => by
    rw [subf_apply, shapeCast_a1_a_apply, hout, hs, EReal.coe_sub]
  rw [Finset.sum_congr rfl fun r _ => hterm r, ← coe_sum, ← EReal.coe_mul, mul_one_div]

end KernelHost

end Cert.HostSide

end
-- ==== Proof.LibDotRowsT.lean ====
/-
  A matrix product against a transposed right operand, read at an index.  For shapes
  [R, K] · [J, K] → [R, J] whose dimension numbers contract axis 1 of the left operand with axis 1 of the
  right operand (no batch axis), the sum over the contraction index that `tpu.matmul` and `dot_general`
  denote at the ideal values is the textbook sum over `k : Fin K` of `lhs (r, k) * rhs (c, k)`.  The four
  coordinate facts about the dimension numbers' operand indices are hypotheses: for a record with literal
  lists each of them is a two-line unfolding.
-/
import Idealize.ShloMosaic.PureOps.Ideal.Laws
import Idealize.ShloMosaic.Lib.ValueIdx

noncomputable section

open scoped BigOperators

namespace Idealize.ShloMosaic.ValueIdx

open Idealize.ShloMosaic

/-- The contraction sum of an [R, K] · [J, K] product (both operands contracted on axis 1) at output index `j`
    is the sum over `k : Fin K` of the left operand at `(j 0, k)` and the right operand at `(j 1, k)`. -/
theorem dot_rowsT_sum {M : Type*} [AddCommMonoid M] {R K J : Nat}
    (d : DotDims ⟨2, ![R, K]⟩ ⟨2, ![J, K]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (g : (⟨2, ![R, K]⟩ : Shape).Idx → (⟨2, ![J, K]⟩ : Shape).Idx → M) (j : (⟨2, ![R, J]⟩ : Shape).Idx) :
    ∑ k : d.contr.Idx, g (d.lhsIdx j k) (d.rhsIdx j k) = ∑ k : Fin K, g (ix2 (j 0) k) (ix2 (j 1) k) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 (j 1) k := by
    funext a
    match a with
    | ⟨0, _⟩ => exact Fin.ext (h3 j _)
    | ⟨1, _⟩ => exact Fin.ext ((h4 j _).trans (contrEquiv1_symm_val d K hr hs k))
  exact congrArg₂ g e1 e2

/-- A `tpu.matmul` of [R, K] against [J, K] into the zero accumulator, at the ideal values, read at `(r, c)`. -/
theorem matmul_zero_rowsT {R K J : Nat} {φ₁ φ₂ : FTy}
    (d : DotDims ⟨2, ![R, K]⟩ ⟨2, ![J, K]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (j 1).val)
    (h4 : ∀ j k, (d.rhsIdx j k 1).val = (k ⟨0, by omega⟩).val)
    (lhs : FVec Ideal ⟨2, ![R, K]⟩ φ₁) (rhs : FVec Ideal ⟨2, ![J, K]⟩ φ₂) (r : Fin R) (c : Fin J) :
    FloatOps.matmul d prec lhs rhs (constant ⟨2, ![R, J]⟩ .f32 0x00000000#32) (ix2 r c)
      = ∑ k : Fin K, lhs (ix2 r k) * rhs (ix2 c k) := by
  rw [Ideal.matmul_constant_zero_apply]
  exact dot_rowsT_sum d hr hs h1 h2 h3 h4 (fun a b => lhs a * rhs b) (ix2 r c)

end Idealize.ShloMosaic.ValueIdx

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.Payload.lean ====
/-
  The kernel body's value at an index, at the ideal values, is the real log-sum-exp.

  At grid point `i` the body holds a block of 128 rows of a matrix (rows 128 i … 128 i + 127) and the whole
  matrix of 8192 rows. When every entry is a real number `u r d`, so is everything the body computes:

  * the product of the block with the whole matrix transposed is, at `(p, c)`, the inner product of rows
    `128 i + p` and `c` — a finite sum of products of reals; doubled, it is still real;
  * the diagonal mask compares the row's number with the column's as 32-bit words; both are below 8192, so the
    words are equal exactly when the numbers are, and the large constant comes off exactly on the diagonal:
    the entry is the masked similarity `simSel`;
  * a row's maximum is the fold of `max` from `-∞` over 8192 reals, a nonempty family, hence their real
    supremum;
  * each difference from the maximum is real, so its exponential is the real exponential; the row's sum of
    them is a real, and positive because every term is; so its logarithm is the real logarithm;
  * the maximum plus that logarithm is `Spec.lse`.

  The body is read as the composition of two pieces, the masked similarity block and the row-wise log-sum-exp
  of a block; each piece is read at an index on its own.
-/
import proofs.«107459_j7189775253513_1_alg».proof.Proof.Gen.KernelIdeal.Skeleton
import proofs.«107459_j7189775253513_1_alg».proof.Proof.Spec
import proofs.«107459_j7189775253513_1_alg».proof.Proof.Consts
import proofs.«107459_j7189775253513_1_alg».proof.Proof.LibDotRowsT
import proofs.«107459_j7189775253513_1_alg».proof.Proof.LibLayout
import Idealize.ShloMosaic.PureOps.Ideal.Laws
import Idealize.ShloMosaic.Lib.ValueIdx
import Idealize.ShloMosaic.Lib.Pipeline.Value
import Idealize.ShloMosaic.Lib.ValueLayout

noncomputable section

open Cert.KernelIdeal Cert.KernelIdeal.Gen Idealize.ShloMosaic Idealize.ShloMosaic.ValueIdx

namespace Cert.KernelIdeal.Payload

/-- The coercion of a finite sum of reals is the sum of the coercions. -/
theorem coe_sum {ι : Type} (s : Finset ι) (f : ι → ℝ) :
    ((∑ i ∈ s, f i : ℝ) : EReal) = ∑ i ∈ s, (f i : EReal) := by
  classical
  refine Finset.induction_on s ?_ ?_
  · simp
  · intro a t ha ih
    rw [Finset.sum_insert ha, Finset.sum_insert ha, EReal.coe_add, ih]

/-- The fold of `max` from `⊥` over a nonempty finite set of coerced reals is the coerced supremum. -/
theorem fold_max_coe {ι : Type} (s : Finset ι) (hs : s.Nonempty) (f : ι → ℝ) :
    s.fold max (⊥ : EReal) (fun c => (f c : EReal)) = ((s.sup' hs f : ℝ) : EReal) := by
  have e1 : ((s.sup' hs f : ℝ) : EReal) = s.sup' hs ((fun x : ℝ => (x : EReal)) ∘ f) :=
    Finset.comp_sup'_eq_sup'_comp hs (fun x : ℝ => (x : EReal)) (fun x y => EReal.coe_strictMono.monotone.map_max)
  rw [e1, Finset.sup'_eq_sup]
  rfl

section

variable {N J : Nat}

/-- Row `r` with column `k` put back is `(r, k)`. -/
theorem lift_row (h : (⟨2, ![N, J]⟩ : Shape).Reduces [1] (⟨1, ![N]⟩ : Shape)) (r : Fin N)
    (k : Fin ((⟨2, ![N, J]⟩ : Shape).size 1)) :
    h.lift (ix1 r) k = ix2 r (⟨k.val, k.isLt⟩ : Fin J) := by
  funext c; apply Fin.ext
  fin_cases c <;> rfl

/-- The maximum over the last axis, at row `r`: the fold of `max` from the accumulator's value over the row. -/
theorem rowMax_apply (x : FVec Ideal ⟨2, ![N, J]⟩ .f32) (acc : BitVec 32)
    (h : (⟨2, ![N, J]⟩ : Shape).Reduces [1] (⟨1, ![N]⟩ : Shape)) (hφ : FKind.Formats .f32)
    (hacc : acc = FKind.maximumf.neutral .f32 hφ) (r : Fin N) :
    multiReduction .maximumf [1] ⟨1, ![N]⟩ x acc h hφ hacc (ix1 r)
      = (Finset.univ : Finset (Fin J)).fold max (Ideal.ofBits .f32 acc) (fun c => x (ix2 r c)) := by
  refine (Ideal.multiReduction_maximumf_single x acc h hφ hacc (ix1 r)).trans ?_
  have hf : (x ∘ h.lift (ix1 r)) = fun c : Fin J => x (ix2 r c) :=
    funext fun k => congrArg x (lift_row h r k)
  exact congrArg (fun f => Finset.fold max (Ideal.ofBits .f32 acc) f (Finset.univ : Finset (Fin J))) hf

/-- The sum over the last axis, at row `r`. -/
theorem rowSum_apply (x : FVec Ideal ⟨2, ![N, J]⟩ .f32) (acc : BitVec 32)
    (h : (⟨2, ![N, J]⟩ : Shape).Reduces [1] (⟨1, ![N]⟩ : Shape)) (hφ : FKind.Formats .f32)
    (hacc : acc = FKind.add.neutral .f32 hφ) (r : Fin N) :
    multiReduction .add [1] ⟨1, ![N]⟩ x acc h hφ hacc (ix1 r) = ∑ c : Fin J, x (ix2 r c) := by
  refine (Ideal.multiReduction_add_single x acc h hφ hacc (ix1 r)).trans ?_
  exact Finset.sum_congr rfl fun k _ => congrArg x (lift_row h r k)

end

/-- Block `iv`'s row `p` as a 32-bit word equals column `c`'s word exactly when `128 * iv + p = c`: nothing wraps. -/
theorem word_eq_iff (iv p c : Nat) (hi : iv < 64) (hp : p < 128) (hc : c < 8192) :
    (IntOp.addi (Scalar.muli (BitVec.ofNat 32 iv) 128#32) (BitVec.ofNat 32 p) = BitVec.ofNat 32 c) ↔ 128 * iv + p = c := by
  unfold IntOp.addi Scalar.muli IntOp.muli
  constructor
  · intro h
    have := congrArg BitVec.toNat h
    simp only [BitVec.toNat_add, BitVec.toNat_mul, BitVec.toNat_ofNat] at this
    omega
  · intro h
    apply BitVec.eq_of_toNat_eq
    simp only [BitVec.toNat_add, BitVec.toNat_mul, BitVec.toNat_ofNat]
    omega

/-- The comparison's bit selects between two values as the proposition does. -/
theorem select_cmpi_eq {α : Type} (x y : BitVec 32) (a b : α) :
    Scalar.select (IntOp.cmpi .eq x y) a b = if x = y then a else b := by
  unfold Scalar.select IntOp.cmpi
  by_cases h : x = y
  · rw [if_pos h]; subst h; simp
  · rw [if_neg h]
    have hb : (x == y) = false := beq_eq_false_iff_ne.mpr h
    show (if BitVec.ofBool (x == y) = 1 then a else b) = b
    rw [hb]; exact if_neg (by decide)

/-- The maximum of a row of reals: the fold of `max` from `-∞` over the row is the real supremum. -/
theorem rowMax_coe (s : FVec Ideal ⟨2, ![128, 8192]⟩ .f32)
    (hR : (⟨2, ![128, 8192]⟩ : Shape).Reduces [1] (⟨1, ![128]⟩ : Shape)) (hφ : FKind.Formats .f32)
    (hM : (0xFF800000#32 : BitVec 32) = FKind.maximumf.neutral .f32 hφ)
    (p : Fin 128) (g : Fin 8192 → ℝ) (hg : ∀ c, s (ix2 p c) = ((g c : ℝ) : EReal)) :
    multiReduction .maximumf [1] ⟨1, ![128]⟩ s 0xFF800000#32 hR hφ hM (ix1 p)
      = ((Finset.univ.sup' ⟨(0 : Fin 8192), Finset.mem_univ _⟩ g : ℝ) : EReal) := by
  refine (rowMax_apply s _ hR hφ hM p).trans ?_
  rw [Cert.Consts.ofBits_neg_inf]
  have e : (fun c => s (ix2 p c)) = fun c => ((g c : ℝ) : EReal) := funext hg
  rw [e]
  exact fold_max_coe Finset.univ ⟨0, Finset.mem_univ _⟩ g

/-- The vector exponential and logarithm read at an index. -/
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The exponential of an entry's difference from the row's maximum: with the entry the real `x` and the
    column's entry the real `M`, the real `exp (x - M)`. -/
theorem exp_sub_col (s : FVec Ideal ⟨2, ![128, 8192]⟩ .f32) (col : FVec Ideal ⟨2, ![128, 1]⟩ .f32)
    (hB : (⟨2, ![128, 1]⟩ : Shape).Broadcasts ⟨2, ![128, 8192]⟩)
    (p : Fin 128) (c : Fin 8192) (x M : ℝ) (hx : s (ix2 p c) = ((x : ℝ) : EReal))
    (hcol : col (ix2 p (0 : Fin 1)) = ((M : ℝ) : EReal)) :
    exp (subf s (broadcastTo ⟨2, ![128, 8192]⟩ col hB)) (ix2 p c) = ((Real.exp (x - M) : ℝ) : EReal) := by
  rw [exp_apply, subf_apply, broadcastTo_a1_ab_apply, hx, hcol, ← EReal.coe_sub, Ideal.exp_coe]

/-- The sum of a row of real exponentials is a real, and positive; so the logarithm of the row's sum is real. -/
theorem log_rowSum_coe (e : FVec Ideal ⟨2, ![128, 8192]⟩ .f32)
    (hR : (⟨2, ![128, 8192]⟩ : Shape).Reduces [1] (⟨1, ![128]⟩ : Shape)) (hφ : FKind.Formats .f32)
    (hA : (0x00000000#32 : BitVec 32) = FKind.add.neutral .f32 hφ)
    (hC : (⟨1, ![128]⟩ : Shape).ShapeCasts ⟨2, ![128, 1]⟩)
    (p : Fin 128) (y : Fin 8192 → ℝ) (he : ∀ c, e (ix2 p c) = ((Real.exp (y c) : ℝ) : EReal)) :
    log (shapeCast ⟨2, ![128, 1]⟩ (multiReduction .add [1] ⟨1, ![128]⟩ e 0x00000000#32 hR hφ hA) hC) (ix2 p (0 : Fin 1))
      = ((Real.log (∑ c, Real.exp (y c)) : ℝ) : EReal) := by
  have hpos : 0 < ∑ c, Real.exp (y c) :=
    Finset.sum_pos (fun c _ => Real.exp_pos _) ⟨0, Finset.mem_univ _⟩
  have hsum : multiReduction .add [1] ⟨1, ![128]⟩ e 0x00000000#32 hR hφ hA (ix1 p)
      = ((∑ c, Real.exp (y c) : ℝ) : EReal) := by
    refine (rowSum_apply e _ hR hφ hA p).trans ?_
    rw [coe_sum]
    exact Finset.sum_congr rfl fun c _ => he c
  rw [log_apply, shapeCast_a_a1_apply, hsum, Ideal.log_coe, if_neg (not_le.mpr hpos)]

/-- The maximum's column plus the logarithm of the row's sum of exponentials of differences from it, for any
    column whose entry at row `p` is the real `M`: the real `M + log (∑ exp (g c - M))`. -/
theorem lse_of_col (s : FVec Ideal ⟨2, ![128, 8192]⟩ .f32) (col : FVec Ideal ⟨2, ![128, 1]⟩ .f32)
    (hR : (⟨2, ![128, 8192]⟩ : Shape).Reduces [1] (⟨1, ![128]⟩ : Shape)) (hφ : FKind.Formats .f32)
    (hA : (0x00000000#32 : BitVec 32) = FKind.add.neutral .f32 hφ)
    (hC : (⟨1, ![128]⟩ : Shape).ShapeCasts ⟨2, ![128, 1]⟩)
    (hB : (⟨2, ![128, 1]⟩ : Shape).Broadcasts ⟨2, ![128, 8192]⟩)
    (p : Fin 128) (g : Fin 8192 → ℝ) (M : ℝ) (hg : ∀ c, s (ix2 p c) = ((g c : ℝ) : EReal))
    (hcol : col (ix2 p (0 : Fin 1)) = ((M : ℝ) : EReal)) :
    addf col (log (shapeCast ⟨2, ![128, 1]⟩ (multiReduction .add [1] ⟨1, ![128]⟩
        (exp (subf s (broadcastTo ⟨2, ![128, 8192]⟩ col hB))) 0x00000000#32 hR hφ hA) hC)) (ix2 p (0 : Fin 1))
      = ((M + Real.log (∑ c, Real.exp (g c - M)) : ℝ) : EReal) := by
  rw [addf_apply, hcol,
    log_rowSum_coe _ hR hφ hA hC p (fun c => g c - M) (fun c => exp_sub_col s col hB p c (g c) M (hg c) hcol),
    ← EReal.coe_add]

/-- THE LOG-SUM-EXP OF A ROW OF REALS. When row `p` of a block holds the reals `g c`, the row's maximum is the
    real supremum of `g`, every difference from it is real, the sum of their exponentials is a positive real, and
    the maximum plus the logarithm of that sum is the real log-sum-exp of `g`. -/
theorem lse_row (s : FVec Ideal ⟨2, ![128, 8192]⟩ .f32)
    (hR : (⟨2, ![128, 8192]⟩ : Shape).Reduces [1] (⟨1, ![128]⟩ : Shape)) (hφ : FKind.Formats .f32)
    (hM : (0xFF800000#32 : BitVec 32) = FKind.maximumf.neutral .f32 hφ)
    (hA : (0x00000000#32 : BitVec 32) = FKind.add.neutral .f32 hφ)
    (hC : (⟨1, ![128]⟩ : Shape).ShapeCasts ⟨2, ![128, 1]⟩)
    (hB : (⟨2, ![128, 1]⟩ : Shape).Broadcasts ⟨2, ![128, 8192]⟩)
    (p : Fin 128) (g : Fin 8192 → ℝ) (hg : ∀ c, s (ix2 p c) = ((g c : ℝ) : EReal)) :
    addf (shapeCast ⟨2, ![128, 1]⟩ (multiReduction .maximumf [1] ⟨1, ![128]⟩ s 0xFF800000#32 hR hφ hM) hC)
      (log (shapeCast ⟨2, ![128, 1]⟩ (multiReduction .add [1] ⟨1, ![128]⟩
        (exp (subf s (broadcastTo ⟨2, ![128, 8192]⟩
          (shapeCast ⟨2, ![128, 1]⟩ (multiReduction .maximumf [1] ⟨1, ![128]⟩ s 0xFF800000#32 hR hφ hM) hC) hB)))
        0x00000000#32 hR hφ hA) hC)) (ix2 p (0 : Fin 1))
    = ((Finset.univ.sup' ⟨(0 : Fin 8192), Finset.mem_univ _⟩ g
        + Real.log (∑ c, Real.exp (g c - Finset.univ.sup' ⟨(0 : Fin 8192), Finset.mem_univ _⟩ g)) : ℝ) : EReal) :=
  lse_of_col s _ hR hφ hA hC hB p g _ hg
    ((shapeCast_a_a1_apply _ hC p (0 : Fin 1)).trans (rowMax_coe s hR hφ hM p g hg))

/-! ## The contraction's index maps, coordinate by coordinate -/

/-- The product's dimension numbers: both operands contracted on their second axis. -/
abbrev D := dot_S128x128_S8192x128_S128x8192_1_1_0_0_n_n

theorem D_rank : D.contr.rank = 1 := rfl
theorem D_size : D.contr.size ⟨0, by rw [D_rank]; omega⟩ = 128 := rfl
theorem D_lhs0 (j : S128x8192.Idx) (k : D.contr.Idx) : (D.lhsIdx j k 0).val = (j 0).val := by
  simp [DotDims.lhsIdx, D, dot_S128x128_S8192x128_S128x8192_1_1_0_0_n_n]; rfl
theorem D_lhs1 (j : S128x8192.Idx) (k : D.contr.Idx) : (D.lhsIdx j k 1).val = (k ⟨0, by rw [D_rank]; omega⟩).val := by
  simp [DotDims.lhsIdx, D, dot_S128x128_S8192x128_S128x8192_1_1_0_0_n_n]; rfl
theorem D_rhs0 (j : S128x8192.Idx) (k : D.contr.Idx) : (D.rhsIdx j k 0).val = (j 1).val := by
  simp [DotDims.rhsIdx, D, dot_S128x128_S8192x128_S128x8192_1_1_0_0_n_n]; rfl
theorem D_rhs1 (j : S128x8192.Idx) (k : D.contr.Idx) : (D.rhsIdx j k 1).val = (k ⟨0, by rw [D_rank]; omega⟩).val := by
  simp [DotDims.rhsIdx, D, dot_S128x128_S8192x128_S128x8192_1_1_0_0_n_n]; rfl

/-- The product of the row block with the whole matrix transposed, at `(p, c)`: the inner product of the rows. -/
theorem dot_apply (v1 : FVec Ideal S128x128 .bf16) (v3 : FVec Ideal S8192x128 .bf16) (u : Fin 8192 → Fin 128 → ℝ)
    (r : Fin 8192) (p : Fin 128) (c : Fin 8192)
    (h1 : ∀ d : Fin 128, v1 (ix2 p d) = ((u r d : ℝ) : EReal))
    (h3 : ∀ d : Fin 128, v3 (ix2 c d) = ((u c d : ℝ) : EReal)) :
    matmul D none (shapeCast S128x128 v1 Gen.shapeCasts_S128x128_S128x128)
      (shapeCast S8192x128 v3 Gen.shapeCasts_S8192x128_S8192x128) (constant S128x8192 .f32 0x00000000#32) (ix2 p c)
      = ((Cert.Spec.dot u r c : ℝ) : EReal) := by
  rw [shapeCast_self, shapeCast_self]
  refine (matmul_zero_rowsT (R := 128) (K := 128) (J := 8192) D none D_rank D_size D_lhs0 D_lhs1 D_rhs0 D_rhs1 v1 v3 p c).trans ?_
  unfold Cert.Spec.dot
  rw [coe_sum]
  exact Finset.sum_congr rfl fun k _ => by rw [h1, h3, EReal.coe_mul]

/-- The diagonal mask and the selection at `(p, c)`: the large constant comes off exactly where the row's word
    equals the column's. -/
theorem masked_apply (v7 : FVec Ideal ⟨2, ![128, 8192]⟩ .f32) (v10 : IVec ⟨2, ![128, 1]⟩ 32) (v11 : IVec ⟨2, ![1, 8192]⟩ 32)
    (hB1 : (⟨2, ![128, 1]⟩ : Shape).Broadcasts ⟨2, ![128, 8192]⟩)
    (hB2 : (⟨2, ![1, 8192]⟩ : Shape).Broadcasts ⟨2, ![128, 8192]⟩) (big : Ideal .f32) (p : Fin 128) (c : Fin 8192) :
    select (cmpi .eq (broadcastTo ⟨2, ![128, 8192]⟩ v10 hB1) (broadcastTo ⟨2, ![128, 8192]⟩ v11 hB2))
        (subf v7 (broadcast ⟨2, ![128, 8192]⟩ big)) v7 (ix2 p c)
      = if v10 (ix2 p (0 : Fin 1)) = v11 (ix2 (0 : Fin 1) c) then v7 (ix2 p c) - big else v7 (ix2 p c) := by
  rw [select_apply]
  show Scalar.select (IntOp.cmpi .eq (broadcastTo ⟨2, ![128, 8192]⟩ v10 hB1 (ix2 p c))
      (broadcastTo ⟨2, ![128, 8192]⟩ v11 hB2 (ix2 p c))) (v7 (ix2 p c) - big) (v7 (ix2 p c)) = _
  rw [broadcastTo_a1_ab_apply, broadcastTo_1b_ab_apply, select_cmpi_eq]

/-- The masked similarity block: twice the product of the row block with the whole matrix transposed, less the
    large constant where the row's number equals the column's. -/
def sim (i : grid0.Coords) (v1 : Vec Ideal S128x128 .bf16) (v3 : Vec Ideal S8192x128 .bf16) : FVec Ideal S128x8192 .f32 :=
  let arg0 : BitVec 32 := BitVec.ofNat 32 (i 0).val
  let v0 : BitVec 32 := Scalar.muli arg0 128#32
  have v2 : FVec Ideal S128x128 .bf16 := shapeCast S128x128 v1 shapeCasts_S128x128_S128x128
  have v4 : FVec Ideal S8192x128 .bf16 := shapeCast S8192x128 v3 shapeCasts_S8192x128_S8192x128
  have cst : FVec Ideal S128x8192 .f32 := constant S128x8192 .f32 0x00000000#32
  have v5 : FVec Ideal S128x8192 .f32 := matmul dot_S128x128_S8192x128_S128x8192_1_1_0_0_n_n none v2 v4 cst
  have cst_3 : Ideal .f32 := Scalar.ofBits .f32 0x40000000#32
  have v6 : FVec Ideal S128x8192 .f32 := broadcast S128x8192 cst_3
  have v7 : FVec Ideal S128x8192 .f32 := mulf v5 v6
  have v8 : IVec S128x1 32 := iota .tc S128x1 32 [0] iota_S128x1_d0_w32
  have v9 : IVec S128x1 32 := broadcast S128x1 v0
  have v10 : IVec S128x1 32 := addi v9 v8
  have v11 : IVec S1x8192 32 := iota .tc S1x8192 32 [1] iota_S1x8192_d1_w32
  have v12 : IVec S128x8192 32 := broadcastTo S128x8192 v10 broadcasts_S128x1_S128x8192
  have v13 : IVec S128x8192 32 := broadcastTo S128x8192 v11 broadcasts_S1x8192_S128x8192
  have v14 : IVec S128x8192 1 := cmpi .eq v12 v13
  have cst_4 : Ideal .f32 := Scalar.ofBits .f32 0x4E6E6B28#32
  have v15 : FVec Ideal S128x8192 .f32 := broadcast S128x8192 cst_4
  have v16 : FVec Ideal S128x8192 .f32 := subf v7 v15
  select v14 v16 v7

/-- The stable log-sum-exp of each row of a block: the row's maximum plus the logarithm of the sum of the
    exponentials of the differences from it. -/
def lseOf (v17 : FVec Ideal S128x8192 .f32) : FVec Ideal S128x1 .f32 :=
  have v18 : FVec Ideal S128 .f32 := multiReduction .maximumf [1] S128 v17 0xFF800000#32 reduces_S128x8192_S128 (.inl rfl) rfl
  have v19 : FVec Ideal S128x1 .f32 := shapeCast S128x1 v18 shapeCasts_S128_S128x1
  have v20 : FVec Ideal S128x8192 .f32 := broadcastTo S128x8192 v19 broadcasts_S128x1_S128x8192
  have v21 : FVec Ideal S128x8192 .f32 := subf v17 v20
  have v22 : FVec Ideal S128x8192 .f32 := exp v21
  have v23 : FVec Ideal S128 .f32 := multiReduction .add [1] S128 v22 0x00000000#32 reduces_S128x8192_S128 (.inl rfl) rfl
  have v24 : FVec Ideal S128x1 .f32 := shapeCast S128x1 v23 shapeCasts_S128_S128x1
  have v25 : FVec Ideal S128x1 .f32 := log v24
  addf v19 v25

/-- The body's stored value is the log-sum-exp of the masked similarity block. -/
theorem k0_pay1_eq (i : grid0.Coords) (v1 : Vec Ideal S128x128 .bf16) (v3 : Vec Ideal S8192x128 .bf16) :
    Gen.k0_pay1 (F := Ideal) i v1 v3 = lseOf (sim i v1 v3) := rfl

/-- THE MASKED SIMILARITY AT AN INDEX. With the row block holding rows `128 i … 128 i + 127` of the real matrix
    `u` and the whole matrix holding `u`, the block's entry at `(p, c)` is the real masked similarity of rows
    `128 i + p` and `c`: twice their inner product, less the large constant when they are the same row. The row's
    number and the column's are compared as 32-bit words; both are below 8192, so nothing wraps. -/
theorem sim_apply (i : grid0.Coords) (hi : (i 0).val < 64) (v1 : FVec Ideal S128x128 .bf16) (v3 : FVec Ideal S8192x128 .bf16)
    (u : Fin 8192 → Fin 128 → ℝ) (p : Fin 128) (c : Fin 8192) (r : Fin 8192) (hr : r.val = 128 * (i 0).val + p.val)
    (h1 : ∀ d : Fin 128, v1 (ix2 p d) = ((u r d : ℝ) : EReal))
    (h3 : ∀ d : Fin 128, v3 (ix2 c d) = ((u c d : ℝ) : EReal)) :
    sim i v1 v3 (ix2 p c) = ((Cert.Spec.simSel Cert.Consts.big u r c : ℝ) : EReal) := by
  unfold sim
  refine (masked_apply _ _ _ _ _ _ p c).trans ?_
  -- the two words
  have hrow : addi (broadcast S128x1 (Scalar.muli (BitVec.ofNat 32 (i 0).val) 128#32))
      (iota .tc S128x1 32 [0] Gen.iota_S128x1_d0_w32) (ix2 p (0 : Fin 1))
      = IntOp.addi (Scalar.muli (BitVec.ofNat 32 (i 0).val) 128#32) (BitVec.ofNat 32 p.val) := by
    show IntOp.addi _ (iota .tc S128x1 32 [0] Gen.iota_S128x1_d0_w32 (ix2 p (0 : Fin 1))) = _
    rw [iota_single_apply]
    rfl
  have hcolw : iota .tc S1x8192 32 [1] Gen.iota_S1x8192_d1_w32 (ix2 (0 : Fin 1) c) = BitVec.ofNat 32 c.val := by
    rw [iota_single_apply]
  -- twice the inner product
  have h7 : mulf (matmul D none (shapeCast S128x128 v1 Gen.shapeCasts_S128x128_S128x128)
        (shapeCast S8192x128 v3 Gen.shapeCasts_S8192x128_S8192x128) (constant S128x8192 .f32 0x00000000#32))
        (broadcast S128x8192 (Scalar.ofBits .f32 0x40000000#32)) (ix2 p c)
      = ((Cert.Spec.dot u r c * 2 : ℝ) : EReal) := by
    rw [mulf_apply, dot_apply v1 v3 u r p c h1 h3, broadcast_apply]
    show ((Cert.Spec.dot u r c : ℝ) : EReal) * Ideal.ofBits .f32 0x40000000#32 = _
    rw [Cert.Consts.ofBits_two, ← EReal.coe_mul]
  have hbig : (Scalar.ofBits .f32 0x4E6E6B28#32 : Ideal .f32) = ((Cert.Consts.big : ℝ) : EReal) :=
    Cert.Consts.ofBits_big
  rw [hrow, hcolw, h7, hbig]
  have hw := word_eq_iff (i 0).val p.val c.val hi p.isLt c.isLt
  unfold Cert.Spec.simSel
  by_cases hrc : r = c
  · have e : 128 * (i 0).val + p.val = c.val := by rw [← hr, hrc]
    rw [if_pos (hw.mpr e), if_pos hrc, ← EReal.coe_sub]
  · have e : ¬ 128 * (i 0).val + p.val = c.val := fun h => hrc (Fin.ext (hr.trans h))
    rw [if_neg (fun h => e (hw.mp h)), if_neg hrc]

/-- The log-sum-exp tail at row `p` of a block whose row `p` holds the reals `g c`. -/
theorem lseOf_apply (s : FVec Ideal S128x8192 .f32) (p : Fin 128) (g : Fin 8192 → ℝ)
    (hg : ∀ c, s (ix2 p c) = ((g c : ℝ) : EReal)) :
    lseOf s (ix2 p (0 : Fin 1))
      = ((Finset.univ.sup' ⟨(0 : Fin 8192), Finset.mem_univ _⟩ g
          + Real.log (∑ c, Real.exp (g c - Finset.univ.sup' ⟨(0 : Fin 8192), Finset.mem_univ _⟩ g)) : ℝ) : EReal) :=
  lse_row s Gen.reduces_S128x8192_S128 (.inl rfl) rfl rfl Gen.shapeCasts_S128_S128x1 Gen.broadcasts_S128x1_S128x8192 p g hg

/-- THE KERNEL BODY'S VALUE AT AN INDEX IS THE REAL LOG-SUM-EXP. At grid point `i`, with the row block holding
    rows `128 i … 128 i + 127` of the real matrix `u` and the whole matrix holding `u`, the value stored at row `p` is
    the log-sum-exp of row `128 i + p` of the masked similarity of `u`. -/
theorem pay_real (i : grid0.Coords) (hi : (i 0).val < 64) (v1 : Vec Ideal S128x128 .bf16) (v3 : Vec Ideal S8192x128 .bf16)
    (u : Fin 8192 → Fin 128 → ℝ)
    (h1 : ∀ (p d : Fin 128), v1 (ValueIdx.ix2 p d) = ((u ⟨128 * (i 0).val + p.val, by omega⟩ d : ℝ) : EReal))
    (h3 : ∀ (c : Fin 8192) (d : Fin 128), v3 (ValueIdx.ix2 c d) = ((u c d : ℝ) : EReal)) (p : Fin 128) :
    Gen.k0_pay1 (F := Ideal) i v1 v3 (ValueIdx.ix2 p (0 : Fin 1))
      = ((Cert.Spec.lse (Cert.Spec.simSel Cert.Consts.big u) ⟨128 * (i 0).val + p.val, by omega⟩ : ℝ) : EReal) := by
  rw [k0_pay1_eq]
  exact lseOf_apply (sim i v1 v3) p (Cert.Spec.simSel Cert.Consts.big u ⟨128 * (i 0).val + p.val, by omega⟩)
    (fun c => sim_apply i hi v1 v3 u p c ⟨128 * (i 0).val + p.val, by omega⟩ rfl (h1 p) (h3 c))

end Cert.KernelIdeal.Payload

end
-- ==== Proof.HostPrefix.lean ====
/-
  The two programs' shared beginning, at the extended reals, is real arithmetic.

  The two argument matrices are stacked; each row's sum of squares is taken from zero; its square root is bounded
  below by a positive constant; each entry is divided by that bound. With real arguments every operand is the
  coercion of a real number and each operation on coerced reals is the coercion of the real operation: the sum of
  squares is a nonnegative real, so its square root is the real square root; the larger of two reals is a real; the
  divisor is at least the positive constant, so it is not zero and the quotient is the real quotient. Hence the
  result is the coercion of the stacked matrix with its rows scaled to (at most) unit length.
-/
import proofs.«107459_j7189775253513_1_alg».proof.Proof.RefRead
import proofs.«107459_j7189775253513_1_alg».proof.Proof.Spec
import proofs.«107459_j7189775253513_1_alg».proof.Proof.Consts
import proofs.«107459_j7189775253513_1_alg».proof.Proof.LibCat2
import Idealize.ShloMosaic.Lib.Pipeline.Value
import Idealize.ShloMosaic.Lib.ValueIdx
import Idealize.ShloMosaic.PureOps.Ideal.Laws

noncomputable section

namespace Cert.HostPrefix

/-- The coercion of the reals into the extended reals goes through a finite sum. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The coercion of the reals into the extended reals is monotone, so it goes through a maximum. -/
theorem coe_max (x y : ℝ) : ((max x y : ℝ) : EReal) = max (x : EReal) (y : EReal) :=
  EReal.coe_strictMono.monotone.map_max

/-! ## The shared prefix: the stacked matrix with its rows scaled to unit length -/

section Prefix

open Idealize.ShloMosaic Idealize.ShloMosaic.ValueIdx
open Cert.ReferenceIdeal Cert.ReferenceIdeal.Gen Cert.ReferenceIdeal.Read

variable (a0 a1 : (⟨Cert.ReferenceIdeal.S4096x128, .f32⟩ : BufTy).Contents (Elt Ideal)) (x0 x1 : Fin 4096 → Fin 128 → ℝ)
  (h0 : ∀ (r : Fin 4096) (d : Fin 128), a0 (ValueIdx.ix2 r d) = ((x0 r d : ℝ) : EReal))
  (h1 : ∀ (r : Fin 4096) (d : Fin 128), a1 (ValueIdx.ix2 r d) = ((x1 r d : ℝ) : EReal))

include h0 h1

/-- The concatenation of the two arguments along the rows is the stacked matrix. -/
theorem stack_real (r : Fin 8192) (d : Fin 128) :
    val_main_v0 (F := Ideal) a0 a1 (ix2 r d) = ((Cert.Spec.stack x0 x1 r d : ℝ) : EReal) := by
  unfold val_main_v0 Cert.Spec.stack
  by_cases h : r.val < 4096
  · rw [dif_pos h]
    refine (Cat2.cat2_rows_apply a0 a1 _ (0 : Fin 2) ⟨r.val, h⟩ d r (by simp)).trans ?_
    exact h0 _ _
  · rw [dif_neg h]
    refine (Cat2.cat2_rows_apply a0 a1 _ (1 : Fin 2) ⟨r.val - 4096, by omega⟩ d r (by simp; omega)).trans ?_
    exact h1 _ _

omit h0 h1 in
/-- Row `r`'s `k`-th summand sits at `(r, k)`. -/
theorem idx_rowsum (r : Fin 8192) (k : Fin 128) : idx_main_call0_v1 (ix1 r) k = ix2 r k := by
  funext a; match a with | ⟨0, _⟩ => rfl | ⟨1, _⟩ => rfl

omit h0 h1 in
/-- The column's entry in row `r` is the vector's entry `r`. -/
theorem idx_col (r : Fin 8192) (u : Fin 1) : idx_main_call0_v2 (ix2 r u) = ix1 r := by
  funext a; match a with | ⟨0, _⟩ => rfl

omit h0 h1 in
/-- The column copied along the row reads, at `(r, d)`, the column's entry in row `r`. -/
theorem idx_bcast (r : Fin 8192) (d : Fin 128) : idx_main_v4 (ix2 r d) = ix2 r (0 : Fin 1) := by
  funext a; match a with | ⟨0, _⟩ => rfl | ⟨1, _⟩ => rfl

/-- A row's sum of squares, from the constant zero, is the real sum of squares. -/
theorem sumsq_real (r : Fin 8192) :
    val_main_call0_v1 (F := Ideal) a0 a1 (ix1 r)
      = ((∑ d, Cert.Spec.stack x0 x1 r d * Cert.Spec.stack x0 x1 r d : ℝ) : EReal) := by
  rw [val_main_call0_v1_apply, val_main_call0_cst_apply, Ideal.ofBits_def, Cert.Consts.ofBits_zero, zero_add, coe_sum]
  refine Finset.sum_congr rfl fun k _ => ?_
  rw [idx_rowsum, val_main_call0_v0_apply, Ideal.mulf_def, stack_real a0 a1 x0 x1 h0 h1, EReal.coe_mul]

/-- The row's norm bounded below: the square root of a nonnegative real is the real square root, and the larger
    of two reals is a real. -/
theorem norm_real (r : Fin 8192) :
    val_main_v3 (F := Ideal) a0 a1 (ix2 r (0 : Fin 1))
      = ((Cert.Spec.rowNorm Cert.Consts.eps (Cert.Spec.stack x0 x1) r : ℝ) : EReal) := by
  have hnn : ¬ (∑ d, Cert.Spec.stack x0 x1 r d * Cert.Spec.stack x0 x1 r d) < 0 :=
    not_lt.2 (Finset.sum_nonneg fun d _ => mul_self_nonneg _)
  rw [val_main_v3_apply, val_main_v1_apply, val_main_call0_v2_apply, idx_col, sumsq_real a0 a1 x0 x1 h0 h1,
    val_main_v2_apply, val_main_cst_apply, Ideal.hostUnary_sqrt_def, Ideal.sqrt_coe, if_neg hnn, Ideal.ofBits_def,
    Cert.Consts.ofBits_eps, Ideal.maximumf_def, ← coe_max]
  rfl

/-- The shared beginning of the two programs, at real arguments, is the stacked matrix with its rows scaled to (at
    most) unit length: the divisor is at least the positive constant, so the quotient is the real quotient. -/
theorem unit_real (r : Fin 8192) (d : Fin 128) :
    Cert.ReferenceIdeal.Read.val_main_v5 (F := Ideal) a0 a1 (ValueIdx.ix2 r d)
      = ((Cert.Spec.unitRows Cert.Consts.eps (Cert.Spec.stack x0 x1) r d : ℝ) : EReal) := by
  have hpos : Cert.Spec.rowNorm Cert.Consts.eps (Cert.Spec.stack x0 x1) r ≠ 0 :=
    ne_of_gt (lt_of_lt_of_le Cert.Consts.eps_pos (le_max_right _ _))
  rw [val_main_v5_apply, val_main_v4_apply, idx_bcast, norm_real a0 a1 x0 x1 h0 h1, stack_real a0 a1 x0 x1 h0 h1,
    Ideal.hostDivf_def, Ideal.div_coe hpos, ← EReal.coe_mul, mul_one_div]
  rfl

end Prefix

end Cert.HostPrefix

end
-- ==== Proof.KValue.lean ====
/-
  What the kernel program's buffers hold, at the extended reals.

  The normalized matrix the host operations compute is the same term in both programs. The matrix the kernel reads is
  that matrix (a change of float format is the identity here); the partners' similarities and the final mean are the
  host operations' composites of it. The kernel's column is read off the pipeline's proof data: at point `t` the first
  window holds rows `128 t … 128 t + 127` and the second the whole matrix, so what the point writes back is the
  log-sum-exp of those rows; the 64 blocks cover the column, so every element of the column after the run is the
  log-sum-exp of its row.
-/
import proofs.«107459_j7189775253513_1_alg».proof.Proof.FrameKernelIdeal
import proofs.«107459_j7189775253513_1_alg».proof.Proof.HostSide
import proofs.«107459_j7189775253513_1_alg».proof.Proof.RefRead
import proofs.«107459_j7189775253513_1_alg».proof.Proof.Payload
import proofs.«107459_j7189775253513_1_alg».proof.Proof.HostPrefix
import Idealize.ShloMosaic.Lib.Pipeline.Value
import Idealize.ShloMosaic.Lib.ValueIdx
import Idealize.ShloMosaic.Lib.StableHlo.Run

set_option maxRecDepth 16384

noncomputable section

namespace Cert.KernelIdeal.KValue

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ)

/-- The normalized matrix, as both programs compute it from the arguments. -/
theorem V3_v5 (c : Dev nD) :
    V3 m c main_v5 = Cert.ReferenceIdeal.Read.val_main_v5 (F := Ideal) (m ((c.tc : Thread nD τ).loc main_arg0)) (m ((c.tc : Thread nD τ).loc main_arg1)) := by
  show StableHlo.after hostOps0_2 (StableHlo.after hostOps0_1 (StableHlo.after hostOps0 (V0 m c))) (Proc.devRef .tc main_v5) = _
  after_results_simp
  rfl

/-- The partners' similarities, from the normalized matrix. -/
theorem V3_v12 (c : Dev nD) : V3 m c main_v12 = Cert.HostSide.sfull (V3 m c main_v5) := by
  show StableHlo.after hostOps0_2 (V2 m c) (Proc.devRef .tc main_v12) = Cert.HostSide.sfull (StableHlo.after hostOps0_2 (V2 m c) (Proc.devRef .tc main_v5))
  generalize V2 m c = W
  after_results_simp
  rfl

/-- The matrix the kernel reads is the normalized matrix (a change of format is the identity here). -/
theorem V3_v13 (c : Dev nD) (i : S8192x128.Idx) : V3 m c main_v13 i = V3 m c main_v5 i := by
  show StableHlo.after hostOps0_2 (V2 m c) (Proc.devRef .tc main_v13) i = StableHlo.after hostOps0_2 (V2 m c) (Proc.devRef .tc main_v5) i
  generalize V2 m c = W
  after_results_simp
  rfl

/-- The result, from the kernel's column and the partners' similarities. -/
theorem V5_v18 (c : Dev nD) : V5 m c main_v18 = Cert.HostSide.loss (finalOut m c) (V3 m c main_v12) := by
  show StableHlo.after hostOps1 (V4 m c) (Proc.devRef .tc main_v18) = _
  rw [← V4_out m c, ← V4_of m c main_v12 (by decide)]
  generalize V4 m c = W
  after_results_simp
  rfl

/-! ## The kernel's column -/

open Idealize.ShloMosaic.ValueIdx

theorem hz : (![0, 0] : Fin 2 → Nat) = fun _ => 0 := funext fun a => by fin_cases a <;> rfl

/-- The printed index maps over the grid: the first window and the result move one block of 128 rows per point, the
    second window stays on the whole matrix, and the one grid coordinate is the point's number. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ ((grid0.coords t) 0).val = t.val :=
  (by decide +kernel : ∀ t : Fin grid0.N, _)

theorem coords_lt (t : Fin cfg0.N) : ((grid0.coords t) 0).val < 64 := by
  have h := (idx_facts t).2.2.2.2.2.2
  have ht : t.val < grid0.N := t.isLt
  have hN : grid0.N = 64 := N_0
  omega

/-- Block `t` of the first window: rows `128 t … 128 t + 127` of the matrix the kernel reads. -/
theorem iblk0_apply (c : Dev nD) (t : Fin cfg0.N) (p d : Fin 128) :
    iblk m c 0 t (ix2 p d) = V m c main_v13 (ix2 (⟨128 * ((grid0.coords t) 0).val + p.val, by have := coords_lt t; omega⟩ : Fin 8192) d) := by
  show V m c main_v13 (((cfg0.win 0).blk t).view.emb (ix2 p d)) = _
  refine congrArg (V m c main_v13) ?_
  obtain ⟨e0, e1, -, -, -, -, e6⟩ := idx_facts t
  funext a; apply Fin.ext
  match a with
  | ⟨0, _⟩ => show win0_0.index t (0 : Fin 2) * 128 + 1 * p.val = 128 * ((grid0.coords t) 0).val + p.val; omega
  | ⟨1, _⟩ => show win0_0.index t (1 : Fin 2) * 128 + 1 * d.val = d.val; omega

/-- The second window's block is the whole matrix. -/
theorem iblk1_apply (c : Dev nD) (t : Fin cfg0.N) (r : Fin 8192) (d : Fin 128) :
    iblk m c 1 t (ix2 r d) = V m c main_v13 (ix2 r d) := by
  show V m c main_v13 (((cfg0.win 1).blk t).view.emb (ix2 r d)) = _
  refine congrArg (V m c main_v13) ?_
  obtain ⟨-, -, e2, e3, -, -, -⟩ := idx_facts t
  funext a; apply Fin.ext
  match a with
  | ⟨0, _⟩ => show win0_1.index t (0 : Fin 2) * 8192 + 1 * r.val = r.val; omega
  | ⟨1, _⟩ => show win0_1.index t (1 : Fin 2) * 128 + 1 * d.val = d.val; omega

/-- WHAT POINT `t` WRITES BACK, element by element: the log-sum-exp of the rows of its block. -/
theorem flushed_real (c : Dev nD) (u : Fin 8192 → Fin 128 → ℝ)
    (hu : ∀ (r : Fin 8192) (d : Fin 128), V m c main_v13 (ix2 r d) = ((u r d : ℝ) : EReal))
    (t : Fin cfg0.N) (p : Fin 128) :
    (dats m 0 c).flushed 2 t (ix2 p (0 : Fin 1))
      = ((Cert.Spec.lse (Cert.Spec.simSel Cert.Consts.big u) ⟨128 * ((grid0.coords t) 0).val + p.val, by have := coords_lt t; omega⟩ : ℝ) : EReal) := by
  show (cfg0.win 2).cut (grid0.coords t) ((dats m 0 c).after 2 t) (ix2 p (0 : Fin 1)) = _
  rw [after2]
  unfold out2
  rw [View.canon_unit_zero hz]
  simp only [View.ld_unit_zero (S := S128x128) hz, View.ld_unit_zero (S := S8192x128) hz]
  exact Cert.KernelIdeal.Payload.pay_real (grid0.coords t) (coords_lt t) (iblk m c 0 t) (iblk m c 1 t) u
    (fun p d => (iblk0_apply m c t p d).trans (hu _ d)) (fun r d => (iblk1_apply m c t r d).trans (hu r d)) p

/-- An index of the result array is in point `t`'s block iff each coordinate is in the block's range. -/
theorem mem_blk (t : Fin cfg0.N) (i : S8192x1.Idx) :
    i ∈ ((cfg0.win 2).blk t).view.set ↔ ∀ a : Fin 2, win0_2.index t a * S128x1.size a ≤ (i a).val ∧ (i a).val < win0_2.index t a * S128x1.size a + S128x1.size a := by
  show i ∈ ((View.whole main_v14).slice (win0_2.rect t)).set ↔ _
  rw [View.set_slice_whole, Rect.mem_set_unit]
  exact Iff.rfl

/-- The 64 blocks cover the result array: row `r` is in block `r / 128`. -/
theorem cover (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  have hN : grid0.N = 64 := N_0
  have hlt : (i 0).val / 128 < cfg0.N := by show (i 0).val / 128 < grid0.N; omega
  refine ⟨⟨(i 0).val / 128, hlt⟩, flush0_2 _, ?_⟩
  rw [mem_blk]
  obtain ⟨-, -, -, -, e4, e5, -⟩ := idx_facts ⟨(i 0).val / 128, hlt⟩
  have e4' : win0_2.index ⟨(i 0).val / 128, hlt⟩ (0 : Fin 2) = (i 0).val / 128 := e4
  intro a
  match a with
  | ⟨0, _⟩ =>
    show win0_2.index ⟨(i 0).val / 128, hlt⟩ (0 : Fin 2) * 128 ≤ (i 0).val ∧ (i 0).val < win0_2.index ⟨(i 0).val / 128, hlt⟩ (0 : Fin 2) * 128 + 128
    omega
  | ⟨1, _⟩ =>
    show win0_2.index ⟨(i 0).val / 128, hlt⟩ (1 : Fin 2) * 1 ≤ (i 1).val ∧ (i 1).val < win0_2.index ⟨(i 0).val / 128, hlt⟩ (1 : Fin 2) * 1 + 1
    omega

/-- THE RESULT ARRAY after the region: row `r` holds the log-sum-exp of row `r`. -/
theorem finalOut_real (c : Dev nD) (u : Fin 8192 → Fin 128 → ℝ)
    (hu : ∀ (r : Fin 8192) (d : Fin 128), V m c main_v13 (ix2 r d) = ((u r d : ℝ) : EReal)) (r : Fin 8192) :
    finalOut m c (ix2 r (0 : Fin 1)) = ((Cert.Spec.lse (Cert.Spec.simSel Cert.Consts.big u) r : ℝ) : EReal) := by
  refine (dats m 0 c).arrAt_forall_of_cover 2
    (fun i v => ∀ r' : Fin 8192, (i 0).val = r'.val → (v : EReal) = ((Cert.Spec.lse (Cert.Spec.simSel Cert.Consts.big u) r' : ℝ) : EReal))
    (fun t _ y r' hr' => ?_) (cover) (ix2 r (0 : Fin 1)) r rfl
  obtain ⟨p, q, rfl⟩ : ∃ (p : Fin 128) (q : Fin 1), y = ix2 p q := ⟨y 0, y 1, eq_ix2 y⟩
  obtain rfl : q = 0 := Subsingleton.elim _ _
  show (dats m 0 c).flushed 2 t (ix2 p (0 : Fin 1)) = _
  rw [flushed_real m c u hu t p]
  obtain ⟨-, -, -, -, e4, -, e6⟩ := idx_facts t
  have he : win0_2.index t (0 : Fin 2) * 128 + 1 * p.val = r'.val := hr'
  congr 2
  apply Fin.ext
  show 128 * ((grid0.coords t) 0).val + p.val = r'.val
  omega

end Cert.KernelIdeal.KValue

end
-- ==== Proof.LibAfter.lean ====
/-
  The contents after two lines of host operations run one after the other: the fold of the concatenated
  line is the fold of the second line over the fold of the first. General; no program is imported.
-/
import Idealize.ShloMosaic.Lib.StableHlo.Run

namespace Idealize.ShloMosaic.StableHlo

variable {τ : Topo} {sig : RefSig} {Val : EltTy → Type}

/-- Folding the operations of `l₁ ++ l₂` over contents `V` is folding `l₂` over what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.RefRun.lean ====
/-
  The reference program's run: @main as the list of its 76 host operations, and every weakly fair execution's end.

  Every execution terminates with each buffer at the fold of the operations over the launch contents. The fold is read
  in pieces. The first 32 operations leave the masked similarity matrix and the two halves of the label vector at their
  stages. The remaining 44, from any contents with those three buffers at those stages, leave the result at its last
  stage; they are read in three parts in turn: the label vector and the log-probabilities, the partners'
  log-probabilities gathered, and their negated mean. A value carried to a typed buffer and back is the value.
-/
import proofs.«107459_j7189775253513_1_alg».proof.Proof.RefRead
import proofs.«107459_j7189775253513_1_alg».proof.Proof.LibAfter
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's 76 operations, in order (a called function's operations stand in its call's place, spelt `TRef.…`). -/
abbrev ops : List (HloOp τ sig (Elt F)) :=
  [ binary main_arg0 main_arg1 main_v0 ((fun a b => concatenate S8192x128 0 [⟨S4096x128, a⟩, ⟨S4096x128, b⟩] concatenates_S4096x128_S4096x128_S8192x128_d0) : (⟨S4096x128, .f32⟩ : BufTy).Contents (Elt F) → (⟨S4096x128, .f32⟩ : BufTy).Contents (Elt F) → (⟨S8192x128, .f32⟩ : BufTy).Contents (Elt F)),
    TRef.binary (TRef.of (T := ⟨S8192x128, .f32⟩) main_v0) (TRef.of (T := ⟨S8192x128, .f32⟩) main_v0) (TRef.of (T := ⟨S8192x128, .f32⟩) main_call0_v0) mulf,
    TRef.nullary (TRef.of (T := ⟨S_, .f32⟩) main_call0_cst) (constant S_ .f32 0x00000000#32),
    TRef.binary (TRef.of (T := ⟨S8192x128, .f32⟩) main_call0_v0) (TRef.of (T := ⟨S_, .f32⟩) main_call0_cst) (TRef.of (T := ⟨S8192, .f32⟩) main_call0_v1) (fun x v => Host.reduceAdd x v reducesTo_S8192x128_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v1) Host.sqrt,
    nullary main_cst (constant S_ .f32 0x322BCC77#32),
    unary main_cst main_v2 (broadcastInDim S8192x1 ![] bcast_S_S8192x1 : (⟨S_, .f32⟩ : BufTy).Contents (Elt F) → (⟨S8192x1, .f32⟩ : BufTy).Contents (Elt F)),
    binary main_v1 main_v2 main_v3 (maximumf : (⟨S8192x1, .f32⟩ : BufTy).Contents (Elt F) → (⟨S8192x1, .f32⟩ : BufTy).Contents (Elt F) → (⟨S8192x1, .f32⟩ : BufTy).Contents (Elt F)),
    unary main_v3 main_v4 (broadcastInDim S8192x128 ![0, 1] bcast_S8192x1_S8192x128_0_1 : (⟨S8192x1, .f32⟩ : BufTy).Contents (Elt F) → (⟨S8192x128, .f32⟩ : BufTy).Contents (Elt F)),
    binary main_v0 main_v4 main_v5 (Host.divf : (⟨S8192x128, .f32⟩ : BufTy).Contents (Elt F) → (⟨S8192x128, .f32⟩ : BufTy).Contents (Elt F) → (⟨S8192x128, .f32⟩ : BufTy).Contents (Elt F)),
    unary main_v5 main_v6 ((transpose S128x8192 [1, 0] · transposes_S8192x128_S128x8192_1_0) : (⟨S8192x128, .f32⟩ : BufTy).Contents (Elt F) → (⟨S128x8192, .f32⟩ : BufTy).Contents (Elt F)),
    binary main_v5 main_v6 main_v7 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    nullary main_cst_0 (constant S_ .f32 0x3F000000#32),
    unary main_cst_0 main_v8 (broadcastInDim S8192x8192 ![] bcast_S_S8192x8192 : (⟨S_, .f32⟩ : BufTy).Contents (Elt F) → (⟨S8192x8192, .f32⟩ : BufTy).Contents (Elt F)),
    binary main_v7 main_v8 main_v9 (Host.divf : (⟨S8192x8192, .f32⟩ : BufTy).Contents (Elt F) → (⟨S8192x8192, .f32⟩ : BufTy).Contents (Elt F) → (⟨S8192x8192, .f32⟩ : BufTy).Contents (Elt F)),
    nullary main_v10 (iotaInDim S8192x8192 32 0),
    nullary main_v11 (iotaInDim S8192x8192 32 1),
    nullary main_c (constantI S_ 32 0#32),
    unary main_c main_v12 (broadcastInDim S8192x8192 ![] bcast_S_S8192x8192 : (⟨S_, .i32⟩ : BufTy).Contents (Elt F) → (⟨S8192x8192, .i32⟩ : BufTy).Contents (Elt F)),
    binary main_v10 main_v12 main_v13 (addi : (⟨S8192x8192, .i32⟩ : BufTy).Contents (Elt F) → (⟨S8192x8192, .i32⟩ : BufTy).Contents (Elt F) → (⟨S8192x8192, .i32⟩ : BufTy).Contents (Elt F)),
    binary main_v13 main_v11 main_v14 (cmpi .eq : (⟨S8192x8192, .i32⟩ : BufTy).Contents (Elt F) → (⟨S8192x8192, .i32⟩ : BufTy).Contents (Elt F) → (⟨S8192x8192, .i1⟩ : BufTy).Contents (Elt F)),
    unary main_v14 main_v15 (uitofp .f32 : (⟨S8192x8192, .i1⟩ : BufTy).Contents (Elt F) → (⟨S8192x8192, .f32⟩ : BufTy).Contents (Elt F)),
    nullary main_cst_1 (constant S_ .f32 0x4E6E6B28#32),
    unary main_cst_1 main_v16 (broadcastInDim S8192x8192 ![] bcast_S_S8192x8192 : (⟨S_, .f32⟩ : BufTy).Contents (Elt F) → (⟨S8192x8192, .f32⟩ : BufTy).Contents (Elt F)),
    binary main_v16 main_v15 main_v17 (mulf : (⟨S8192x8192, .f32⟩ : BufTy).Contents (Elt F) → (⟨S8192x8192, .f32⟩ : BufTy).Contents (Elt F) → (⟨S8192x8192, .f32⟩ : BufTy).Contents (Elt F)),
    binary main_v9 main_v17 main_v18 (subf : (⟨S8192x8192, .f32⟩ : BufTy).Contents (Elt F) → (⟨S8192x8192, .f32⟩ : BufTy).Contents (Elt F) → (⟨S8192x8192, .f32⟩ : BufTy).Contents (Elt F)),
    nullary main_v19 (iotaInDim S4096 32 0),
    nullary main_c_2 (constantI S_ 32 4096#32),
    unary main_c_2 main_v20 (broadcastInDim S4096 ![] bcast_S_S4096 : (⟨S_, .i32⟩ : BufTy).Contents (Elt F) → (⟨S4096, .i32⟩ : BufTy).Contents (Elt F)),
    binary main_v19 main_v20 main_v21 (addi : (⟨S4096, .i32⟩ : BufTy).Contents (Elt F) → (⟨S4096, .i32⟩ : BufTy).Contents (Elt F) → (⟨S4096, .i32⟩ : BufTy).Contents (Elt F)),
    nullary main_v22 (iotaInDim S4096 32 0),
    binary main_v21 main_v22 main_v23 ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)),
    TRef.nullary (TRef.of (T := ⟨S_, .f32⟩) main_call1_cst) (constant S_ .f32 0xFF800000#32),
    TRef.binary (TRef.of (T := ⟨S8192x8192, .f32⟩) main_v18) (TRef.of (T := ⟨S_, .f32⟩) main_call1_cst) (TRef.of (T := ⟨S8192, .f32⟩) main_call1_v0) (fun x v => Host.reduce FloatOps.maximumf x v reducesTo_S8192x8192_S8192_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S8192, .f32⟩) main_call1_v1) (broadcastInDim S8192 ![] bcast_S_S8192),
    TRef.binary (TRef.of (T := ⟨S8192, .f32⟩) main_call1_v1) (TRef.of (T := ⟨S8192, .f32⟩) main_call1_v0) (TRef.of (T := ⟨S8192, .f32⟩) main_call1_v2) maximumf,
    TRef.unary (TRef.of (T := ⟨S8192, .f32⟩) main_call1_v2) (TRef.of (T := ⟨S8192x1, .f32⟩) main_call1_v3) (broadcastInDim S8192x1 ![0] bcast_S8192_S8192x1_0),
    TRef.unary (TRef.of (T := ⟨S8192x1, .f32⟩) main_call1_v3) (TRef.of (T := ⟨S8192x8192, .f32⟩) main_call1_v4) (broadcastInDim S8192x8192 ![0, 1] bcast_S8192x1_S8192x8192_0_1),
    TRef.binary (TRef.of (T := ⟨S8192x8192, .f32⟩) main_v18) (TRef.of (T := ⟨S8192x8192, .f32⟩) main_call1_v4) (TRef.of (T := ⟨S8192x8192, .f32⟩) main_call1_v5) subf,
    TRef.unary (TRef.of (T := ⟨S8192x8192, .f32⟩) main_call1_v5) (TRef.of (T := ⟨S8192x8192, .f32⟩) main_call1_v6) Host.exp,
    TRef.nullary (TRef.of (T := ⟨S_, .f32⟩) main_call1_cst_1) (constant S_ .f32 0x00000000#32),
    TRef.binary (TRef.of (T := ⟨S8192x8192, .f32⟩) main_call1_v6) (TRef.of (T := ⟨S_, .f32⟩) main_call1_cst_1) (TRef.of (T := ⟨S8192, .f32⟩) main_call1_v7) (fun x v => Host.reduceAdd x v reducesTo_S8192x8192_S8192_d1 h_S_),
    TRef.unary (TRef.of (T := ⟨S8192, .f32⟩) main_call1_v7) (TRef.of (T := ⟨S8192x1, .f32⟩) main_call1_v8) (broadcastInDim S8192x1 ![0] bcast_S8192_S8192x1_0),
    TRef.unary (TRef.of (T := ⟨S8192x1, .f32⟩) main_call1_v8) (TRef.of (T := ⟨S8192x1, .f32⟩) main_call1_v9) Host.log,
    TRef.unary (TRef.of (T := ⟨S8192x1, .f32⟩) main_call1_v9) (TRef.of (T := ⟨S8192x8192, .f32⟩) main_call1_v10) (broadcastInDim S8192x8192 ![0, 1] bcast_S8192x1_S8192x8192_0_1),
    TRef.binary (TRef.of (T := ⟨S8192x8192, .f32⟩) main_call1_v5) (TRef.of (T := ⟨S8192x8192, .f32⟩) main_call1_v10) (TRef.of (T := ⟨S8192x8192, .f32⟩) main_v24) subf,
    unary main_v23 main_v25 (broadcastInDim S8192x1 ![0] bcast_S8192_S8192x1_0 : (⟨S8192, .i32⟩ : BufTy).Contents (Elt F) → (⟨S8192x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S8192x1, .i32⟩) main_call2_v0) (broadcastInDim S8192x1 ![] bcast_S_S8192x1),
    TRef.binary (TRef.of (T := ⟨S8192x1, .i32⟩) main_v25) (TRef.of (T := ⟨S8192x1, .i32⟩) main_call2_v0) (TRef.of (T := ⟨S8192x1, .i1⟩) main_call2_v1) (cmpi .slt),
    TRef.nullary (TRef.of (T := ⟨S_, .i32⟩) main_call2_c_0) (constantI S_ 32 8192#32),
    TRef.unary (TRef.of (T := ⟨S_, .i32⟩) main_call2_c_0) (TRef.of (T := ⟨S8192x1, .i32⟩) main_call2_v2) (broadcastInDim S8192x1 ![] bcast_S_S8192x1),
    TRef.binary (TRef.of (T := ⟨S8192x1, .i32⟩) main_v25) (TRef.of (T := ⟨S8192x1, .i32⟩) main_call2_v2) (TRef.of (T := ⟨S8192x1, .i32⟩) main_call2_v3) addi,
    TRef.ternary (TRef.of (T := ⟨S8192x1, .i1⟩) main_call2_v1) (TRef.of (T := ⟨S8192x1, .i32⟩) main_call2_v3) (TRef.of (T := ⟨S8192x1, .i32⟩) main_v25) (TRef.of (T := ⟨S8192x1, .i32⟩) main_call2_v4) select,
    TRef.reshape (TRef.of (T := ⟨S8192x1, .i32⟩) main_call2_v4) (TRef.of (T := ⟨S8192x1x1, .i32⟩) main_call2_v5) rfl shapeCasts_S8192x1_S8192x1x1,
    TRef.nullary (TRef.of (T := ⟨S1, .i32⟩) main_call2_c_1) (constantI S1 32 8191#32),
    TRef.nullary (TRef.of (T := ⟨S_, .i32⟩) main_call2_c_2) (constantI S_ 32 0#32),
    TRef.unary (TRef.of (T := ⟨S_, .i32⟩) main_call2_c_2) (TRef.of (T := ⟨S8192x1x1, .i32⟩) main_call2_v6) (broadcastInDim S8192x1x1 ![] bcast_S_S8192x1x1),
    TRef.binary (TRef.of (T := ⟨S8192x1x1, .i32⟩) main_call2_v5) (TRef.of (T := ⟨S8192x1x1, .i32⟩) main_call2_v6) (TRef.of (T := ⟨S8192x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S8192x1x1, .i32⟩) main_call2_v9) (broadcastInDim S8192x1x1 ![0, 1, 2] bcast_S1x1x1_S8192x1x1_0_1_2),
    TRef.binary (TRef.of (T := ⟨S8192x1x1, .i32⟩) main_call2_v5) (TRef.of (T := ⟨S8192x1x1, .i32⟩) main_call2_v9) (TRef.of (T := ⟨S8192x1x1, .i1⟩) main_call2_v10) (cmpi .sle),
    TRef.binary (TRef.of (T := ⟨S8192x1x1, .i1⟩) main_call2_v7) (TRef.of (T := ⟨S8192x1x1, .i1⟩) main_call2_v10) (TRef.of (T := ⟨S8192x1x1, .i1⟩) main_call2_v11) andi,
    TRef.nullary (TRef.of (T := ⟨S_, .i1⟩) main_call2_c_3) (constantI S_ 1 1#1),
    TRef.binary (TRef.of (T := ⟨S8192x1x1, .i1⟩) main_call2_v11) (TRef.of (T := ⟨S_, .i1⟩) main_call2_c_3) (TRef.of (T := ⟨S8192x1, .i1⟩) main_call2_v12) (fun x v => Host.reduce IntOp.andi x v reducesTo_S8192x1x1_S8192x1_d2 h_S_),
    TRef.binary (TRef.of (T := ⟨S8192x8192, .f32⟩) main_v24) (TRef.of (T := ⟨S8192x1x1, .i32⟩) main_call2_v5) (TRef.of (T := ⟨S8192x1, .f32⟩) main_call2_v13) (fun x i => Host.gather gather_S8192x8192_S8192x1x1_S8192x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S8192x1, .f32⟩) main_call2_v14) (broadcastInDim S8192x1 ![] bcast_S_S8192x1),
    TRef.ternary (TRef.of (T := ⟨S8192x1, .i1⟩) main_call2_v12) (TRef.of (T := ⟨S8192x1, .f32⟩) main_call2_v13) (TRef.of (T := ⟨S8192x1, .f32⟩) main_call2_v14) (TRef.of (T := ⟨S8192x1, .f32⟩) main_v26) select,
    nullary main_cst_3 (constant S_ .f32 0x00000000#32),
    binary main_v26 main_cst_3 main_v27 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F)),
    unary main_v27 main_v28 (Host.negf : (⟨S_, .f32⟩ : BufTy).Contents (Elt F) → (⟨S_, .f32⟩ : BufTy).Contents (Elt F)),
    nullary main_cst_4 (constant S_ .f32 0x46000000#32),
    binary main_v28 main_cst_4 main_v29 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., binary_bufs_sub .., nullary_bufs_sub .., nullary_bufs_sub .., unary_bufs_sub .., binary_bufs_sub .., nullary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., unary_bufs_sub .., nullary_bufs_sub .., binary_bufs_sub ..⟩

/-- The operations up to the two halves of the label vector, -/
abbrev ops₁ : List (HloOp τ sig (Elt F)) :=
  [ binary main_arg0 main_arg1 main_v0 ((fun a b => concatenate S8192x128 0 [⟨S4096x128, a⟩, ⟨S4096x128, b⟩] concatenates_S4096x128_S4096x128_S8192x128_d0) : (⟨S4096x128, .f32⟩ : BufTy).Contents (Elt F) → (⟨S4096x128, .f32⟩ : BufTy).Contents (Elt F) → (⟨S8192x128, .f32⟩ : BufTy).Contents (Elt F)),
    TRef.binary (TRef.of (T := ⟨S8192x128, .f32⟩) main_v0) (TRef.of (T := ⟨S8192x128, .f32⟩) main_v0) (TRef.of (T := ⟨S8192x128, .f32⟩) main_call0_v0) mulf,
    TRef.nullary (TRef.of (T := ⟨S_, .f32⟩) main_call0_cst) (constant S_ .f32 0x00000000#32),
    TRef.binary (TRef.of (T := ⟨S8192x128, .f32⟩) main_call0_v0) (TRef.of (T := ⟨S_, .f32⟩) main_call0_cst) (TRef.of (T := ⟨S8192, .f32⟩) main_call0_v1) (fun x v => Host.reduceAdd x v reducesTo_S8192x128_S8192_d1 h_S_),
    TRef.unary (TRef.of (T := ⟨S8192, .f32⟩) main_call0_v1) (TRef.of (T := ⟨S8192x1, .f32⟩) main_call0_v2) (broadcastInDim S8192x1 ![0] bcast_S8192_S8192x1_0),
    TRef.unary (TRef.of (T := ⟨S8192x1, .f32⟩) main_call0_v2) (TRef.of (T := ⟨S8192x1, .f32⟩) main_v1) Host.sqrt,
    nullary main_cst (constant S_ .f32 0x322BCC77#32),
    unary main_cst main_v2 (broadcastInDim S8192x1 ![] bcast_S_S8192x1 : (⟨S_, .f32⟩ : BufTy).Contents (Elt F) → (⟨S8192x1, .f32⟩ : BufTy).Contents (Elt F)),
    binary main_v1 main_v2 main_v3 (maximumf : (⟨S8192x1, .f32⟩ : BufTy).Contents (Elt F) → (⟨S8192x1, .f32⟩ : BufTy).Contents (Elt F) → (⟨S8192x1, .f32⟩ : BufTy).Contents (Elt F)),
    unary main_v3 main_v4 (broadcastInDim S8192x128 ![0, 1] bcast_S8192x1_S8192x128_0_1 : (⟨S8192x1, .f32⟩ : BufTy).Contents (Elt F) → (⟨S8192x128, .f32⟩ : BufTy).Contents (Elt F)),
    binary main_v0 main_v4 main_v5 (Host.divf : (⟨S8192x128, .f32⟩ : BufTy).Contents (Elt F) → (⟨S8192x128, .f32⟩ : BufTy).Contents (Elt F) → (⟨S8192x128, .f32⟩ : BufTy).Contents (Elt F)),
    unary main_v5 main_v6 ((transpose S128x8192 [1, 0] · transposes_S8192x128_S128x8192_1_0) : (⟨S8192x128, .f32⟩ : BufTy).Contents (Elt F) → (⟨S128x8192, .f32⟩ : BufTy).Contents (Elt F)),
    binary main_v5 main_v6 main_v7 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    nullary main_cst_0 (constant S_ .f32 0x3F000000#32),
    unary main_cst_0 main_v8 (broadcastInDim S8192x8192 ![] bcast_S_S8192x8192 : (⟨S_, .f32⟩ : BufTy).Contents (Elt F) → (⟨S8192x8192, .f32⟩ : BufTy).Contents (Elt F)),
    binary main_v7 main_v8 main_v9 (Host.divf : (⟨S8192x8192, .f32⟩ : BufTy).Contents (Elt F) → (⟨S8192x8192, .f32⟩ : BufTy).Contents (Elt F) → (⟨S8192x8192, .f32⟩ : BufTy).Contents (Elt F)),
    nullary main_v10 (iotaInDim S8192x8192 32 0),
    nullary main_v11 (iotaInDim S8192x8192 32 1),
    nullary main_c (constantI S_ 32 0#32),
    unary main_c main_v12 (broadcastInDim S8192x8192 ![] bcast_S_S8192x8192 : (⟨S_, .i32⟩ : BufTy).Contents (Elt F) → (⟨S8192x8192, .i32⟩ : BufTy).Contents (Elt F)),
    binary main_v10 main_v12 main_v13 (addi : (⟨S8192x8192, .i32⟩ : BufTy).Contents (Elt F) → (⟨S8192x8192, .i32⟩ : BufTy).Contents (Elt F) → (⟨S8192x8192, .i32⟩ : BufTy).Contents (Elt F)),
    binary main_v13 main_v11 main_v14 (cmpi .eq : (⟨S8192x8192, .i32⟩ : BufTy).Contents (Elt F) → (⟨S8192x8192, .i32⟩ : BufTy).Contents (Elt F) → (⟨S8192x8192, .i1⟩ : BufTy).Contents (Elt F)),
    unary main_v14 main_v15 (uitofp .f32 : (⟨S8192x8192, .i1⟩ : BufTy).Contents (Elt F) → (⟨S8192x8192, .f32⟩ : BufTy).Contents (Elt F)),
    nullary main_cst_1 (constant S_ .f32 0x4E6E6B28#32),
    unary main_cst_1 main_v16 (broadcastInDim S8192x8192 ![] bcast_S_S8192x8192 : (⟨S_, .f32⟩ : BufTy).Contents (Elt F) → (⟨S8192x8192, .f32⟩ : BufTy).Contents (Elt F)),
    binary main_v16 main_v15 main_v17 (mulf : (⟨S8192x8192, .f32⟩ : BufTy).Contents (Elt F) → (⟨S8192x8192, .f32⟩ : BufTy).Contents (Elt F) → (⟨S8192x8192, .f32⟩ : BufTy).Contents (Elt F)),
    binary main_v9 main_v17 main_v18 (subf : (⟨S8192x8192, .f32⟩ : BufTy).Contents (Elt F) → (⟨S8192x8192, .f32⟩ : BufTy).Contents (Elt F) → (⟨S8192x8192, .f32⟩ : BufTy).Contents (Elt F)),
    nullary main_v19 (iotaInDim S4096 32 0),
    nullary main_c_2 (constantI S_ 32 4096#32),
    unary main_c_2 main_v20 (broadcastInDim S4096 ![] bcast_S_S4096 : (⟨S_, .i32⟩ : BufTy).Contents (Elt F) → (⟨S4096, .i32⟩ : BufTy).Contents (Elt F)),
    binary main_v19 main_v20 main_v21 (addi : (⟨S4096, .i32⟩ : BufTy).Contents (Elt F) → (⟨S4096, .i32⟩ : BufTy).Contents (Elt F) → (⟨S4096, .i32⟩ : BufTy).Contents (Elt F)),
    nullary main_v22 (iotaInDim S4096 32 0) ]

/-- and from the label vector on. -/
abbrev ops₂ : List (HloOp τ sig (Elt F)) :=
  [ binary main_v21 main_v22 main_v23 ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)),
    TRef.nullary (TRef.of (T := ⟨S_, .f32⟩) main_call1_cst) (constant S_ .f32 0xFF800000#32),
    TRef.binary (TRef.of (T := ⟨S8192x8192, .f32⟩) main_v18) (TRef.of (T := ⟨S_, .f32⟩) main_call1_cst) (TRef.of (T := ⟨S8192, .f32⟩) main_call1_v0) (fun x v => Host.reduce FloatOps.maximumf x v reducesTo_S8192x8192_S8192_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S8192, .f32⟩) main_call1_v1) (broadcastInDim S8192 ![] bcast_S_S8192),
    TRef.binary (TRef.of (T := ⟨S8192, .f32⟩) main_call1_v1) (TRef.of (T := ⟨S8192, .f32⟩) main_call1_v0) (TRef.of (T := ⟨S8192, .f32⟩) main_call1_v2) maximumf,
    TRef.unary (TRef.of (T := ⟨S8192, .f32⟩) main_call1_v2) (TRef.of (T := ⟨S8192x1, .f32⟩) main_call1_v3) (broadcastInDim S8192x1 ![0] bcast_S8192_S8192x1_0),
    TRef.unary (TRef.of (T := ⟨S8192x1, .f32⟩) main_call1_v3) (TRef.of (T := ⟨S8192x8192, .f32⟩) main_call1_v4) (broadcastInDim S8192x8192 ![0, 1] bcast_S8192x1_S8192x8192_0_1),
    TRef.binary (TRef.of (T := ⟨S8192x8192, .f32⟩) main_v18) (TRef.of (T := ⟨S8192x8192, .f32⟩) main_call1_v4) (TRef.of (T := ⟨S8192x8192, .f32⟩) main_call1_v5) subf,
    TRef.unary (TRef.of (T := ⟨S8192x8192, .f32⟩) main_call1_v5) (TRef.of (T := ⟨S8192x8192, .f32⟩) main_call1_v6) Host.exp,
    TRef.nullary (TRef.of (T := ⟨S_, .f32⟩) main_call1_cst_1) (constant S_ .f32 0x00000000#32),
    TRef.binary (TRef.of (T := ⟨S8192x8192, .f32⟩) main_call1_v6) (TRef.of (T := ⟨S_, .f32⟩) main_call1_cst_1) (TRef.of (T := ⟨S8192, .f32⟩) main_call1_v7) (fun x v => Host.reduceAdd x v reducesTo_S8192x8192_S8192_d1 h_S_),
    TRef.unary (TRef.of (T := ⟨S8192, .f32⟩) main_call1_v7) (TRef.of (T := ⟨S8192x1, .f32⟩) main_call1_v8) (broadcastInDim S8192x1 ![0] bcast_S8192_S8192x1_0),
    TRef.unary (TRef.of (T := ⟨S8192x1, .f32⟩) main_call1_v8) (TRef.of (T := ⟨S8192x1, .f32⟩) main_call1_v9) Host.log,
    TRef.unary (TRef.of (T := ⟨S8192x1, .f32⟩) main_call1_v9) (TRef.of (T := ⟨S8192x8192, .f32⟩) main_call1_v10) (broadcastInDim S8192x8192 ![0, 1] bcast_S8192x1_S8192x8192_0_1),
    TRef.binary (TRef.of (T := ⟨S8192x8192, .f32⟩) main_call1_v5) (TRef.of (T := ⟨S8192x8192, .f32⟩) main_call1_v10) (TRef.of (T := ⟨S8192x8192, .f32⟩) main_v24) subf,
    unary main_v23 main_v25 (broadcastInDim S8192x1 ![0] bcast_S8192_S8192x1_0 : (⟨S8192, .i32⟩ : BufTy).Contents (Elt F) → (⟨S8192x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S8192x1, .i32⟩) main_call2_v0) (broadcastInDim S8192x1 ![] bcast_S_S8192x1),
    TRef.binary (TRef.of (T := ⟨S8192x1, .i32⟩) main_v25) (TRef.of (T := ⟨S8192x1, .i32⟩) main_call2_v0) (TRef.of (T := ⟨S8192x1, .i1⟩) main_call2_v1) (cmpi .slt),
    TRef.nullary (TRef.of (T := ⟨S_, .i32⟩) main_call2_c_0) (constantI S_ 32 8192#32),
    TRef.unary (TRef.of (T := ⟨S_, .i32⟩) main_call2_c_0) (TRef.of (T := ⟨S8192x1, .i32⟩) main_call2_v2) (broadcastInDim S8192x1 ![] bcast_S_S8192x1),
    TRef.binary (TRef.of (T := ⟨S8192x1, .i32⟩) main_v25) (TRef.of (T := ⟨S8192x1, .i32⟩) main_call2_v2) (TRef.of (T := ⟨S8192x1, .i32⟩) main_call2_v3) addi,
    TRef.ternary (TRef.of (T := ⟨S8192x1, .i1⟩) main_call2_v1) (TRef.of (T := ⟨S8192x1, .i32⟩) main_call2_v3) (TRef.of (T := ⟨S8192x1, .i32⟩) main_v25) (TRef.of (T := ⟨S8192x1, .i32⟩) main_call2_v4) select,
    TRef.reshape (TRef.of (T := ⟨S8192x1, .i32⟩) main_call2_v4) (TRef.of (T := ⟨S8192x1x1, .i32⟩) main_call2_v5) rfl shapeCasts_S8192x1_S8192x1x1,
    TRef.nullary (TRef.of (T := ⟨S1, .i32⟩) main_call2_c_1) (constantI S1 32 8191#32),
    TRef.nullary (TRef.of (T := ⟨S_, .i32⟩) main_call2_c_2) (constantI S_ 32 0#32),
    TRef.unary (TRef.of (T := ⟨S_, .i32⟩) main_call2_c_2) (TRef.of (T := ⟨S8192x1x1, .i32⟩) main_call2_v6) (broadcastInDim S8192x1x1 ![] bcast_S_S8192x1x1),
    TRef.binary (TRef.of (T := ⟨S8192x1x1, .i32⟩) main_call2_v5) (TRef.of (T := ⟨S8192x1x1, .i32⟩) main_call2_v6) (TRef.of (T := ⟨S8192x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S8192x1x1, .i32⟩) main_call2_v9) (broadcastInDim S8192x1x1 ![0, 1, 2] bcast_S1x1x1_S8192x1x1_0_1_2),
    TRef.binary (TRef.of (T := ⟨S8192x1x1, .i32⟩) main_call2_v5) (TRef.of (T := ⟨S8192x1x1, .i32⟩) main_call2_v9) (TRef.of (T := ⟨S8192x1x1, .i1⟩) main_call2_v10) (cmpi .sle),
    TRef.binary (TRef.of (T := ⟨S8192x1x1, .i1⟩) main_call2_v7) (TRef.of (T := ⟨S8192x1x1, .i1⟩) main_call2_v10) (TRef.of (T := ⟨S8192x1x1, .i1⟩) main_call2_v11) andi,
    TRef.nullary (TRef.of (T := ⟨S_, .i1⟩) main_call2_c_3) (constantI S_ 1 1#1),
    TRef.binary (TRef.of (T := ⟨S8192x1x1, .i1⟩) main_call2_v11) (TRef.of (T := ⟨S_, .i1⟩) main_call2_c_3) (TRef.of (T := ⟨S8192x1, .i1⟩) main_call2_v12) (fun x v => Host.reduce IntOp.andi x v reducesTo_S8192x1x1_S8192x1_d2 h_S_),
    TRef.binary (TRef.of (T := ⟨S8192x8192, .f32⟩) main_v24) (TRef.of (T := ⟨S8192x1x1, .i32⟩) main_call2_v5) (TRef.of (T := ⟨S8192x1, .f32⟩) main_call2_v13) (fun x i => Host.gather gather_S8192x8192_S8192x1x1_S8192x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S8192x1, .f32⟩) main_call2_v14) (broadcastInDim S8192x1 ![] bcast_S_S8192x1),
    TRef.ternary (TRef.of (T := ⟨S8192x1, .i1⟩) main_call2_v12) (TRef.of (T := ⟨S8192x1, .f32⟩) main_call2_v13) (TRef.of (T := ⟨S8192x1, .f32⟩) main_call2_v14) (TRef.of (T := ⟨S8192x1, .f32⟩) main_v26) select,
    nullary main_cst_3 (constant S_ .f32 0x00000000#32),
    binary main_v26 main_cst_3 main_v27 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F)),
    unary main_v27 main_v28 (Host.negf : (⟨S_, .f32⟩ : BufTy).Contents (Elt F) → (⟨S_, .f32⟩ : BufTy).Contents (Elt F)),
    nullary main_cst_4 (constant S_ .f32 0x46000000#32),
    binary main_v28 main_cst_4 main_v29 (Host.divf : (⟨S_, .f32⟩ : BufTy).Contents (Elt F) → (⟨S_, .f32⟩ : BufTy).Contents (Elt F) → (⟨S_, .f32⟩ : BufTy).Contents (Elt F)) ]

set_option maxRecDepth 8192 in
theorem ops_split : (ops : List (HloOp τ sig (Elt F))) = ops₁ ++ ops₂ := rfl

variable (m : (ℓ : Loc nD τ sig) → Buf (Elt F) ℓ) (d : Dev nD)

set_option maxRecDepth 8192 in
set_option maxHeartbeats 8000000 in
/-- The first piece leaves the masked similarity matrix at its stage, -/
theorem first_v18 : after ops₁ (launchContents m d) (Proc.devRef .tc main_v18)
    = Cert.ReferenceIdeal.Read.val_main_v18 (F := F) (m ((d.tc : Thread nD τ).loc main_arg0)) (m ((d.tc : Thread nD τ).loc main_arg1)) := by
  after_results_simp
  rfl

set_option maxRecDepth 8192 in
set_option maxHeartbeats 8000000 in
/-- and the two halves of the label vector at theirs. -/
theorem first_v21 : after ops₁ (launchContents m d) (Proc.devRef .tc main_v21) = Cert.ReferenceIdeal.Read.val_main_v21 (F := F) := by
  after_results_simp
  rfl

set_option maxRecDepth 8192 in
set_option maxHeartbeats 8000000 in
theorem first_v22 : after ops₁ (launchContents m d) (Proc.devRef .tc main_v22) = Cert.ReferenceIdeal.Read.val_main_v22 (F := F) := by
  after_results_simp
  rfl

/-- The second piece in three parts: the label vector and the log-probabilities, -/
abbrev opsA : List (HloOp τ sig (Elt F)) :=
  [ binary main_v21 main_v22 main_v23 ((fun a b => concatenate S8192 0 [⟨S4096, a⟩, ⟨S4096, b⟩] concatenates_S4096_S4096_S8192_d0) : (⟨S4096, .i32⟩ : BufTy).Contents (Elt F) → (⟨S4096, .i32⟩ : BufTy).Contents (Elt F) → (⟨S8192, .i32⟩ : BufTy).Contents (Elt F)),
    TRef.nullary (TRef.of (T := ⟨S_, .f32⟩) main_call1_cst) (constant S_ .f32 0xFF800000#32),
    TRef.binary (TRef.of (T := ⟨S8192x8192, .f32⟩) main_v18) (TRef.of (T := ⟨S_, .f32⟩) main_call1_cst) (TRef.of (T := ⟨S8192, .f32⟩) main_call1_v0) (fun x v => Host.reduce FloatOps.maximumf x v reducesTo_S8192x8192_S8192_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S8192, .f32⟩) main_call1_v1) (broadcastInDim S8192 ![] bcast_S_S8192),
    TRef.binary (TRef.of (T := ⟨S8192, .f32⟩) main_call1_v1) (TRef.of (T := ⟨S8192, .f32⟩) main_call1_v0) (TRef.of (T := ⟨S8192, .f32⟩) main_call1_v2) maximumf,
    TRef.unary (TRef.of (T := ⟨S8192, .f32⟩) main_call1_v2) (TRef.of (T := ⟨S8192x1, .f32⟩) main_call1_v3) (broadcastInDim S8192x1 ![0] bcast_S8192_S8192x1_0),
    TRef.unary (TRef.of (T := ⟨S8192x1, .f32⟩) main_call1_v3) (TRef.of (T := ⟨S8192x8192, .f32⟩) main_call1_v4) (broadcastInDim S8192x8192 ![0, 1] bcast_S8192x1_S8192x8192_0_1),
    TRef.binary (TRef.of (T := ⟨S8192x8192, .f32⟩) main_v18) (TRef.of (T := ⟨S8192x8192, .f32⟩) main_call1_v4) (TRef.of (T := ⟨S8192x8192, .f32⟩) main_call1_v5) subf,
    TRef.unary (TRef.of (T := ⟨S8192x8192, .f32⟩) main_call1_v5) (TRef.of (T := ⟨S8192x8192, .f32⟩) main_call1_v6) Host.exp,
    TRef.nullary (TRef.of (T := ⟨S_, .f32⟩) main_call1_cst_1) (constant S_ .f32 0x00000000#32),
    TRef.binary (TRef.of (T := ⟨S8192x8192, .f32⟩) main_call1_v6) (TRef.of (T := ⟨S_, .f32⟩) main_call1_cst_1) (TRef.of (T := ⟨S8192, .f32⟩) main_call1_v7) (fun x v => Host.reduceAdd x v reducesTo_S8192x8192_S8192_d1 h_S_),
    TRef.unary (TRef.of (T := ⟨S8192, .f32⟩) main_call1_v7) (TRef.of (T := ⟨S8192x1, .f32⟩) main_call1_v8) (broadcastInDim S8192x1 ![0] bcast_S8192_S8192x1_0),
    TRef.unary (TRef.of (T := ⟨S8192x1, .f32⟩) main_call1_v8) (TRef.of (T := ⟨S8192x1, .f32⟩) main_call1_v9) Host.log,
    TRef.unary (TRef.of (T := ⟨S8192x1, .f32⟩) main_call1_v9) (TRef.of (T := ⟨S8192x8192, .f32⟩) main_call1_v10) (broadcastInDim S8192x8192 ![0, 1] bcast_S8192x1_S8192x8192_0_1),
    TRef.binary (TRef.of (T := ⟨S8192x8192, .f32⟩) main_call1_v5) (TRef.of (T := ⟨S8192x8192, .f32⟩) main_call1_v10) (TRef.of (T := ⟨S8192x8192, .f32⟩) main_v24) subf ]
/-- the partners' log-probabilities, gathered, -/
abbrev opsB : List (HloOp τ sig (Elt F)) :=
  [ unary main_v23 main_v25 (broadcastInDim S8192x1 ![0] bcast_S8192_S8192x1_0 : (⟨S8192, .i32⟩ : BufTy).Contents (Elt F) → (⟨S8192x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S8192x1, .i32⟩) main_call2_v0) (broadcastInDim S8192x1 ![] bcast_S_S8192x1),
    TRef.binary (TRef.of (T := ⟨S8192x1, .i32⟩) main_v25) (TRef.of (T := ⟨S8192x1, .i32⟩) main_call2_v0) (TRef.of (T := ⟨S8192x1, .i1⟩) main_call2_v1) (cmpi .slt),
    TRef.nullary (TRef.of (T := ⟨S_, .i32⟩) main_call2_c_0) (constantI S_ 32 8192#32),
    TRef.unary (TRef.of (T := ⟨S_, .i32⟩) main_call2_c_0) (TRef.of (T := ⟨S8192x1, .i32⟩) main_call2_v2) (broadcastInDim S8192x1 ![] bcast_S_S8192x1),
    TRef.binary (TRef.of (T := ⟨S8192x1, .i32⟩) main_v25) (TRef.of (T := ⟨S8192x1, .i32⟩) main_call2_v2) (TRef.of (T := ⟨S8192x1, .i32⟩) main_call2_v3) addi,
    TRef.ternary (TRef.of (T := ⟨S8192x1, .i1⟩) main_call2_v1) (TRef.of (T := ⟨S8192x1, .i32⟩) main_call2_v3) (TRef.of (T := ⟨S8192x1, .i32⟩) main_v25) (TRef.of (T := ⟨S8192x1, .i32⟩) main_call2_v4) select,
    TRef.reshape (TRef.of (T := ⟨S8192x1, .i32⟩) main_call2_v4) (TRef.of (T := ⟨S8192x1x1, .i32⟩) main_call2_v5) rfl shapeCasts_S8192x1_S8192x1x1,
    TRef.nullary (TRef.of (T := ⟨S1, .i32⟩) main_call2_c_1) (constantI S1 32 8191#32),
    TRef.nullary (TRef.of (T := ⟨S_, .i32⟩) main_call2_c_2) (constantI S_ 32 0#32),
    TRef.unary (TRef.of (T := ⟨S_, .i32⟩) main_call2_c_2) (TRef.of (T := ⟨S8192x1x1, .i32⟩) main_call2_v6) (broadcastInDim S8192x1x1 ![] bcast_S_S8192x1x1),
    TRef.binary (TRef.of (T := ⟨S8192x1x1, .i32⟩) main_call2_v5) (TRef.of (T := ⟨S8192x1x1, .i32⟩) main_call2_v6) (TRef.of (T := ⟨S8192x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S8192x1x1, .i32⟩) main_call2_v9) (broadcastInDim S8192x1x1 ![0, 1, 2] bcast_S1x1x1_S8192x1x1_0_1_2),
    TRef.binary (TRef.of (T := ⟨S8192x1x1, .i32⟩) main_call2_v5) (TRef.of (T := ⟨S8192x1x1, .i32⟩) main_call2_v9) (TRef.of (T := ⟨S8192x1x1, .i1⟩) main_call2_v10) (cmpi .sle),
    TRef.binary (TRef.of (T := ⟨S8192x1x1, .i1⟩) main_call2_v7) (TRef.of (T := ⟨S8192x1x1, .i1⟩) main_call2_v10) (TRef.of (T := ⟨S8192x1x1, .i1⟩) main_call2_v11) andi,
    TRef.nullary (TRef.of (T := ⟨S_, .i1⟩) main_call2_c_3) (constantI S_ 1 1#1),
    TRef.binary (TRef.of (T := ⟨S8192x1x1, .i1⟩) main_call2_v11) (TRef.of (T := ⟨S_, .i1⟩) main_call2_c_3) (TRef.of (T := ⟨S8192x1, .i1⟩) main_call2_v12) (fun x v => Host.reduce IntOp.andi x v reducesTo_S8192x1x1_S8192x1_d2 h_S_),
    TRef.binary (TRef.of (T := ⟨S8192x8192, .f32⟩) main_v24) (TRef.of (T := ⟨S8192x1x1, .i32⟩) main_call2_v5) (TRef.of (T := ⟨S8192x1, .f32⟩) main_call2_v13) (fun x i => Host.gather gather_S8192x8192_S8192x1x1_S8192x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S8192x1, .f32⟩) main_call2_v14) (broadcastInDim S8192x1 ![] bcast_S_S8192x1),
    TRef.ternary (TRef.of (T := ⟨S8192x1, .i1⟩) main_call2_v12) (TRef.of (T := ⟨S8192x1, .f32⟩) main_call2_v13) (TRef.of (T := ⟨S8192x1, .f32⟩) main_call2_v14) (TRef.of (T := ⟨S8192x1, .f32⟩) main_v26) select ]
/-- and their mean, negated. -/
abbrev opsC : List (HloOp τ sig (Elt F)) :=
  [ nullary main_cst_3 (constant S_ .f32 0x00000000#32),
    binary main_v26 main_cst_3 main_v27 ((fun x v => Host.reduceAdd x v reducesTo_S8192x1_S_d0_1 h_S_) : (⟨S8192x1, .f32⟩ : BufTy).Contents (Elt F) → (⟨S_, .f32⟩ : BufTy).Contents (Elt F) → (⟨S_, .f32⟩ : BufTy).Contents (Elt F)),
    unary main_v27 main_v28 (Host.negf : (⟨S_, .f32⟩ : BufTy).Contents (Elt F) → (⟨S_, .f32⟩ : BufTy).Contents (Elt F)),
    nullary main_cst_4 (constant S_ .f32 0x46000000#32),
    binary main_v28 main_cst_4 main_v29 (Host.divf : (⟨S_, .f32⟩ : BufTy).Contents (Elt F) → (⟨S_, .f32⟩ : BufTy).Contents (Elt F) → (⟨S_, .f32⟩ : BufTy).Contents (Elt F)) ]

set_option maxRecDepth 8192 in
theorem ops₂_split : (ops₂ : List (HloOp τ sig (Elt F))) = opsA ++ (opsB ++ opsC) := rfl

section Parts

variable (x0 x1 : (⟨S4096x128, .f32⟩ : BufTy).Contents (Elt F)) (W : Valuation τ sig (Elt F))

set_option maxRecDepth 8192 in
set_option maxHeartbeats 8000000 in
theorem partA_v24 (e18 : W (Proc.devRef .tc main_v18) = Cert.ReferenceIdeal.Read.val_main_v18 (F := F) x0 x1) :
    after opsA W (Proc.devRef .tc main_v24) = Cert.ReferenceIdeal.Read.val_main_v24 (F := F) x0 x1 := by
  after_results_simp
  simp only [cast_eq, e18]
  rfl

set_option maxRecDepth 8192 in
set_option maxHeartbeats 8000000 in
theorem partA_v23 (e21 : W (Proc.devRef .tc main_v21) = Cert.ReferenceIdeal.Read.val_main_v21 (F := F))
    (e22 : W (Proc.devRef .tc main_v22) = Cert.ReferenceIdeal.Read.val_main_v22 (F := F)) :
    after opsA W (Proc.devRef .tc main_v23) = Cert.ReferenceIdeal.Read.val_main_v23 (F := F) := by
  after_results_simp
  rw [e21, e22]
  rfl

set_option maxRecDepth 8192 in
set_option maxHeartbeats 8000000 in
theorem partB_v26 (e24 : W (Proc.devRef .tc main_v24) = Cert.ReferenceIdeal.Read.val_main_v24 (F := F) x0 x1)
    (e23 : W (Proc.devRef .tc main_v23) = Cert.ReferenceIdeal.Read.val_main_v23 (F := F)) :
    after opsB W (Proc.devRef .tc main_v26) = Cert.ReferenceIdeal.Read.val_main_v26 (F := F) x0 x1 := by
  after_results_simp
  simp only [cast_eq, e24, e23]
  rfl

set_option maxRecDepth 8192 in
set_option maxHeartbeats 8000000 in
theorem partC_v29 (e26 : W (Proc.devRef .tc main_v26) = Cert.ReferenceIdeal.Read.val_main_v26 (F := F) x0 x1) :
    after opsC W (Proc.devRef .tc main_v29) = Cert.ReferenceIdeal.Read.val_main_v29 (F := F) x0 x1 := by
  after_results_simp
  simp only [e26]
  rfl

end Parts

/-- The second piece, from contents with those three buffers at their stages, leaves the result at its last stage. -/
theorem second (x0 x1 : (⟨S4096x128, .f32⟩ : BufTy).Contents (Elt F)) (W : Valuation τ sig (Elt F))
    (e18 : W (Proc.devRef .tc main_v18) = Cert.ReferenceIdeal.Read.val_main_v18 (F := F) x0 x1)
    (e21 : W (Proc.devRef .tc main_v21) = Cert.ReferenceIdeal.Read.val_main_v21 (F := F))
    (e22 : W (Proc.devRef .tc main_v22) = Cert.ReferenceIdeal.Read.val_main_v22 (F := F)) :
    after ops₂ W (Proc.devRef .tc main_v29) = Cert.ReferenceIdeal.Read.val_main_v29 (F := F) x0 x1 := by
  rw [ops₂_split, after_append, after_append]
  exact partC_v29 x0 x1 _ (partB_v26 x0 x1 _ (partA_v24 x0 x1 W e18) (partA_v23 W e21 e22))

/-- The fold over all 76 operations leaves the result at its last stage of the arguments. -/
theorem stage_eq : after ops (launchContents m d) (Proc.devRef .tc main_v29)
    = Cert.ReferenceIdeal.Read.val_main_v29 (F := F) (m ((d.tc : Thread nD τ).loc main_arg0)) (m ((d.tc : Thread nD τ).loc main_arg1)) := by
  rw [ops_split, after_append]
  exact second _ _ _ (first_v18 m d) (first_v21 m d) (first_v22 m d)

set_option maxRecDepth 8192 in
set_option maxHeartbeats 30400000 in
/-- On every device, for any float values, from any memory with zero counters: every weakly fair execution of
    @main terminates with the result at its last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = Cert.ReferenceIdeal.Read.val_main_v29 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v29).trans (stage_eq m c),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.Value

end
-- ==== Proof.LibRowMax.lean ====
import Idealize.ShloMosaic.Lib.ValueIdx
import Idealize.ShloMosaic.PureOps.Ideal.Laws

/-!
  A ROW MAXIMUM AS A FOLD.

  The host's reduction with a maximum body over the LAST axis of a rank-2 array `x : [N, J]` is, at the ideal
  values and at row `r`, the fold of `max` from the initial value over the row's entries `x (r, c')`, `c' < J`.
  The maximum is commutative and associative, so the order in which the host visits the row does not matter.
  The f32 word `0xFF800000` reads as `-∞`, the least extended real, so a fold of `max` from it is the maximum of
  the entries alone; the f32 word `0x00000000` reads as `0`.
-/

open Idealize.ShloMosaic Idealize.ShloMosaic.ValueIdx

namespace RowMax

variable {N J : Nat}

/-- Dropping the last axis of `[N, J]` leaves `[N]`, a shape with an axis: the host's shape fact gives the
    vector reduction's. -/
theorem reduces_of_reducesTo (h' : (⟨2, ![N, J]⟩ : Shape).ReducesTo [1] (⟨1, ![N]⟩ : Shape)) :
    (⟨2, ![N, J]⟩ : Shape).Reduces [1] (⟨1, ![N]⟩ : Shape) :=
  ⟨h'.1, Nat.one_pos, h'.2⟩

/-- Row `r` with column `k` put back is `(r, k)`. -/
theorem lift_ix2 (h : (⟨2, ![N, J]⟩ : Shape).Reduces [1] (⟨1, ![N]⟩ : Shape)) (r : Fin N)
    (k : Fin ((⟨2, ![N, J]⟩ : Shape).size 1)) :
    h.lift (ix1 r) k = ix2 r (⟨k.val, k.isLt⟩ : Fin J) := by
  funext c; apply Fin.ext
  fin_cases c <;> rfl

/-- THE ROW MAXIMUM AT A ROW: the fold of `max` from the initial value's element over the row's entries. -/
theorem hostReduce_maximumf_rows {φ : FTy} {u : Shape} (x : FVec Ideal ⟨2, ![N, J]⟩ φ) (init : u.Idx → Ideal φ)
    (h' : (⟨2, ![N, J]⟩ : Shape).ReducesTo [1] (⟨1, ![N]⟩ : Shape)) (hu : 0 < u.numel) (r : Fin N) :
    Host.reduce FloatOps.maximumf x init h' hu (ix1 r)
      = (Finset.univ : Finset (Fin J)).fold max (init (Shape.Idx.first hu)) (fun c' => x (ix2 r c')) := by
  have h := reduces_of_reducesTo h'
  rw [Host.reduce_eq_fold_single FloatOps.maximumf x init h' h hu]
  have hf : (x ∘ h.lift (ix1 r)) = fun c' : Fin J => x (ix2 r c') :=
    funext fun k => congrArg x (lift_ix2 h r k)
  exact congrArg (fun f => Finset.fold max (init (Shape.Idx.first hu)) f (Finset.univ : Finset (Fin J))) hf

/-- The same from a constant initial value `v`. -/
theorem hostReduce_maximumf_rows_const {φ : FTy} {u : Shape} (x : FVec Ideal ⟨2, ![N, J]⟩ φ) (v : Ideal φ)
    (h' : (⟨2, ![N, J]⟩ : Shape).ReducesTo [1] (⟨1, ![N]⟩ : Shape)) (hu : 0 < u.numel) (r : Fin N) :
    Host.reduce FloatOps.maximumf x (fun _ : u.Idx => v) h' hu (ix1 r)
      = (Finset.univ : Finset (Fin J)).fold max v (fun c' => x (ix2 r c')) :=
  hostReduce_maximumf_rows x (fun _ : u.Idx => v) h' hu r

/-- The same from a constant array holding the word `b`: the fold starts from what `b` reads as. -/
theorem hostReduce_maximumf_rows_constant {φ : FTy} {u : Shape} (x : FVec Ideal ⟨2, ![N, J]⟩ φ) (b : BitVec φ.bits)
    (h' : (⟨2, ![N, J]⟩ : Shape).ReducesTo [1] (⟨1, ![N]⟩ : Shape)) (hu : 0 < u.numel) (r : Fin N) :
    Host.reduce FloatOps.maximumf x (constant (F := Ideal) u φ b) h' hu (ix1 r)
      = (Finset.univ : Finset (Fin J)).fold max (Ideal.ofBits φ b) (fun c' => x (ix2 r c')) :=
  hostReduce_maximumf_rows x (constant (F := Ideal) u φ b) h' hu r

/-! ## Two f32 words -/

/-- The f32 word `0xFF800000` is `-∞`, the least extended real. -/
theorem ofBits_ninf_f32 : Ideal.ofBits .f32 0xFF800000#32 = ⊥ := by
  simp [Ideal.ofBits, Ideal.ieee]

/-- So the maximum of it with anything is that thing. -/
theorem max_ninf_left (y : EReal) : max (Ideal.ofBits .f32 0xFF800000#32) y = y := by
  rw [ofBits_ninf_f32]; exact max_bot_left y

theorem max_ninf_right (y : EReal) : max y (Ideal.ofBits .f32 0xFF800000#32) = y := by
  rw [ofBits_ninf_f32]; exact max_bot_right y

/-- The f32 word `0x00000000` is `0`. -/
theorem ofBits_zero_f32 : Ideal.ofBits .f32 0x00000000#32 = 0 := Ideal.ofBits_zero_f32

end RowMax
-- ==== Proof.RefLoss.lean ====
/-
  The reference program's result is the real loss.

  Given that the normalized matrix is the coercion of a real matrix `u`, every later value of the program is the
  coercion of a real number: the similarity is the inner product of two rows over one half, the diagonal mask is
  the indicator of `r = c` times the masking constant, the row maximum is the largest entry of the row (a fold of
  the maximum from minus infinity over a nonempty row), the row sum is a sum of exponentials (positive, so its
  logarithm is the real logarithm), and the log-probability is the entry less the maximum less that logarithm.
  The label of row `r` is the word of its partner, a number below 8192: it is nonnegative, so it is not wrapped,
  it is within the bounds, so the in-bounds mask is true everywhere, and the gather reads row `r` of the
  log-probabilities at the partner's column. The total of those entries, negated and divided by 8192, is the loss.
-/
import proofs.«107459_j7189775253513_1_alg».proof.Proof.RefRead
import proofs.«107459_j7189775253513_1_alg».proof.Proof.Spec
import proofs.«107459_j7189775253513_1_alg».proof.Proof.Consts
import proofs.«107459_j7189775253513_1_alg».proof.Proof.LibRowMax
import proofs.«107459_j7189775253513_1_alg».proof.Proof.LibCat2
import Idealize.ShloMosaic.Lib.ValueIdx
import Idealize.ShloMosaic.Lib.ReduceAll
import Idealize.ShloMosaic.Lib.Pipeline.Value
import Idealize.ShloMosaic.PureOps.Ideal.Laws

noncomputable section

namespace Cert.ReferenceIdeal.RefLoss

open Cert.ReferenceIdeal Cert.ReferenceIdeal.Gen Cert.ReferenceIdeal.Read Idealize.ShloMosaic Idealize.ShloMosaic.ValueIdx
open Cert

/-! ## Real numbers inside the extended reals -/

/-- The coercion of a finite sum of reals is the sum of the coercions. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The fold of the maximum from the least element over coerced reals is the coerced largest of them. -/
theorem fold_max_coe (f : Fin 8192 → ℝ) :
    (Finset.univ : Finset (Fin 8192)).fold max (⊥ : EReal) (fun c => ((f c : ℝ) : EReal))
      = ((Finset.univ.sup' ⟨(0 : Fin 8192), Finset.mem_univ _⟩ f : ℝ) : EReal) := by
  have H : (Finset.univ : Finset (Fin 8192)).Nonempty := ⟨(0 : Fin 8192), Finset.mem_univ _⟩
  have h1 : ((Finset.univ.sup' H f : ℝ) : EReal) = Finset.univ.sup' H (fun c => ((f c : ℝ) : EReal)) :=
    Finset.comp_sup'_eq_sup'_comp (f := f) (g := fun x : ℝ => (x : EReal)) H (fun x y => EReal.coe_strictMono.monotone.map_max)
  have h2 : Finset.univ.sup' H (fun c => ((f c : ℝ) : EReal)) = Finset.univ.sup (fun c => ((f c : ℝ) : EReal)) :=
    Finset.sup'_eq_sup H _
  exact (h1.trans h2).symm

/-- A quotient of coerced reals by a nonzero real is the coerced quotient. -/
theorem div_coe_coe (x y : ℝ) (hy : y ≠ 0) : Ideal.div (x : EReal) (y : EReal) = ((x / y : ℝ) : EReal) := by
  rw [Ideal.div_coe hy, ← EReal.coe_mul, mul_one_div]

/-- The logarithm of a coerced positive real is the coerced real logarithm. -/
theorem log_coe_pos (x : ℝ) (hx : 0 < x) : Ideal.log (x : EReal) = ((Real.log x : ℝ) : EReal) := by
  rw [Ideal.log_coe, if_neg (not_le.mpr hx)]

/-- A row's sum of exponentials is positive: every term is. -/
theorem rowSum_pos (s : Fin 8192 → Fin 8192 → ℝ) (r : Fin 8192) : 0 < Spec.rowSum s r := by
  unfold Spec.rowSum
  exact Finset.sum_pos (fun c _ => Real.exp_pos _) ⟨0, Finset.mem_univ _⟩

/-! ## Words of numbers below 8192 -/

theorem toNat_ofNat_small (p : ℕ) (hp : p < 8192) : (BitVec.ofNat 32 p).toNat = p := by
  rw [BitVec.toNat_ofNat]; exact Nat.mod_eq_of_lt (by omega)

/-- Read signed, the word of a number below 8192 is that number. -/
theorem toInt_ofNat_small (p : ℕ) (hp : p < 8192) : (BitVec.ofNat 32 p).toInt = (p : ℤ) := by
  rw [BitVec.toInt_eq_toNat_cond, toNat_ofNat_small p hp]
  rw [if_pos (by omega)]

theorem ofNat_inj_small (r c : Fin 8192) (h : BitVec.ofNat 32 r.val = BitVec.ofNat 32 c.val) : r = c := by
  have := congrArg BitVec.toNat h
  rw [toNat_ofNat_small _ r.isLt, toNat_ofNat_small _ c.isLt] at this
  exact Fin.ext this

/-- The comparison of the words of two row numbers is the bit of their equality. -/
theorem cmpi_eq_small (r c : Fin 8192) :
    IntOp.cmpi .eq (IntOp.addi (BitVec.ofNat 32 r.val) 0#32) (BitVec.ofNat 32 c.val) = if r = c then 1#1 else 0#1 := by
  unfold IntOp.cmpi IntOp.addi
  rw [BitVec.add_zero]
  by_cases h : r = c
  · subst h; simp
  · rw [if_neg h]
    have : (BitVec.ofNat 32 r.val == BitVec.ofNat 32 c.val) = false := by
      rw [beq_eq_false_iff_ne]; exact fun e => h (ofNat_inj_small r c e)
    simp only [this]
    rfl

/-- That bit, converted, is the indicator of the equality. -/
theorem uitofp_bit (r c : Fin 8192) :
    FloatOps.uitofp (F := Ideal) .f32 (if r = c then 1#1 else 0#1 : BitVec 1) = (((if r = c then 1 else 0 : ℝ)) : EReal) := by
  show (((if r = c then 1#1 else 0#1 : BitVec 1).toNat : ℝ) : EReal) = _
  split_ifs <;> simp

/-- The word of a number below 8192 is within the bounds 0 and 8191. -/
theorem inb_small (p : ℕ) (hp : p < 8192) :
    IntOp.andi (IntOp.cmpi .sge (BitVec.ofNat 32 p) 0#32) (IntOp.cmpi .sle (BitVec.ofNat 32 p) 8191#32) = 1#1 := by
  have h1 : (0#32).sle (BitVec.ofNat 32 p) = true := by
    unfold BitVec.sle; rw [toInt_ofNat_small p hp]; simp
  have h2 : (BitVec.ofNat 32 p).sle 8191#32 = true := by
    unfold BitVec.sle; rw [toInt_ofNat_small p hp]
    have : (8191#32).toInt = 8191 := by decide
    rw [this]; simp; omega
  unfold IntOp.andi IntOp.cmpi
  simp only [h1, h2]
  decide

theorem foldl_andi_ones {ι : Type} (f : ι → BitVec 1) (hf : ∀ n, f n = 1#1) :
    ∀ (l : List ι), l.foldl (fun r n => IntOp.andi r (f n)) 1#1 = 1#1
  | [] => rfl
  | a :: l => by
    have h : IntOp.andi 1#1 (f a) = 1#1 := by rw [hf a]; decide
    rw [List.foldl_cons, h]
    exact foldl_andi_ones f hf l

/-- A reduction by "and" from the true bit over true bits is the true bit. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _

/-- The word of a number below 8192 is nonnegative read signed, so the selection on "negative" keeps it. -/
theorem wrap_small (p : ℕ) (hp : p < 8192) (m : BitVec 32) :
    Scalar.select (IntOp.cmpi .slt (BitVec.ofNat 32 p) 0#32) (IntOp.addi (BitVec.ofNat 32 p) m) (BitVec.ofNat 32 p)
      = BitVec.ofNat 32 p := by
  have hs : (BitVec.ofNat 32 p).slt 0#32 = false := by
    unfold BitVec.slt; rw [toInt_ofNat_small p hp]; simp
  have : IntOp.cmpi .slt (BitVec.ofNat 32 p) 0#32 = 0#1 := by
    show BitVec.ofBool ((BitVec.ofNat 32 p).slt 0#32) = 0#1
    rw [hs]; rfl
  rw [this]; exact select_zero _ _

/-- Read signed and clamped into the columns, the word of a number below 8192 is that number. -/
theorem clamp_small (p : ℕ) (hp : p < 8192) : min (BitVec.ofNat 32 p).toInt.toNat 8191 = p := by
  rw [toInt_ofNat_small p hp, Int.toNat_natCast]; omega

/-! ## The gather along the columns

Result element `(r, 0)` reads the operand in row `r` (the batching axis) at the column the start index names,
read signed and clamped into `[0, 8191]`. -/

theorem gather_apply {α : Type} (x : S8192x8192.Idx → α) (idx : IVec S8192x1x1 32) (r : Fin 8192) (z : Fin 1)
    (k : Fin 8192) (hk : min (idx (ix3 r z (0 : Fin 1))).toInt.toNat 8191 = k.val) :
    Host.gather gather_S8192x8192_S8192x1x1_S8192x1_n_1_0_0_1_2_11 x idx (ix2 r z) = x (ix2 r k) := by
  unfold Host.gather
  refine congrArg x ?_
  funext a
  refine Fin.ext ?_
  match a with
  | ⟨0, _⟩ =>
    show gather_S8192x8192_S8192x1x1_S8192x1_n_1_0_0_1_2_11.start (ix2 r z) idx 0
        + gather_S8192x8192_S8192x1x1_S8192x1_n_1_0_0_1_2_11.batchCoord (ix2 r z) 0
        + gather_S8192x8192_S8192x1x1_S8192x1_n_1_0_0_1_2_11.offCoord (ix2 r z) 0 = r.val
    rw [GatherDims.start_batching _ _ _ _ (by decide), GatherDims.offCoord_eq_zero _ _ _ (by decide)]
    unfold GatherDims.batchCoord
    rw [dif_pos (by decide)]
    simp only [Nat.zero_add, Nat.add_zero]
    rfl
  | ⟨1, _⟩ =>
    show gather_S8192x8192_S8192x1x1_S8192x1_n_1_0_0_1_2_11.start (ix2 r z) idx 1
        + gather_S8192x8192_S8192x1x1_S8192x1_n_1_0_0_1_2_11.batchCoord (ix2 r z) 1
        + gather_S8192x8192_S8192x1x1_S8192x1_n_1_0_0_1_2_11.offCoord (ix2 r z) 1 = k.val
    rw [GatherDims.batchCoord_eq_zero _ _ _ (by decide), GatherDims.offCoord_eq_zero _ _ _ (by decide)]
    simp only [Nat.add_zero]
    unfold GatherDims.start
    rw [dif_pos (by decide)]
    have hsi : gather_S8192x8192_S8192x1x1_S8192x1_n_1_0_0_1_2_11.siIdx (ix2 r z)
        ⟨List.idxOf (1 : Fin S8192x8192.rank) gather_S8192x8192_S8192x1x1_S8192x1_n_1_0_0_1_2_11.startIndexMap,
          List.idxOf_lt_length_iff.2 (by decide)⟩ = ix3 r z (0 : Fin 1) := by
      funext b; refine Fin.ext ?_
      match b with
      | ⟨0, _⟩ => rfl
      | ⟨1, _⟩ => rfl
      | ⟨2, _⟩ => rfl
    rw [hsi]
    exact hk

/-! ## Index maps at explicit coordinates -/

theorem lidx7 (r c : Fin 8192) (k : Fin 128) : lidx_main_v7 (ix2 r c) k = ix2 r k := by
  funext a; match a with | ⟨0, _⟩ => rfl | ⟨1, _⟩ => rfl

theorem ridx7 (r c : Fin 8192) (k : Fin 128) : idx_main_v6 (ridx_main_v7 (ix2 r c) k) = ix2 c k := by
  funext a; match a with | ⟨0, _⟩ => rfl | ⟨1, _⟩ => rfl

theorem idx_c1v3 (r : Fin 8192) (z : Fin 1) : idx_main_call1_v3 (ix2 r z) = ix1 r := by
  funext a; match a with | ⟨0, _⟩ => rfl

theorem idx_c1v4 (r c : Fin 8192) : idx_main_call1_v4 (ix2 r c) = ix2 r (0 : Fin 1) := by
  funext a; match a with | ⟨0, _⟩ => rfl | ⟨1, _⟩ => rfl

theorem idx_c1v7 (r k : Fin 8192) : idx_main_call1_v7 (ix1 r) k = ix2 r k := by
  funext a; match a with | ⟨0, _⟩ => rfl | ⟨1, _⟩ => rfl

theorem idx_c1v8 (r : Fin 8192) (z : Fin 1) : idx_main_call1_v8 (ix2 r z) = ix1 r := by
  funext a; match a with | ⟨0, _⟩ => rfl

theorem idx_c1v10 (r c : Fin 8192) : idx_main_call1_v10 (ix2 r c) = ix2 r (0 : Fin 1) := by
  funext a; match a with | ⟨0, _⟩ => rfl | ⟨1, _⟩ => rfl

theorem idx_v25 (r : Fin 8192) (z : Fin 1) : idx_main_v25 (ix2 r z) = ix1 r := by
  funext a; match a with | ⟨0, _⟩ => rfl

theorem idx_c2v5 (r : Fin 8192) (z w : Fin 1) : idx_main_call2_v5 (ix3 r z w) = ix2 r (0 : Fin 1) := by
  funext a
  match a with
  | ⟨0, _⟩ =>
    refine Fin.ext ?_
    show ((r.val * 1 + z.val) * 1 + w.val) / 1 = r.val
    have := z.isLt; have := w.isLt; omega
  | ⟨1, _⟩ => rfl

section Values

variable (a0 a1 : (⟨S4096x128, .f32⟩ : BufTy).Contents (Elt Ideal)) (u : Fin 8192 → Fin 128 → ℝ)
  (hu : ∀ (r : Fin 8192) (d : Fin 128), val_main_v5 (F := Ideal) a0 a1 (ix2 r d) = ((u r d : ℝ) : EReal))
include hu

/-! ## The similarity -/

/-- The product of the unit rows with their transpose is the inner product of two rows. -/
theorem v7_apply (r c : Fin 8192) : val_main_v7 (F := Ideal) a0 a1 (ix2 r c) = ((Spec.dot u r c : ℝ) : EReal) := by
  rw [val_main_v7_apply]
  unfold Spec.dot
  rw [coe_sum]
  refine Finset.sum_congr rfl fun k _ => ?_
  rw [val_main_v6_apply, lidx7, ridx7, hu, hu, EReal.coe_mul]

theorem v9_apply (r c : Fin 8192) :
    val_main_v9 (F := Ideal) a0 a1 (ix2 r c) = ((Spec.dot u r c / (1 / 2) : ℝ) : EReal) := by
  rw [val_main_v9_apply, v7_apply a0 a1 u hu, val_main_v8_apply, val_main_cst_0_apply, Ideal.hostDivf_def, Ideal.ofBits_def,
    Consts.ofBits_half]
  exact div_coe_coe _ _ (by norm_num)

omit hu in
/-- The identity matrix: the indicator of `r = c`. -/
theorem mask_apply (r c : Fin 8192) :
    val_main_v15 (F := Ideal) (ix2 r c) = (((if r = c then 1 else 0 : ℝ)) : EReal) := by
  rw [val_main_v15_apply, val_main_v14_apply, val_main_v13_apply, val_main_v10_apply, val_main_v11_apply,
    val_main_v12_apply, val_main_c_apply]
  exact (congrArg (FloatOps.uitofp (F := Ideal) .f32) (cmpi_eq_small r c)).trans (uitofp_bit r c)

/-- The similarity with the diagonal masked. -/
theorem v18_apply (r c : Fin 8192) :
    val_main_v18 (F := Ideal) a0 a1 (ix2 r c) = ((Spec.simEye Consts.big u r c : ℝ) : EReal) := by
  rw [val_main_v18_apply, v9_apply a0 a1 u hu, val_main_v17_apply, val_main_v16_apply, val_main_cst_1_apply, mask_apply,
    Ideal.subf_def, Ideal.mulf_def, Ideal.ofBits_def, Consts.ofBits_big, ← EReal.coe_mul, ← EReal.coe_sub]
  rfl

/-! ## The log-probabilities -/

/-- The row maximum: the fold of the maximum from minus infinity over the row is its largest entry. -/
theorem c1v0_apply (r : Fin 8192) :
    val_main_call1_v0 (F := Ideal) a0 a1 (ix1 r) = ((Spec.rowMax (Spec.simEye Consts.big u) r : ℝ) : EReal) := by
  unfold val_main_call1_v0 val_main_call1_cst
  refine (RowMax.hostReduce_maximumf_rows_constant (N := 8192) (J := 8192) (φ := .f32) (u := S_) (val_main_v18 (F := Ideal) a0 a1) 0xFF800000#32
    reducesTo_S8192x8192_S8192_d1 h_S_ r).trans ?_
  rw [RowMax.ofBits_ninf_f32]
  have hf : (fun c' : Fin 8192 => val_main_v18 (F := Ideal) a0 a1 (ix2 r c'))
      = fun c' => ((Spec.simEye Consts.big u r c' : ℝ) : EReal) :=
    funext fun c' => v18_apply a0 a1 u hu r c'
  rw [hf]
  exact fold_max_coe _

theorem c1v2_apply (r : Fin 8192) :
    val_main_call1_v2 (F := Ideal) a0 a1 (ix1 r) = ((Spec.rowMax (Spec.simEye Consts.big u) r : ℝ) : EReal) := by
  rw [val_main_call1_v2_apply, val_main_call1_v1_apply, val_main_call1_cst_0_apply, c1v0_apply a0 a1 u hu, Ideal.maximumf_def,
    Ideal.ofBits_def]
  exact RowMax.max_ninf_left _

theorem c1v4_apply (r c : Fin 8192) :
    val_main_call1_v4 (F := Ideal) a0 a1 (ix2 r c) = ((Spec.rowMax (Spec.simEye Consts.big u) r : ℝ) : EReal) := by
  rw [val_main_call1_v4_apply, idx_c1v4, val_main_call1_v3_apply, idx_c1v3, c1v2_apply a0 a1 u hu]

theorem c1v5_apply (r c : Fin 8192) :
    val_main_call1_v5 (F := Ideal) a0 a1 (ix2 r c)
      = ((Spec.simEye Consts.big u r c - Spec.rowMax (Spec.simEye Consts.big u) r : ℝ) : EReal) := by
  rw [val_main_call1_v5_apply, v18_apply a0 a1 u hu, c1v4_apply a0 a1 u hu, Ideal.subf_def, ← EReal.coe_sub]

theorem c1v6_apply (r c : Fin 8192) :
    val_main_call1_v6 (F := Ideal) a0 a1 (ix2 r c)
      = ((Real.exp (Spec.simEye Consts.big u r c - Spec.rowMax (Spec.simEye Consts.big u) r) : ℝ) : EReal) := by
  rw [val_main_call1_v6_apply, c1v5_apply a0 a1 u hu, Ideal.hostUnary_exp_def, Ideal.exp_coe]

/-- The row's sum of exponentials. -/
theorem c1v7_apply (r : Fin 8192) :
    val_main_call1_v7 (F := Ideal) a0 a1 (ix1 r) = ((Spec.rowSum (Spec.simEye Consts.big u) r : ℝ) : EReal) := by
  rw [val_main_call1_v7_apply, val_main_call1_cst_1_apply, Ideal.ofBits_def, Consts.ofBits_zero, zero_add]
  unfold Spec.rowSum
  rw [coe_sum]
  refine Finset.sum_congr rfl fun k _ => ?_
  rw [idx_c1v7, c1v6_apply a0 a1 u hu]

/-- Its logarithm: the sum is positive. -/
theorem c1v9_apply (r : Fin 8192) (z : Fin 1) :
    val_main_call1_v9 (F := Ideal) a0 a1 (ix2 r z)
      = ((Real.log (Spec.rowSum (Spec.simEye Consts.big u) r) : ℝ) : EReal) := by
  rw [val_main_call1_v9_apply, val_main_call1_v8_apply, idx_c1v8, c1v7_apply a0 a1 u hu, Ideal.hostUnary_log_def]
  exact log_coe_pos _ (rowSum_pos _ _)

theorem v24_apply (r c : Fin 8192) :
    val_main_v24 (F := Ideal) a0 a1 (ix2 r c) = ((Spec.logp (Spec.simEye Consts.big u) r c : ℝ) : EReal) := by
  rw [val_main_v24_apply, c1v5_apply a0 a1 u hu, val_main_call1_v10_apply, idx_c1v10, c1v9_apply a0 a1 u hu, Ideal.subf_def,
    ← EReal.coe_sub]
  rfl

/-! ## The labels and the gather -/

omit hu in
/-- The label of row `r` is the word of its partner. -/
theorem v23_apply (r : Fin 8192) : val_main_v23 (F := Ideal) (ix1 r) = BitVec.ofNat 32 (Spec.partner r).val := by
  unfold val_main_v23
  by_cases h : r.val < 4096
  · have hp : (Spec.partner r).val = r.val + 4096 := by unfold Spec.partner; rw [dif_pos h]
    refine (Cat2.cat2_vec_apply (val_main_v21 (F := Ideal)) (val_main_v22 (F := Ideal)) concatenates_S4096_S4096_S8192_d0
      (0 : Fin 2) (⟨r.val, h⟩ : Fin 4096) r (by show r.val = 0 * 4096 + r.val; omega)).trans ?_
    show val_main_v21 (F := Ideal) (ix1 (⟨r.val, h⟩ : Fin 4096)) = _
    rw [val_main_v21_apply, val_main_v19_apply, val_main_v20_apply, val_main_c_2_apply, hp]
    exact (BitVec.ofNat_add r.val 4096).symm
  · have hp : (Spec.partner r).val = r.val - 4096 := by unfold Spec.partner; rw [dif_neg h]
    refine (Cat2.cat2_vec_apply (val_main_v21 (F := Ideal)) (val_main_v22 (F := Ideal)) concatenates_S4096_S4096_S8192_d0
      (1 : Fin 2) (⟨r.val - 4096, by have := r.isLt; omega⟩ : Fin 4096) r
      (by show r.val = 1 * 4096 + (r.val - 4096); omega)).trans ?_
    show val_main_v22 (F := Ideal) (ix1 (⟨r.val - 4096, _⟩ : Fin 4096)) = _
    rw [hp]
    rfl

omit hu in
theorem v25_apply (r : Fin 8192) (z : Fin 1) :
    val_main_v25 (F := Ideal) (ix2 r z) = BitVec.ofNat 32 (Spec.partner r).val := by
  rw [val_main_v25_apply, idx_v25, v23_apply]

omit hu in
/-- The label is nonnegative, so the selection on "negative" keeps it. -/
theorem c2v4_apply (r : Fin 8192) (z : Fin 1) :
    val_main_call2_v4 (F := Ideal) (ix2 r z) = BitVec.ofNat 32 (Spec.partner r).val := by
  rw [val_main_call2_v4_apply, val_main_call2_v1_apply, val_main_call2_v3_apply, val_main_call2_v0_apply,
    val_main_call2_c_apply, val_main_call2_v2_apply, val_main_call2_c_0_apply, v25_apply]
  exact wrap_small _ (Spec.partner r).isLt _

omit hu in
theorem c2v5_apply (r : Fin 8192) (z w : Fin 1) :
    val_main_call2_v5 (F := Ideal) (ix3 r z w) = BitVec.ofNat 32 (Spec.partner r).val := by
  rw [val_main_call2_v5_apply, idx_c2v5, c2v4_apply]

omit hu in
/-- The label is within the bounds everywhere. -/
theorem c2v11_apply (i : S8192x1x1.Idx) : val_main_call2_v11 (F := Ideal) i = 1#1 := by
  obtain ⟨r, z, w, rfl⟩ : ∃ (r : Fin 8192) (z w : Fin 1), i = ix3 r z w := ⟨i 0, i 1, i 2, eq_ix3 i⟩
  rw [val_main_call2_v11_apply, val_main_call2_v7_apply, val_main_call2_v10_apply, c2v5_apply, val_main_call2_v6_apply,
    val_main_call2_c_2_apply, val_main_call2_v9_apply, val_main_call2_v8_apply, val_main_call2_c_1_apply]
  exact inb_small _ (Spec.partner r).isLt

omit hu in
theorem c2v12_apply (j : S8192x1.Idx) : val_main_call2_v12 (F := Ideal) j = 1#1 := by
  unfold val_main_call2_v12
  exact reduce_andi_ones _ _ _ _ c2v11_apply rfl j

/-- The gather reads row `r` of the log-probabilities at the partner's column. -/
theorem c2v13_apply (r : Fin 8192) (z : Fin 1) :
    val_main_call2_v13 (F := Ideal) a0 a1 (ix2 r z)
      = ((Spec.logp (Spec.simEye Consts.big u) r (Spec.partner r) : ℝ) : EReal) := by
  unfold val_main_call2_v13
  refine (gather_apply (val_main_v24 (F := Ideal) a0 a1) (val_main_call2_v5 (F := Ideal)) r z (Spec.partner r) ?_).trans
    (v24_apply a0 a1 u hu r (Spec.partner r))
  rw [c2v5_apply]
  exact clamp_small _ (Spec.partner r).isLt

theorem v26_apply (r : Fin 8192) (z : Fin 1) :
    val_main_v26 (F := Ideal) a0 a1 (ix2 r z)
      = ((Spec.logp (Spec.simEye Consts.big u) r (Spec.partner r) : ℝ) : EReal) := by
  rw [val_main_v26_apply, c2v12_apply, c2v13_apply a0 a1 u hu]
  exact select_one _ _

/-! ## The total, negated, over the number of rows -/

theorem v27_apply (i : S_.Idx) :
    val_main_v27 (F := Ideal) a0 a1 i
      = ((∑ r : Fin 8192, Spec.logp (Spec.simEye Consts.big u) r (Spec.partner r) : ℝ) : EReal) := by
  rw [val_main_v27_apply, val_main_cst_3_apply, Ideal.ofBits_def, Consts.ofBits_zero, zero_add, sum_idx2, coe_sum]
  refine Finset.sum_congr rfl fun r _ => ?_
  rw [Fin.sum_univ_one]
  exact v26_apply a0 a1 u hu r 0

end Values

/-- THE REFERENCE'S RESULT: given that the normalized rows are the coercion of the real matrix `u`, the result is
    the coercion of the real loss of `u`. -/
theorem val_eq (a0 a1 : (⟨S4096x128, .f32⟩ : BufTy).Contents (Elt Ideal)) (u : Fin 8192 → Fin 128 → ℝ)
    (hu : ∀ (r : Fin 8192) (d : Fin 128), Read.val_main_v5 (F := Ideal) a0 a1 (ValueIdx.ix2 r d) = ((u r d : ℝ) : EReal)) :
    Read.val_main_v29 (F := Ideal) a0 a1 = fun _ => ((Cert.Spec.refLoss Cert.Consts.big u : ℝ) : EReal) := by
  funext i
  rw [val_main_v29_apply, val_main_v28_apply, v27_apply a0 a1 u hu, val_main_cst_4_apply, Ideal.hostDivf_def,
    Ideal.hostNegf_def, Ideal.negf_def, Ideal.ofBits_def, Consts.ofBits_8192, ← EReal.coe_neg]
  exact div_coe_coe _ _ (by norm_num)

end Cert.ReferenceIdeal.RefLoss

end
-- ==== Proof.Finite.lean ====
/-
  The precondition, read back: if the printed predicate `finite_inputs` of two input matrices is all ones, every
  entry of both is a real number.

  The predicate is the conjunction, over both inputs, of "every entry's absolute value is below plus infinity".
  At the extended reals the absolute value of `x` is `max x (-x)`, which is plus infinity exactly when `x` is
  one of the two infinities; so an entry that passes is a real.
-/
import proofs.«107459_j7189775253513_1_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

variable [Cert.Pre_finite_inputs.Facts]

instance : Subsingleton S_.Idx := ⟨fun a b => funext fun d => d.elim0⟩

/-- The word of plus infinity denotes plus infinity. -/
theorem ofBits_inf : Ideal.ofBits .f32 0x7F800000#32 = (⊤ : EReal) := by
  simp [Ideal.ofBits, Ideal.ieee]

/-- An extended real whose absolute value is below plus infinity is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The comparison the predicate makes at one entry, read back. -/
theorem real_of_cmp (x : EReal) (h : Ideal.cmp .olt (max x (-x)) (Ideal.ofBits .f32 0x7F800000#32) = 1#1) :
    ∃ r : ℝ, x = (r : EReal) := by
  rw [ofBits_inf] at h
  unfold Ideal.cmp at h
  refine real_of_abs_lt_top x ?_
  by_contra hn
  simp [hn] at h

/-- Under the precondition every entry of both inputs is a real number. -/
theorem entries_real (a0 a1 : FVec Ideal S4096x128 .f32) (h : fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨e0, e1⟩ := IntOp.andi_eq_one.mp h0
  exact ⟨fun i => real_of_cmp (a0 i) (Host.reduce_andi_all _ _ _ _ _ e0 i),
    fun i => real_of_cmp (a1 i) (Host.reduce_andi_all _ _ _ _ _ e1 i)⟩

end Cert.Finite

end
-- ==== Proof.lean ====
/-
  The certificate: the three programs run and leave their arguments as they were, and at the extended reals the kernel
  program and the reference end with one and the same number.

  Both programs stack the two inputs and normalize the rows. Under the precondition every input entry is a real number,
  so the normalized matrix is a real matrix `u`, and every later quantity is a real number too. The kernel program's
  result is the mean over the rows of (log-sum-exp of the masked similarities) minus (the similarity with the partner
  row); the reference's is minus the mean of the partners' log-probabilities. Over the reals these are one number
  (`Spec.kerLoss_eq_refLoss`): the partner of a row is never the row itself, so its similarity carries no mask, and
  dividing by one half is doubling.
-/
import proofs.«107459_j7189775253513_1_alg».proof.Defs
import proofs.«107459_j7189775253513_1_alg».proof.Proof.Gen.Kernel
import proofs.«107459_j7189775253513_1_alg».proof.Proof.Gen.KernelIdeal
import proofs.«107459_j7189775253513_1_alg».proof.Proof.Gen.ReferenceIdeal
import proofs.«107459_j7189775253513_1_alg».proof.Proof.Gen.Pre_finite_inputs
import proofs.«107459_j7189775253513_1_alg».proof.Proof.FrameKernel
import proofs.«107459_j7189775253513_1_alg».proof.Proof.FrameKernelIdeal
import proofs.«107459_j7189775253513_1_alg».proof.Proof.KValue
import proofs.«107459_j7189775253513_1_alg».proof.Proof.RefRun
import proofs.«107459_j7189775253513_1_alg».proof.Proof.RefLoss
import proofs.«107459_j7189775253513_1_alg».proof.Proof.HostPrefix
import proofs.«107459_j7189775253513_1_alg».proof.Proof.HostSide
import proofs.«107459_j7189775253513_1_alg».proof.Proof.Finite
import proofs.«107459_j7189775253513_1_alg».proof.Proof.Spec
import Idealize.ShloMosaic.Adequacy
import Idealize.ShloMosaic.Init

noncomputable section

namespace Cert.Proof

open Idealize.ShloMosaic Idealize.ShloMosaic.TcCoe Idealize.SL.Sem
open Idealize.ShloMosaic.ValueIdx

/-! ## The frames -/

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-! ## The kernel program's result is the real loss -/

section

open Cert.KernelIdeal Cert.KernelIdeal.Gen Cert.KernelIdeal.Hand

/-- Under the precondition the normalized matrix is a real matrix `u`, and the kernel program's last buffer holds the
    loss of `u`. -/
theorem kernel_value (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal) (m ((c.tc : Thread nD τ).loc main_arg0)) (m ((c.tc : Thread nD τ).loc main_arg1)) = fun _ => 1#1) :
    ∃ u : Fin 8192 → Fin 128 → ℝ,
      (∀ (r : Fin 8192) (d : Fin 128), Cert.ReferenceIdeal.Read.val_main_v5 (F := Ideal) (m ((c.tc : Thread nD τ).loc main_arg0)) (m ((c.tc : Thread nD τ).loc main_arg1)) (ix2 r d) = ((u r d : ℝ) : EReal))
      ∧ V5 m c main_v18 = fun _ => ((Cert.Spec.kerLoss Cert.Consts.big u : ℝ) : EReal) := by
  obtain ⟨hr0, hr1⟩ := Cert.Finite.entries_real _ _ hpre
  choose x0 h0 using hr0
  choose x1 h1 using hr1
  let u : Fin 8192 → Fin 128 → ℝ :=
    Cert.Spec.unitRows Cert.Consts.eps (Cert.Spec.stack (fun r d => x0 (ix2 r d)) (fun r d => x1 (ix2 r d)))
  have hu5 : ∀ (r : Fin 8192) (d : Fin 128), Cert.ReferenceIdeal.Read.val_main_v5 (F := Ideal) (m ((c.tc : Thread nD τ).loc main_arg0)) (m ((c.tc : Thread nD τ).loc main_arg1)) (ix2 r d) = ((u r d : ℝ) : EReal) :=
    Cert.HostPrefix.unit_real _ _ (fun r d => x0 (ix2 r d)) (fun r d => x1 (ix2 r d)) (fun r d => h0 _) (fun r d => h1 _)
  have hz : ∀ (r : Fin 8192) (d : Fin 128), V3 m c main_v5 (ix2 r d) = ((u r d : ℝ) : EReal) := fun r d =>
    (congrFun (Cert.KernelIdeal.KValue.V3_v5 m c) _).trans (hu5 r d)
  refine ⟨u, hu5, ?_⟩
  rw [Cert.KernelIdeal.KValue.V5_v18, Cert.KernelIdeal.KValue.V3_v12]
  exact Cert.HostSide.loss_real _ _ u
    (fun r => Cert.KernelIdeal.KValue.finalOut_real m c u (fun r d => (Cert.KernelIdeal.KValue.V3_v13 m c _).trans (hz r d)) r)
    (fun r => Cert.HostSide.sfull_real _ u hz r)

end

/-! ## The claims -/

theorem preserves : Cert.preserves_Kernel_KernelIdeal := trivial

/-- The kernel program ends with its last buffer at the loss of the normalized matrix; the reference, run from the same
    arguments, ends at its own form of that loss: the same real number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.V5 m c Cert.KernelIdeal.main_v18, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  show _ = Cert.KernelIdeal.Hand.V5 m c Cert.KernelIdeal.main_v18
  obtain ⟨u, hu5, hk⟩ := kernel_value m c (hpre c)
  rw [hk, Cert.ReferenceIdeal.RefLoss.val_eq _ _ u hu5, Cert.Spec.kerLoss_eq_refLoss]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
